-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![192, 1536]⟩ ⟨2, ![1536, 1536]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S768x1536 : Shape := ⟨2, ![768, 1536]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_

variable [Facts]

def fn {F : FTy → Type} [FloatOps F] (main_arg0 : FVec F S1536x768 .f32) (main_arg1 : FVec F S768x1536 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  main_v8
-- ==== Pre_finite_inputs_ReferenceIdeal.lean ====
abbrev S1536x6144 : Shape := ⟨2, ![1536, 6144]⟩
abbrev S6144x1536 : Shape := ⟨2, ![6144, 1536]⟩
abbrev S_ : Shape := ⟨0, ![]⟩

class Facts : Prop where
  bcast_S_S1536x6144 : S_.BroadcastsInDim S1536x6144 (![] : Fin 0 → Fin S1536x6144.rank)
  reducesTo_S1536x6144_S_d0_1 : S1536x6144.ReducesTo [0, 1] S_
  h_S_ : 0 < S_.numel
  bcast_S_S6144x1536 : S_.BroadcastsInDim S6144x1536 (![] : Fin 0 → Fin S6144x1536.rank)
  reducesTo_S6144x1536_S_d0_1 : S6144x1536.ReducesTo [0, 1] S_

variable [Facts]

def fn {F : FTy → Type} [FloatOps F] (main_arg0 : FVec F S1536x6144 .f32) (main_arg1 : FVec F S6144x1536 .f32) : IVec S_ 1 :=
  let main_v0 : FVec F S1536x6144 .f32 := Host.absf main_arg0
  let main_cst : FVec F S_ .f32 := constant S_ .f32 0x7F800000#32
  let main_v1 : FVec F S1536x6144 .f32 := broadcastInDim S1536x6144 ![] bcast_S_S1536x6144 main_cst
  let main_v2 : IVec S1536x6144 1 := cmpf .olt main_v0 main_v1
  let main_c : IVec S_ 1 := constantI S_ 1 1#1
  let main_v3 : IVec S_ 1 := (fun x v => Host.reduce IntOp.andi x v reducesTo_S1536x6144_S_d0_1 h_S_) main_v2 main_c
  let main_v4 : FVec F S6144x1536 .f32 := Host.absf main_arg1
  let main_cst_0 : FVec F S_ .f32 := constant S_ .f32 0x7F800000#32
  let main_v5 : FVec F S6144x1536 .f32 := broadcastInDim S6144x1536 ![] bcast_S_S6144x1536 main_cst_0
  let main_v6 : IVec S6144x1536 1 := cmpf .olt main_v4 main_v5
  let main_c_1 : IVec S_ 1 := constantI S_ 1 1#1
  let main_v7 : IVec S_ 1 := (fun x v => Host.reduce IntOp.andi x v reducesTo_S6144x1536_S_d0_1 h_S_) main_v6 main_c_1
  let main_v8 : IVec S_ 1 := andi main_v3 main_v7
  main_v8
-- ==== Kernel.lean ====
abbrev S1536x768 : Shape := ⟨2, ![1536, 768]⟩
abbrev S768x1536 : Shape := ⟨2, ![768, 1536]⟩
abbrev S192x1536 : Shape := ⟨2, ![192, 1536]⟩
abbrev S7x192x1536 : Shape := ⟨3, ![7, 192, 1536]⟩
abbrev S7 : Shape := ⟨1, ![7]⟩
abbrev S_ : Shape := ⟨0, ![]⟩
abbrev S192x768 : Shape := ⟨2, ![192, 768]⟩
abbrev S1x192x1536 : Shape := ⟨3, ![1, 192, 1536]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S192x1536, .f32⟩
  | .local _ .vmem, ⟨0, _⟩ => ⟨S1536x768, .f32⟩
  | .local _ .vmem, ⟨1, _⟩ => ⟨S768x1536, .f32⟩
  | .local _ .vmem, ⟨2, _⟩ => ⟨S192x1536, .f32⟩
  | .local _ .vmem, ⟨3, _⟩ => ⟨S1536x768, .bf16⟩
  | .local _ .vmem, ⟨4, _⟩ => ⟨S768x1536, .bf16⟩
  | .local _ .vmem, ⟨5, _⟩ => ⟨S7x192x1536, .bf16⟩
  | .local _ .vmem, ⟨6, _⟩ => ⟨S7x192x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  { ofTc nBuf bufTy 1 17 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c6_i32_35 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : BitVec 32 := Scalar.addi v2 c6_i32_35
  let c1_i32_36 : BitVec 32 := 1#32
  let v45 : BitVec 32 := Scalar.addi v44 c1_i32_36
  let c8_i32_37 : BitVec 32 := 8#32
  let v46 : BitVec 32 := Scalar.remsi v45 c8_i32_37
  let c192_i32 : BitVec 32 := 192#32
  let v47 : BitVec 32 := Scalar.muli v46 c192_i32
  let v48 : Index := Scalar.indexCast v47
  let c0_38 : Index := 0#32
  ![v48.toNat, 0]
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_35 : BitVec 32 := 6#32
  let v44 : BitVec 32 := Scalar.addi v2 c6_i32_35
  let c1_i32_36 : BitVec 32 := 1#32
  let v45 : BitVec 32 := Scalar.addi v44 c1_i32_36
  let c8_i32_37 : BitVec 32 := 8#32
  let v46 : BitVec 32 := Scalar.remsi v45 c8_i32_37
  let c1_i32_48 : BitVec 32 := 1#32
  let v56 : BitVec 32 := Scalar.muli v46 c1_i32_48
  let v57 : BitVec 32 := Scalar.addi c0_i32_49 v56
  v57.toNat
def k0_dev9 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_54 : BitVec 32 := 5#32
  let v66 : BitVec 32 := Scalar.addi v2 c5_i32_54
  let c1_i32_55 : BitVec 32 := 1#32
  let v67 : BitVec 32 := Scalar.addi v66 c1_i32_55
  let c8_i32_56 : BitVec 32 := 8#32
  let v68 : BitVec 32 := Scalar.remsi v67 c8_i32_56
  let c1_i32_68 : BitVec 32 := 1#32
  let v78 : BitVec 32 := Scalar.muli v68 c1_i32_68
  let v79 : BitVec 32 := Scalar.addi c0_i32_69 v78
  v79.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v88 : BitVec 32 := Scalar.addi v2 c4_i32_74
  let c1_i32_75 : BitVec 32 := 1#32
  let v89 : BitVec 32 := Scalar.addi v88 c1_i32_75
  let c8_i32_76 : BitVec 32 := 8#32
  let v90 : BitVec 32 := Scalar.remsi v89 c8_i32_76
  let c1_i32_88 : BitVec 32 := 1#32
  let v100 : BitVec 32 := Scalar.muli v90 c1_i32_88
  let v101 : BitVec 32 := Scalar.addi c0_i32_89 v100
  v101.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_94 : BitVec 32 := 3#32
  let v110 : BitVec 32 := Scalar.addi v2 c3_i32_94
  let c1_i32_95 : BitVec 32 := 1#32
  let v111 : BitVec 32 := Scalar.addi v110 c1_i32_95
  let c8_i32_96 : BitVec 32 := 8#32
  let v112 : BitVec 32 := Scalar.remsi v111 c8_i32_96
  let c1_i32_108 : BitVec 32 := 1#32
  let v122 : BitVec 32 := Scalar.muli v112 c1_i32_108
  let v123 : BitVec 32 := Scalar.addi c0_i32_109 v122
  v123.toNat
def k0_dev12 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_114 : BitVec 32 := 2#32
  let v132 : BitVec 32 := Scalar.addi v2 c2_i32_114
  let c1_i32_115 : BitVec 32 := 1#32
  let v133 : BitVec 32 := Scalar.addi v132 c1_i32_115
  let c8_i32_116 : BitVec 32 := 8#32
  let v134 : BitVec 32 := Scalar.remsi v133 c8_i32_116
  let c1_i32_128 : BitVec 32 := 1#32
  let v144 : BitVec 32 := Scalar.muli v134 c1_i32_128
  let v145 : BitVec 32 := Scalar.addi c0_i32_129 v144
  v145.toNat
def k0_dev13 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_134 : BitVec 32 := 1#32
  let v154 : BitVec 32 := Scalar.addi v2 c1_i32_134
  let c1_i32_135 : BitVec 32 := 1#32
  let v155 : BitVec 32 := Scalar.addi v154 c1_i32_135
  let c8_i32_136 : BitVec 32 := 8#32
  let v156 : BitVec 32 := Scalar.remsi v155 c8_i32_136
  let c1_i32_148 : BitVec 32 := 1#32
  let v166 : BitVec 32 := Scalar.muli v156 c1_i32_148
  let v167 : BitVec 32 := Scalar.addi c0_i32_149 v166
  v167.toNat
def k0_dev14 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_154 : BitVec 32 := 0#32
  let v176 : BitVec 32 := Scalar.addi v2 c0_i32_154
  let c1_i32_155 : BitVec 32 := 1#32
  let v177 : BitVec 32 := Scalar.addi v176 c1_i32_155
  let c8_i32_156 : BitVec 32 := 8#32
  let v178 : BitVec 32 := Scalar.remsi v177 c8_i32_156
  let c1_i32_169 : BitVec 32 := 1#32
  let v188 : BitVec 32 := Scalar.muli v178 c1_i32_169
  let v189 : BitVec 32 := Scalar.addi c0_i32_170 v188
  v189.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32_175 : BitVec 32 := 192#32
  let v198 : BitVec 32 := Scalar.muli v2 c192_i32_175
  let v199 : Index := Scalar.indexCast v198
  let c0_176 : Index := 0#32
  ![v199.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  bitsLt_bf16_f32 : FTy.bits .bf16 < FTy.bits .f32
  packedbf16_S1536x768_S1536x768_0_0 : (Rect.unit (s := S1536x768) ![0, 0] S1536x768.size inb_S1536x768_S1536x768_0_0).PackedRows (EltTy.packing .bf16)
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  packedbf16_S768x1536_S768x1536_0_0 : (Rect.unit (s := S768x1536) ![0, 0] S768x1536.size inb_S768x1536_S768x1536_0_0).PackedRows (EltTy.packing .bf16)
  h_S192x768 : 0 < S192x768.numel
  inb_S7x192x1536_S1x192x1536_6_0_0 : ∀ a, (![6, 0, 0] : Fin 3 → Nat) a + S1x192x1536.size a ≤ S7x192x1536.size a
  h_S1x192x1536 : 0 < S1x192x1536.numel
  shapeCasts_S1x192x1536_S192x1536 : S1x192x1536.ShapeCasts S192x1536
  shapeCasts_S192x1536_S1x192x1536 : S192x1536.ShapeCasts S1x192x1536
  packedbf16_S7x192x1536_S1x192x1536_6_0_0 : (Rect.unit (s := S7x192x1536) ![6, 0, 0] S1x192x1536.size inb_S7x192x1536_S1x192x1536_6_0_0).PackedRows (EltTy.packing .bf16)
  hamt_7 : (7#32 : BitVec 32).msb = false
  inb_S7_S1_6 : ∀ a, (![6] : Fin 1 → Nat) a + S1.size a ≤ S7.size a
  squeezes_S1_S_ : S1.Squeezes S_
  squeezes_S1x192x1536_S192x1536 : S1x192x1536.Squeezes S192x1536
  wordsbf16_S7x192x1536_S1x192x1536_6_0_0 : (Rect.unit (s := S7x192x1536) ![6, 0, 0] S1x192x1536.size inb_S7x192x1536_S1x192x1536_6_0_0).WholeWords (EltTy.packing .bf16)
  inb_S7x192x1536_S1x192x1536_5_0_0 : ∀ a, (![5, 0, 0] : Fin 3 → Nat) a + S1x192x1536.size a ≤ S7x192x1536.size a
  packedbf16_S7x192x1536_S1x192x1536_5_0_0 : (Rect.unit (s := S7x192x1536) ![5, 0, 0] S1x192x1536.size inb_S7x192x1536_S1x192x1536_5_0_0).PackedRows (EltTy.packing .bf16)
  inb_S7_S1_5 : ∀ a, (![5] : Fin 1 → Nat) a + S1.size a ≤ S7.size a
  wordsbf16_S7x192x1536_S1x192x1536_5_0_0 : (Rect.unit (s := S7x192x1536) ![5, 0, 0] S1x192x1536.size inb_S7x192x1536_S1x192x1536_5_0_0).WholeWords (EltTy.packing .bf16)
  inb_S7x192x1536_S1x192x1536_4_0_0 : ∀ a, (![4, 0, 0] : Fin 3 → Nat) a + S1x192x1536.size a ≤ S7x192x1536.size a
  packedbf16_S7x192x1536_S1x192x1536_4_0_0 : (Rect.unit (s := S7x192x1536) ![4, 0, 0] S1x192x1536.size inb_S7x192x1536_S1x192x1536_4_0_0).PackedRows (EltTy.packing .bf16)
  inb_S7_S1_4 : ∀ a, (![4] : Fin 1 → Nat) a + S1.size a ≤ S7.size a
  wordsbf16_S7x192x1536_S1x192x1536_4_0_0 : (Rect.unit (s := S7x192x1536) ![4, 0, 0] S1x192x1536.size inb_S7x192x1536_S1x192x1536_4_0_0).WholeWords (EltTy.packing .bf16)
  inb_S7x192x1536_S1x192x1536_3_0_0 : ∀ a, (![3, 0, 0] : Fin 3 → Nat) a + S1x192x1536.size a ≤ S7x192x1536.size a
  packedbf16_S7x192x1536_S1x192x1536_3_0_0 : (Rect.unit (s := S7x192x1536) ![3, 0, 0] S1x192x1536.size inb_S7x192x1536_S1x192x1536_3_0_0).PackedRows (EltTy.packing .bf16)
  inb_S7_S1_3 : ∀ a, (![3] : Fin 1 → Nat) a + S1.size a ≤ S7.size a
  wordsbf16_S7x192x1536_S1x192x1536_3_0_0 : (Rect.unit (s := S7x192x1536) ![3, 0, 0] S1x192x1536.size inb_S7x192x1536_S1x192x1536_3_0_0).WholeWords (EltTy.packing .bf16)
  inb_S7x192x1536_S1x192x1536_2_0_0 : ∀ a, (![2, 0, 0] : Fin 3 → Nat) a + S1x192x1536.size a ≤ S7x192x1536.size a
  packedbf16_S7x192x1536_S1x192x1536_2_0_0 : (Rect.unit (s := S7x192x1536) ![2, 0, 0] S1x192x1536.size inb_S7x192x1536_S1x192x1536_2_0_0).PackedRows (EltTy.packing .bf16)
  inb_S7_S1_2 : ∀ a, (![2] : Fin 1 → Nat) a + S1.size a ≤ S7.size a
  wordsbf16_S7x192x1536_S1x192x1536_2_0_0 : (Rect.unit (s := S7x192x1536) ![2, 0, 0] S1x192x1536.size inb_S7x192x1536_S1x192x1536_2_0_0).WholeWords (EltTy.packing .bf16)
  inb_S7x192x1536_S1x192x1536_1_0_0 : ∀ a, (![1, 0, 0] : Fin 3 → Nat) a + S1x192x1536.size a ≤ S7x192x1536.size a
  packedbf16_S7x192x1536_S1x192x1536_1_0_0 : (Rect.unit (s := S7x192x1536) ![1, 0, 0] S1x192x1536.size inb_S7x192x1536_S1x192x1536_1_0_0).PackedRows (EltTy.packing .bf16)
  inb_S7_S1_1 : ∀ a, (![1] : Fin 1 → Nat) a + S1.size a ≤ S7.size a
  wordsbf16_S7x192x1536_S1x192x1536_1_0_0 : (Rect.unit (s := S7x192x1536) ![1, 0, 0] S1x192x1536.size inb_S7x192x1536_S1x192x1536_1_0_0).WholeWords (EltTy.packing .bf16)
  inb_S7x192x1536_S1x192x1536_0_0_0 : ∀ a, (![0, 0, 0] : Fin 3 → Nat) a + S1x192x1536.size a ≤ S7x192x1536.size a
  packedbf16_S7x192x1536_S1x192x1536_0_0_0 : (Rect.unit (s := S7x192x1536) ![0, 0, 0] S1x192x1536.size inb_S7x192x1536_S1x192x1536_0_0_0).PackedRows (EltTy.packing .bf16)
  inb_S7_S1_0 : ∀ a, (![0] : Fin 1 → Nat) a + S1.size a ≤ S7.size a
  wordsbf16_S7x192x1536_S1x192x1536_0_0_0 : (Rect.unit (s := S7x192x1536) ![0, 0, 0] S1x192x1536.size inb_S7x192x1536_S1x192x1536_0_0_0).WholeWords (EltTy.packing .bf16)
  inb_S192x1536_S192x1536_0_0 : ∀ a, (![0, 0] : Fin 2 → Nat) a + S192x1536.size a ≤ S192x1536.size a
  h_S192x1536 : 0 < S192x1536.numel
  dot_S192x768_S768x1536_S192x1536_1_0_0_1_n_n_wf : DotDims.WF S192x768 S768x1536 S192x1536 [1] [0] [0] [1] [] []
  hcc0_scratch4 : 3 + S7.numel ≤ 17
  hcc0_scratch5 : 10 + S7.numel ≤ 17
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 7), ∀ a, (k0_off1 d0 (BitVec.ofNat 32 r.val)) a + S192x768.size a ≤ S1536x768.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off2_inb : ∀ d0 : Dev nD, ∀ a, (k0_off2 d0) a + S192x768.size a ≤ S1536x768.size a
  hstage0_0 : ∀ j, (stage0_0 j).IsWhole
  hstage0_1 : ∀ j, (stage0_1 j).IsWhole
  hstage0_2 : ∀ j, (stage0_2 j).IsWhole

variable [Facts₀]

abbrev cc0_scratch4 : DmaSems sig S7 := SemArray.consecutive 3 S7 hcc0_scratch4
abbrev cc0_scratch5 : DmaSems sig S7 := SemArray.consecutive 10 S7 hcc0_scratch5
def dot_S192x768_S768x1536_S192x1536_1_0_0_1_n_n : DotDims S192x768 S768x1536 S192x1536 where
  lhsContracting := [1]
  rhsContracting := [0]
  lhsNonContracting := [0]
  rhsNonContracting := [1]
  lhsBatch := []
  rhsBatch := []
  wf := dot_S192x768_S768x1536_S192x1536_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x6144, .f32⟩
  | .hbm, ⟨1, _⟩ => ⟨S6144x1536, .f32⟩
  | .hbm, ⟨2, _⟩ => ⟨S1536x1536, .f32⟩
  | _, _ => ⟨S1536x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1536x6144_S6144x1536_S1536x1536_1_0_0_1_n_n_wf : DotDims.WF S1536x6144 S6144x1536 S1536x1536 [1] [0] [0] [1] [] []

variable [Facts₀]

def dot_S1536x6144_S6144x1536_S1536x1536_1_0_0_1_n_n : DotDims S1536x6144 S6144x1536 S1536x1536 where
  lhsContracting := [1]
  rhsContracting := [0]
  lhsNonContracting := [0]
  rhsNonContracting := [1]
  lhsBatch := []
  rhsBatch := []
  wf := dot_S1536x6144_S6144x1536_S1536x1536_1_0_0_1_n_n_wf

class Facts : Prop extends Facts₀ where

variable [Facts]
-- ==== Proof.Kernel.Mesh.lean ====
/-
  The mesh of eight devices and the cells of the reduce-scatter matmul.

  Device c computes, for every other device t, the product of rows [192 t, 192 t + 192) of its
  block of A with its block of B, and copies it into slot j of t's landing buffer, where
  t = c + j + 1 (mod 8); slot j of c's own landing buffer is therefore written by the device
  c - j - 1 (mod 8). Before its first copy a device signals the seven others once and waits
  for their seven signals, so that every landing buffer exists when it is written.
-/
import proofs.«900369_g7700000000000370_dist_matmul_mk_i_outk_m1536_n1536_k768_v7x_i8_bf16_1_alg».proof.Proof.Gen.Kernel.Frame
import proofs.«900369_g7700000000000370_dist_matmul_mk_i_outk_m1536_n1536_k768_v7x_i8_bf16_1_alg».proof.Proof.Gen.Kernel.Skeleton
import Idealize.ShloMosaic.Lib.Pipeline.Launch
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own cells beside the kernel's, whose duties are named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: who writes to whom -/

/-- The device that copy (and signal) `j` of device `c` addresses: `c + j + 1` modulo 8. -/
def tgt (c : Dev nD) (j : Fin 7) : Dev nD := ⟨(c.val + j.val + 1) % 8, Nat.mod_lt _ (by decide)⟩
/-- The device whose copy `j` lands on `c`: `c - j - 1` modulo 8. -/
def src (c : Dev nD) (j : Fin 7) : Dev nD := ⟨(c.val + 7 - j.val) % 8, Nat.mod_lt _ (by decide)⟩
/-- Signal `j` of a device reaches the device whose copy `6 - j` it will receive. -/
def rev (j : Fin 7) : Fin 7 := ⟨6 - j.val, by omega⟩

theorem src_tgt (c : Dev nD) (j : Fin 7) : src (tgt c j) j = c := by revert c j; decide
theorem tgt_src (c : Dev nD) (j : Fin 7) : tgt (src c j) j = c := by revert c j; decide
theorem tgt_rev (c : Dev nD) (j : Fin 7) : tgt c (rev j) = src c j := by revert c j; decide
theorem src_rev (c : Dev nD) (j : Fin 7) : src c (rev j) = tgt c j := by revert c j; decide
theorem rev_rev (j : Fin 7) : rev (rev j) = j := by revert j; decide
theorem tgt_ne (c : Dev nD) (j : Fin 7) : tgt c j ≠ c := by revert c j; decide
theorem tgt_inj (c : Dev nD) {i j : Fin 7} (h : tgt c i = tgt c j) : i = j := by revert c i j; decide

/-- For each `j`, `c ↦ c + j + 1` is a permutation of the mesh. -/
def ring (j : Fin 7) : Dev nD ≃ Dev nD := ⟨fun c => tgt c j, fun c => src c j, fun c => src_tgt c j, fun c => tgt_src c j⟩

/-- The kernel's device chains: signal `j + 1` and copy `j` both name `c + j + 1`. -/
theorem sig_dev0 (c : Dev nD) : (⟨k0_dev1 c, k0_dev1_lt c⟩ : Dev nD) = tgt c 0 := Fin.ext ((k0_dev1_eq c).trans (by revert c; decide))
theorem sig_dev1 (c : Dev nD) : (⟨k0_dev2 c, k0_dev2_lt c⟩ : Dev nD) = tgt c 1 := Fin.ext ((k0_dev2_eq c).trans (by revert c; decide))
theorem sig_dev2 (c : Dev nD) : (⟨k0_dev3 c, k0_dev3_lt c⟩ : Dev nD) = tgt c 2 := Fin.ext ((k0_dev3_eq c).trans (by revert c; decide))
theorem sig_dev3 (c : Dev nD) : (⟨k0_dev4 c, k0_dev4_lt c⟩ : Dev nD) = tgt c 3 := Fin.ext ((k0_dev4_eq c).trans (by revert c; decide))
theorem sig_dev4 (c : Dev nD) : (⟨k0_dev5 c, k0_dev5_lt c⟩ : Dev nD) = tgt c 4 := Fin.ext ((k0_dev5_eq c).trans (by revert c; decide))
theorem sig_dev5 (c : Dev nD) : (⟨k0_dev6 c, k0_dev6_lt c⟩ : Dev nD) = tgt c 5 := Fin.ext ((k0_dev6_eq c).trans (by revert c; decide))
theorem sig_dev6 (c : Dev nD) : (⟨k0_dev7 c, k0_dev7_lt c⟩ : Dev nD) = tgt c 6 := Fin.ext ((k0_dev7_eq c).trans (by revert c; decide))
theorem dma_dev6 (c : Dev nD) : (⟨k0_dev8 c, k0_dev8_lt c⟩ : Dev nD) = tgt c 6 := Fin.ext ((k0_dev8_eq c).trans (by revert c; decide))
theorem dma_dev5 (c : Dev nD) : (⟨k0_dev9 c, k0_dev9_lt c⟩ : Dev nD) = tgt c 5 := Fin.ext ((k0_dev9_eq c).trans (by revert c; decide))
theorem dma_dev4 (c : Dev nD) : (⟨k0_dev10 c, k0_dev10_lt c⟩ : Dev nD) = tgt c 4 := Fin.ext ((k0_dev10_eq c).trans (by revert c; decide))
theorem dma_dev3 (c : Dev nD) : (⟨k0_dev11 c, k0_dev11_lt c⟩ : Dev nD) = tgt c 3 := Fin.ext ((k0_dev11_eq c).trans (by revert c; decide))
theorem dma_dev2 (c : Dev nD) : (⟨k0_dev12 c, k0_dev12_lt c⟩ : Dev nD) = tgt c 2 := Fin.ext ((k0_dev12_eq c).trans (by revert c; decide))
theorem dma_dev1 (c : Dev nD) : (⟨k0_dev13 c, k0_dev13_lt c⟩ : Dev nD) = tgt c 1 := Fin.ext ((k0_dev13_eq c).trans (by revert c; decide))
theorem dma_dev0 (c : Dev nD) : (⟨k0_dev14 c, k0_dev14_lt c⟩ : Dev nD) = tgt c 0 := Fin.ext ((k0_dev14_eq c).trans (by revert c; decide))

/-! ## The memrefs and the cells -/

/-- The two buffers of seven slots: the products to send, and the landing buffer. -/
abbrev sM : Memref sig .tc .vmem S7x192x1536 .bf16 := Memref.whole cc0_scratch2
abbrev rM : Memref sig .tc .vmem S7x192x1536 .bf16 := Memref.whole cc0_scratch3

theorem slot_inb (j : Fin 7) : ∀ a, (![j.val, 0, 0] : Fin 3 → Nat) a + S1x192x1536.size a ≤ S7x192x1536.size a := by revert j; decide
theorem sem_inb (j : Fin 7) : ∀ a, (![j.val] : Fin 1 → Nat) a + S1.size a ≤ S7.size a := by revert j; decide

/-- Slot `j` of a seven-slot buffer as a rectangle, -/
abbrev slotRect (j : Fin 7) : Rect S7x192x1536 := Rect.unit (s := S7x192x1536) ![j.val, 0, 0] S1x192x1536.size (slot_inb j)
/-- and as the copy's source and destination memrefs. -/
abbrev srcM (j : Fin 7) : Memref sig .tc .vmem S192x1536 .bf16 :=
  (sM.slice (slotRect j) (fun _ => rfl)).squeeze S192x1536 squeezes_S1x192x1536_S192x1536
abbrev dstM (j : Fin 7) : Memref sig .tc .vmem S192x1536 .bf16 :=
  (rM.slice (slotRect j) (fun _ => rfl)).squeeze S192x1536 squeezes_S1x192x1536_S192x1536

/-- The barrier semaphore of collective id 0, and the send and receive semaphores of slot `j`. -/
abbrev barS : Sem sig := (SemArray.scalar (sig.barrier 0 rfl) : Sems sig S_).sem
abbrev sendS (j : Fin 7) : DmaSem sig := ((cc0_scratch4.slice (Rect.unit (s := S7) ![j.val] S1.size (sem_inb j))).squeeze S_ squeezes_S1_S_).sem
abbrev recvS (j : Fin 7) : DmaSem sig := ((cc0_scratch5.slice (Rect.unit (s := S7) ![j.val] S1.size (sem_inb j))).squeeze S_ squeezes_S1_S_).sem

theorem sendS_val (j : Fin 7) : (sendS j).val = 3 + j.val := by revert j; decide
theorem recvS_val (j : Fin 7) : (recvS j).val = 10 + j.val := by revert j; decide

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The credit of one slot's copy. -/
abbrev N : ℕ := (dstM 0).view.dmaCredit
theorem N_pos : 0 < N := View.dmaCredit_pos _ (by decide)
theorem amount_dst (j : Fin 7) : (dstM j).view.amount (.dma (recvS j)) = N := by revert j; decide

end Cert.Kernel.Hand

end
-- ==== Proof.Kernel.Contents.lean ====
/-
  What the buffers hold, as pure terms of the arrays the devices were launched with.

  Device c rounds its blocks of A and B to the narrow format (abf, bbf), multiplies rows
  [192 t, 192 t + 192) of abf by bbf for each other device t = c + j + 1 (prodJ c j: slot j of
  its send buffer), and keeps the product of its own rows. Slot j of its landing buffer ends
  holding the product made for it by the device c - j - 1 (landed c j); the result block is its own
  product plus the seven landed ones, added in the order 6, 5, …, 0.
-/
import proofs.«900369_g7700000000000370_dist_matmul_mk_i_outk_m1536_n1536_k768_v7x_i8_bf16_1_alg».proof.Proof.Kernel.Mesh

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Device `c`'s blocks of the two arguments, as its staging buffers hold them. -/
def aStg (c : Dev nD) : (cc0_stg0_0 : Ref sig .tc).ty.Contents (Elt F) :=
  (win0_0.blk t0_0).view.read (Elt F) (m ((c : Thread nD τ).loc main_arg0))
def bStg (c : Dev nD) : (cc0_stg1_0 : Ref sig .tc).ty.Contents (Elt F) :=
  (win0_1.blk t0_0).view.read (Elt F) (m ((c : Thread nD τ).loc main_arg1))

/-- The two blocks in the narrow format. -/
def abf (c : Dev nD) : (cc0_scratch0 : Ref sig .tc).ty.Contents (Elt F) := k0_pay1 (aStg m c)
def bbf (c : Dev nD) : (cc0_scratch1 : Ref sig .tc).ty.Contents (Elt F) := k0_pay2 (bStg m c)

/-- Rows [192 t, 192 t + 192) of the narrow A block, `t = c + j + 1` modulo 8: the rows device `t` needs. -/
def rowsFor (c : Dev nD) (j : Fin 7) : Vec F S192x768 .bf16 :=
  (Memref.whole cc0_scratch0 : Memref sig .tc .vmem S1536x768 .bf16).view.readAt (Elt F)
    (Rect.unit (s := S1536x768) (k0_off1 c (BitVec.ofNat 32 j.val)) S192x768.size (k0_off1_inb c j)).toLoadRect (abf m c)
/-- The device's own rows [192 c, 192 c + 192). -/
def rowsOwn (c : Dev nD) : Vec F S192x768 .bf16 :=
  (Memref.whole cc0_scratch0 : Memref sig .tc .vmem S1536x768 .bf16).view.readAt (Elt F)
    (Rect.unit (s := S1536x768) (k0_off2 c) S192x768.size (k0_off2_inb c)).toLoadRect (abf m c)

/-- The partial product device `c` makes for device `c + j + 1`, as slot `j` of its send buffer holds it. -/
def prodJ (c : Dev nD) (j : Fin 7) : FVec F S1x192x1536 .bf16 := k0_pay5 (rowsFor m c j) (bbf m c)

/-- What slot `j` of device `c`'s landing buffer reads once the copy has landed. -/
def landed (c : Dev nD) (j : Fin 7) : FVec F S1x192x1536 .bf16 := prodJ m (src c j) j

/-- The result block of device `c`: its own product and the seven landed ones. -/
def outAt (c : Dev nD) : (cc0_stg2_0 : Ref sig .tc).ty.Contents (Elt F) :=
  k0_pay15 (k0_pay14 (k0_pay13 (k0_pay12 (rowsOwn m c) (bbf m c) (landed m c 6) (landed m c 5)) (landed m c 4) (landed m c 3))
    (landed m c 2) (landed m c 1)) (landed m c 0)

/-- Every store into a send slot writes the same function of its two operands. -/
theorem pay6_eq (x : Vec F S192x768 .bf16) (y : Vec F S768x1536 .bf16) : k0_pay4 (k0_pay3 x y) = k0_pay5 x y := rfl
theorem pay4_eq (x : Vec F S192x768 .bf16) (y : Vec F S768x1536 .bf16) : k0_pay6 x y = k0_pay5 x y := rfl
theorem pay3_eq (x : Vec F S192x768 .bf16) (y : Vec F S768x1536 .bf16) : k0_pay7 x y = k0_pay5 x y := rfl
theorem pay2_eq (x : Vec F S192x768 .bf16) (y : Vec F S768x1536 .bf16) : k0_pay9 (k0_pay8 x y) = k0_pay5 x y := rfl
theorem pay1_eq (x : Vec F S192x768 .bf16) (y : Vec F S768x1536 .bf16) : k0_pay10 x y = k0_pay5 x y := rfl
theorem pay0_eq (x : Vec F S192x768 .bf16) (y : Vec F S768x1536 .bf16) : k0_pay11 x y = k0_pay5 x y := rfl

end Cert.Kernel.Hand

end
-- ==== Proof.Kernel.Sched.lean ====
/-
  The protocol of the reduce-scatter, as a schedule of one round per cell.

  Barrier cell of device c: seven duties of one unit, duty i paid by the device c - i - 1, which hands
  over slot 6 - i of ITS landing buffer (the slot device c's copy 6 - i writes) and the fact that the
  receive cell of that slot is at its round. Receive cell j of device c: one duty, the copy of the
  device c - j - 1, handing over slot j of c's landing buffer at contents that read as the product
  made for c. Send cell j of device c: one duty, its own copy, handing slot j of the send buffer back.
-/
import proofs.«900369_g7700000000000370_dist_matmul_mk_i_outk_m1536_n1536_k768_v7x_i8_bf16_1_alg».proof.Proof.Kernel.Contents

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots as separation-logic assertions -/

def sendPts (c : Dev nD) (j : Fin 7) (f : Buf (Elt F) ((srcM j).view.loc (c : Thread nD τ))) : sProp 𝕄 :=
  (srcM j).view.loc (c : Thread nD τ) ↦[(srcM j).view.set]{fullShare} f
def recvPts (c : Dev nD) (j : Fin 7) (f : Buf (Elt F) ((dstM j).view.loc (c : Thread nD τ))) : sProp 𝕄 :=
  (dstM j).view.loc (c : Thread nD τ) ↦[(dstM j).view.set]{fullShare} f

/-- What slot `j` of a landing buffer at contents `g` reads. -/
def slotRead (j : Fin 7) (g : (cc0_scratch3 : Ref sig .tc).ty.Contents (Elt F)) : Vec F S1x192x1536 .bf16 :=
  (rM : Memref sig .tc .vmem S7x192x1536 .bf16).view.readAt (Elt F) (slotRect j).toLoadRect g

def barPay (c : Dev nD) (i : Fin 7) : sProp 𝕄 :=
  iprop((∃ f, recvPts (src c i) (rev i) f) ∗ reached ER (recvCell (src c i) (rev i)) 0)
def recvPay (c : Dev nD) (j : Fin 7) : sProp 𝕄 :=
  iprop(∃ g, recvPts c j g ∗ ⌜slotRead j g = landed m c j⌝)
def sendPay (c : Dev nD) (j : Fin 7) : sProp 𝕄 := iprop(∃ f, sendPts c j f)

/-- The slot a transfer semaphore belongs to (send semaphores are numbered 3 + j, receive ones 10 + j). -/
def slotOf (q : DmaSem sig) : Fin 7 := ⟨(q.val + 4) % 7, Nat.mod_lt _ (by decide)⟩
theorem slotOf_send (j : Fin 7) : slotOf (sendS j) = j := by revert j; decide
theorem slotOf_recv (j : Fin 7) : slotOf (recvS j) = j := by revert j; decide

def sched : Rounds.Schedule (GSem nD τ sig) (Fin 7) 𝕄 where
  duties g r := if r = 0 ∧ g.1.2 = .tc then
      (match g.2 with
        | .reg s => if s = barS then Finset.univ else ∅
        | .dma q => if 3 ≤ q.val then {0} else ∅)
    else ∅
  unitless _ := False
  amount g _ _ := match g.2 with
    | .reg _ => 1
    | .dma _ => N
  payload g _ d := match g.2 with
    | .reg s => if s = barS then barPay g.1.1 d else iprop(emp)
    | .dma q => if 10 ≤ q.val then recvPay m g.1.1 (slotOf q) else if 3 ≤ q.val then sendPay g.1.1 (slotOf q) else iprop(emp)
  amount_pos g _ _ _ := by
    cases g.2 with
    | reg s => exact Nat.one_pos
    | dma q => exact N_pos

instance sched_payload_storable (g : GSem nD τ sig) (r : ℕ) (d : Fin 7) :
    BI.Storable (upEmb : UEmb _ 𝕄) ((sched (F := F) m).payload g r d) := by
  obtain ⟨t, s⟩ := g
  cases s with
  | reg s =>
    show BI.Storable upEmb (if s = barS then barPay t.1 d else iprop(emp))
    unfold barPay recvPts; split <;> infer_instance
  | dma q =>
    show BI.Storable upEmb (if 10 ≤ q.val then recvPay m t.1 (slotOf q) else if 3 ≤ q.val then sendPay t.1 (slotOf q) else iprop(emp))
    unfold recvPay sendPay recvPts sendPts; (repeat' split) <;> infer_instance

section Tables
variable (c : Dev nD) (j : Fin 7)

theorem three_le_send : 3 ≤ (sendS j).val := by rw [sendS_val]; omega
theorem three_le_recv : 3 ≤ (recvS j).val := by rw [recvS_val]; omega
theorem ten_le_recv : 10 ≤ (recvS j).val := by rw [recvS_val]; omega
theorem not_ten_le_send : ¬ 10 ≤ (sendS j).val := by rw [sendS_val]; omega

theorem duties_bar : (sched (F := F) m).duties (barCell c) 0 = Finset.univ := by
  dsimp only [sched]; rw [if_pos ⟨rfl, rfl⟩]; exact if_pos rfl
theorem duties_send : (sched (F := F) m).duties (sendCell c j) 0 = {0} := by
  dsimp only [sched]; rw [if_pos ⟨rfl, rfl⟩]; exact if_pos (three_le_send j)
theorem duties_recv : (sched (F := F) m).duties (recvCell c j) 0 = {0} := by
  dsimp only [sched]; rw [if_pos ⟨rfl, rfl⟩]; exact if_pos (three_le_recv j)
theorem duties_later (g : GSem nD τ sig) : ∀ r, 1 ≤ r → (sched (F := F) m).duties g r = ∅ :=
  fun r hr => by dsimp only [sched]; rw [if_neg fun h => by omega]

theorem amount_bar (d : Fin 7) : (sched (F := F) m).amount (barCell c) 0 d = 1 := rfl
theorem amount_send (d : Fin 7) : (sched (F := F) m).amount (sendCell c j) 0 d = N := rfl
theorem amount_recv (d : Fin 7) : (sched (F := F) m).amount (recvCell c j) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (i : Fin 7) : (sched (F := F) m).payload (barCell c) 0 i = barPay c i := by
  dsimp only [sched]; exact if_pos rfl
theorem payload_send (d : Fin 7) : (sched (F := F) m).payload (sendCell c j) 0 d = sendPay c j := by
  dsimp only [sched]; rw [if_neg (not_ten_le_send j), if_pos (three_le_send j), slotOf_send]
theorem payload_recv (d : Fin 7) : (sched (F := F) m).payload (recvCell c j) 0 d = recvPay m c j := by
  dsimp only [sched]; rw [if_pos (ten_le_recv j), slotOf_recv]

/-- The whole round of the barrier cell: every other device's landing slot for this device's copies. -/
theorem rest_bar : bigSep ((sched (F := F) m).duties (barCell c) 0 \ ∅) (fun d => (sched (F := F) m).payload (barCell c) 0 d)
    = bigSep Finset.univ (fun i : Fin 7 => barPay (F := F) c i) := by
  rw [Finset.sdiff_empty, duties_bar]; exact bigSep_congr fun i _ => payload_bar m c i
theorem rest_send : bigSep ((sched (F := F) m).duties (sendCell c j) 0 \ ∅) (fun d => (sched (F := F) m).payload (sendCell c j) 0 d) = sendPay c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Tables

end Cert.Kernel.Hand

end
-- ==== Proof.Kernel.Owed.lean ====
/-
  What each device owes at launch, the levels that order the waits, and the proof data of the region.

  A device owes fourteen payments: one unit to the barrier cell of each of the seven other devices,
  and the credit of one slot's copy to the receive cell of the slot it writes on each of them. It
  pays them in program order: the signals 0 … 6, then the copies 6, 5, …, 0. A wait on the barrier
  cell (level 1) happens while only copies (receive cells, level 2) are owed; every other wait of the
  kernel happens when nothing is owed; the pipeline's own staging cells are at level 0.
-/
import proofs.«900369_g7700000000000370_dist_matmul_mk_i_outk_m1536_n1536_k768_v7x_i8_bf16_1_alg».proof.Proof.Kernel.Sched

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What a device owes -/

/-- The credit of copy `j`, owed to the receive cell of slot `j` on the device it lands on; -/
def Rt (c : Dev nD) (j : Fin 7) : CellTallies nD τ sig Unit := tallyAt (recvCell (tgt c j) j) () N
/-- the unit of signal `i`, owed to the barrier cell of the device it reaches. -/
def Bt (c : Dev nD) (i : Fin 7) : CellTallies nD τ sig Unit := tallyAt (barCell (tgt c i)) () 1

/-- The payments in reverse program order: number 0 is the last copy (slot 0), number 6 the first (slot 6),
    number 7 the last signal (6), number 13 the first (0). -/
def payment (c : Dev nD) (n : ℕ) : CellTallies nD τ sig Unit :=
  if h : n < 7 then Rt c ⟨n, h⟩ else if h : n < 14 then Bt c ⟨13 - n, by omega⟩ else 0
/-- What is still owed when `n` payments remain. -/
def owedAfter (c : Dev nD) : ℕ → CellTallies nD τ sig Unit
  | 0 => 0
  | n + 1 => owedAfter c n + payment c n
def O₀ (c : Dev nD) : CellTallies nD τ sig Unit := owedAfter c 14

theorem owedAfter_pos {c : Dev nD} {g : GSem nD τ sig} {u : Unit} : ∀ {n : ℕ}, 0 < owedAfter c n g u →
    (∃ j, g = recvCell (tgt c j) j) ∨ (∃ i, 7 ≤ n ∧ g = barCell (tgt c i))
  | 0, h => by simp [owedAfter] at h
  | n + 1, h => by
    rw [owedAfter, Pi.add_apply, Finsupp.add_apply] at h
    rcases Nat.add_pos_iff_pos_or_pos.mp h with h | h
    · rcases owedAfter_pos h with h' | ⟨i, hn, hi⟩
      · exact .inl h'
      · exact .inr ⟨i, by omega, hi⟩
    · unfold payment at h
      split at h
      · rename_i hn
        unfold Rt at h; rw [tallyAt_apply] at h
        by_cases hg : g = recvCell (tgt c ⟨n, hn⟩) ⟨n, hn⟩ ∧ u = ()
        · exact .inl ⟨_, hg.1⟩
        · rw [if_neg hg] at h; exact absurd h (Nat.lt_irrefl 0)
      · split at h
        · rename_i hn hn'
          unfold Bt at h; rw [tallyAt_apply] at h
          by_cases hg : g = barCell (tgt c ⟨13 - n, by omega⟩) ∧ u = ()
          · exact .inr ⟨_, by omega, hg.1⟩
          · rw [if_neg hg] at h; exact absurd h (Nat.lt_irrefl 0)
        · exact absurd h (Nat.lt_irrefl 0)

/-! ## The levels -/

def L (g : GSem nD τ sig) : Finset Unit := if g.1.2 = .tc then {()} else ∅
/-- Barrier cells at 1, receive cells at 2, everything else (staging cells, send cells) at 0. -/
def lv (g : GSem nD τ sig) (_ : Unit) : ℕ :=
  match g.2 with
  | .reg s => if s = barS then 1 else 0
  | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_recv (c : Dev nD) (j : Fin 7) (u : Unit) : lv (recvCell c j) u = 2 := by dsimp only [lv]; exact if_pos (ten_le_recv j)

/-- A wait on a cell at level 0 (the pipeline's staging cells) while any of the fourteen payments, or none, is owed. -/
theorem mayWait_stage (c : Dev nD) (q : DmaSem sig) (hq : ¬ 10 ≤ q.val) (n : ℕ) :
    (levAts L lv : sProp 𝕄) ⊢ MayWait (c : Thread nD τ) (.dma q) () (owedAfter c n) :=
  MayOwe.of_cut (L := L) (lev := lv) 0 (fun p hp => by rw [Finset.mem_singleton.mp hp, L_tc]; exact Finset.mem_singleton_self _)
    (fun g u hg => by rcases owedAfter_pos hg with ⟨j, rfl⟩ | ⟨i, -, rfl⟩ <;> exact Finset.mem_singleton_self _)
    (fun p hp => by rw [Finset.mem_singleton.mp hp]; dsimp only [lv]; rw [if_neg hq])
    (fun g u hg => by
      rcases owedAfter_pos hg with ⟨j, rfl⟩ | ⟨i, -, rfl⟩
      · rw [lv_recv]; decide
      · rw [lv_bar]; decide)

/-- At its barrier wait a device owes the seven copies only: receive cells, above its barrier cell. -/
theorem mayWait_bar (c : Dev nD) :
    (levAts L lv : sProp 𝕄) ⊢ MayWait (c : Thread nD τ) (.reg barS) () (owedAfter c 7) :=
  MayOwe.of_cut (L := L) (lev := lv) 1 (fun p hp => by rw [Finset.mem_singleton.mp hp, L_tc]; exact Finset.mem_singleton_self _)
    (fun g u hg => by rcases owedAfter_pos hg with ⟨j, rfl⟩ | ⟨i, -, rfl⟩ <;> exact Finset.mem_singleton_self _)
    (fun p hp => by rw [Finset.mem_singleton.mp hp]; exact Nat.le_of_eq (lv_bar c ()))
    (fun g u hg => by
      -- with seven payments left only copies are owed
      have : ∀ {n : ℕ}, n ≤ 7 → 0 < owedAfter c n g u → ∃ j, g = recvCell (tgt c j) j := by
        intro n
        induction n with
        | zero => intro _ h; simp [owedAfter] at h
        | succ n ih =>
          intro hn h
          rw [owedAfter, Pi.add_apply, Finsupp.add_apply] at h
          rcases Nat.add_pos_iff_pos_or_pos.mp h with h | h
          · exact ih (by omega) h
          · unfold payment at h; rw [dif_pos (by omega : n < 7)] at h
            unfold Rt at h; rw [tallyAt_apply] at h
            by_cases hg' : g = recvCell (tgt c ⟨n, by omega⟩) ⟨n, by omega⟩ ∧ u = ()
            · exact ⟨_, hg'.1⟩
            · rw [if_neg hg'] at h; exact absurd h (Nat.lt_irrefl 0)
      obtain ⟨j, rfl⟩ := this (Nat.le_refl 7) hg
      rw [lv_recv]; decide)

end Cert.Kernel.Hand

end
-- ==== Proof.Kernel.Slots.lean ====
/-
  The seven slots of a buffer: they partition it, a slot stored whole reads back as the payload, and
  what a copy lands in a slot reads as what the copy's source slot read.
-/
import proofs.«900369_g7700000000000370_dist_matmul_mk_i_outk_m1536_n1536_k768_v7x_i8_bf16_1_alg».proof.Proof.Kernel.Mesh
import Idealize.ShloMosaic.Lib.Ring

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Val : EltTy → Type}

/-- The elements of slot `j` of a seven-slot buffer `b`. -/
def slotSet (b : Ref sig .tc) (hb : b.ty.shape = S7x192x1536) (j : Fin 7) : Finset b.ty.Idx :=
  (hb ▸ (slotRect j).set : Finset b.ty.shape.Idx)

theorem slotRect_mem (j : Fin 7) (i : S7x192x1536.Idx) : i ∈ (slotRect j).set ↔ (i 0).val = j.val := by
  rw [Rect.mem_set_unit]
  have h1 : (i 1).val < 192 := (i 1).isLt
  have h2 : (i 2).val < 1536 := (i 2).isLt
  constructor
  · intro h
    have h0 : j.val ≤ (i 0).val ∧ (i 0).val < j.val + 1 := h 0
    omega
  · intro h a
    fin_cases a
    · exact (show j.val ≤ (i 0).val ∧ (i 0).val < j.val + 1 from ⟨by omega, by omega⟩)
    · exact (show 0 ≤ (i 1).val ∧ (i 1).val < 0 + 192 from ⟨by omega, by omega⟩)
    · exact (show 0 ≤ (i 2).val ∧ (i 2).val < 0 + 1536 from ⟨by omega, by omega⟩)

theorem slot_disjoint (j j' : Fin 7) (h : j ≠ j') : Disjoint (slotRect j).set (slotRect j').set :=
  Finset.disjoint_left.mpr fun i hi hi' => h (Fin.ext (((slotRect_mem j i).mp hi).symm.trans ((slotRect_mem j' i).mp hi')))

theorem slot_cover : Finset.univ.biUnion (fun j : Fin 7 => (slotRect j).set) = Finset.univ :=
  Finset.eq_univ_of_forall fun i => Finset.mem_biUnion.mpr ⟨⟨(i 0).val, (i 0).isLt⟩, Finset.mem_univ _, (slotRect_mem _ i).mpr rfl⟩

/-- The copy's source and destination views own exactly their slot. -/
theorem srcM_set (j : Fin 7) : (srcM j).view.set = (slotRect j).set := by
  show ((sM.view.slice (slotRect j)).reshape S192x1536 _).set = _
  rw [View.set_reshape]; exact View.set_slice_whole _ _
theorem dstM_set (j : Fin 7) : (dstM j).view.set = (slotRect j).set := by
  show ((rM.view.slice (slotRect j)).reshape S192x1536 _).set = _
  rw [View.set_reshape]; exact View.set_slice_whole _ _

/-- A slot stored whole reads back as what was stored, whatever the buffer held. -/
theorem read_store_slot (M : Memref sig .tc .vmem S7x192x1536 .bf16) (j : Fin 7) (f : M.view.ty.Contents Val) (p : (slotRect j).shape.Idx → Val .bf16) :
    M.view.readAt Val (slotRect j).toLoadRect ((M.access (slotRect j) : View sig .tc .vmem _ _).write Val f p Finset.univ) = p :=
  funext fun x => View.read_slice_write_emb (v := M.view) (slotRect j) f p (Finset.mem_univ x)

/-- What a copy lands in slot `j` of the landing buffer reads as what slot `j` of its source buffer read. -/
theorem land_read (j : Fin 7) (fd : (rM : Memref sig .tc .vmem S7x192x1536 .bf16).view.ty.Contents Val)
    (fs : (sM : Memref sig .tc .vmem S7x192x1536 .bf16).view.ty.Contents Val) :
    (rM : Memref sig .tc .vmem S7x192x1536 .bf16).view.readAt Val (slotRect j).toLoadRect ((dstM j).view.write Val fd ((srcM j).view.read Val fs) Finset.univ)
      = (sM : Memref sig .tc .vmem S7x192x1536 .bf16).view.readAt Val (slotRect j).toLoadRect fs := by
  funext x
  have hn : S192x1536.numel = (slotRect j).shape.numel := squeezes_S1x192x1536_S192x1536.numel_eq
  have h1 : (rM : Memref sig .tc .vmem S7x192x1536 .bf16).view.emb ((slotRect j).emb x) = (dstM j).view.emb ((Shape.reshapeEquiv hn).symm x) := by
    show _ = ((rM.view.slice (slotRect j)).reshape S192x1536 hn).emb _
    rw [View.emb_reshape]; simp
  have h2 : (srcM j).view.emb ((Shape.reshapeEquiv hn).symm x) = (sM : Memref sig .tc .vmem S7x192x1536 .bf16).view.emb ((slotRect j).emb x) := by
    show ((sM.view.slice (slotRect j)).reshape S192x1536 hn).emb _ = _
    rw [View.emb_reshape]; simp
  show rM.view.read Val _ ((slotRect j).emb x) = sM.view.read Val fs ((slotRect j).emb x)
  rw [View.read_apply, View.read_apply, h1, View.write_emb_of_mem _ _ (Finset.mem_univ _), View.read_apply, h2]
  simp

end Cert.Kernel.Hand

end
-- ==== Proof.Kernel.State.lean ====
/-
  The ghost state a device starts its kernel from, the invariant before and after the region's one
  point, and the region's proof data.
-/
import proofs.«900369_g7700000000000370_dist_matmul_mk_i_outk_m1536_n1536_k768_v7x_i8_bf16_1_alg».proof.Proof.Kernel.Owed
import proofs.«900369_g7700000000000370_dist_matmul_mk_i_outk_m1536_n1536_k768_v7x_i8_bf16_1_alg».proof.Proof.Kernel.Slots

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The fifteen cells of a device -/

/-- A device's cells by kind: its barrier cell, its seven send cells, its seven receive cells. -/
abbrev CK : Type := Unit ⊕ (Fin 7 ⊕ Fin 7)
abbrev csem : CK → SemLoc sig
  | .inl _ => .reg barS
  | .inr (.inl j) => .dma (sendS j)
  | .inr (.inr j) => .dma (recvS j)
abbrev kcell (ck : Dev nD × CK) : GSem nD τ sig := ((ck.1 : Thread nD τ), csem ck.2)

/-- The kernel's own (scoped) semaphores: the send and receive semaphores. -/
abbrev osem : Fin 7 ⊕ Fin 7 → SemLoc sig
  | .inl j => .dma (sendS j)
  | .inr j => .dma (recvS j)

/-! ## The ghost state -/

/-- Every cell's invariant, under the names the launch allocated them at, and that its round is reached. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- A device's positions on its own fifteen cells; -/
def positions (c : Dev nD) : sProp 𝕄 :=
  iprop(atPos ER (barCell c) 0 ∅ 0 ∗ (bigSep Finset.univ fun j : Fin 7 => atPos ER (sendCell c j) 0 ∅ 0)
    ∗ bigSep Finset.univ fun j : Fin 7 => atPos ER (recvCell c j) 0 ∅ 0)
/-- the tokens of the twenty-one duties it pays: signal `i` on the barrier cell of device `c + i + 1`, its own
    send cells, and copy `j` on receive cell `j` of device `c + j + 1`. -/
def payToks (c : Dev nD) : sProp 𝕄 :=
  iprop((bigSep Finset.univ fun i : Fin 7 => dutyTok ER (barCell (tgt c i)) 0 i)
    ∗ (bigSep Finset.univ fun j : Fin 7 => dutyTok ER (sendCell c j) 0 (0 : Fin 7))
    ∗ bigSep Finset.univ fun j : Fin 7 => dutyTok ER (recvCell (tgt c j) j) 0 (0 : Fin 7))

def ghost (K : Dev nD × CK → ℕ) (c : Dev nD) : sProp 𝕄 := iprop(records m K ∗ positions c ∗ payToks c)

/-- What a device's body starts from: the ghost state at some names, the credit for the seven units its barrier cell
    will receive and for the seven copies landing on it, and the level facts. -/
def start (c : Dev nD) : sProp 𝕄 :=
  iprop((∃ K, ghost m K c) ∗ cred (tallyAt (barCell c) () 7)
    ∗ (bigSep Finset.univ fun j : Fin 7 => cred (tallyAt (recvCell c j) () N)) ∗ levAts L lv)

/-- A scratch buffer held whole at some contents. -/
def scr (c : Dev nD) (b : Ref sig .tc) : sProp 𝕄 :=
  iprop(∃ f : Buf (Elt F) ((c : Thread nD τ).loc b), ((c : Thread nD τ).loc b) ↦{fullShare} f)
def scratches (c : Dev nD) : sProp 𝕄 :=
  iprop(scr c cc0_scratch0 ∗ scr c cc0_scratch1 ∗ scr c cc0_scratch2 ∗ scr c cc0_scratch3)

def Φ₀ (c : Dev nD) : sProp 𝕄 := iprop(start m c ∗ scratches c)
/-- After the point: the scratch buffers whole again, the fourteen own cells closed at zero. -/
def Φ₁ (c : Dev nD) : sProp 𝕄 :=
  iprop(scratches (F := F) c ∗ (bigSep Finset.univ fun j : Fin 7 => semVal (sendCell c j) 0)
    ∗ bigSep Finset.univ fun j : Fin 7 => semVal (recvCell c j) 0)

/-! ## The proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m c
    | ⟨1, _⟩ => bStg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem share_eq (c : Dev nD) (w : Fin cfg0.W) : (dats m ρ 0 c).share w = fullShare := by unfold Dat.share; split <;> rfl

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.Kernel.Hand

end
-- ==== Proof.Kernel.Steps.lean ====
/-
  The protocol steps of one device's kernel, each as one rule at a symbolic slot: a signal to
  another device's barrier cell, a copy into another device's landing slot, the waits on a
  receive cell and on a send cell.
-/
import proofs.«900369_g7700000000000370_dist_matmul_mk_i_outk_m1536_n1536_k768_v7x_i8_bf16_1_alg».proof.Proof.Kernel.State

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem inv_at (ck : Dev nD × CK) : records m K ⊢ cellInv ER (sched m) (K ck) (kcell ck) := by
  unfold records; iintro ⟨HI, -⟩
  iapply (show (bigSep Finset.univ fun ck : Dev nD × CK => (cellInv ER (sched m) (K ck) (kcell ck) : sProp 𝕄)) ⊢ cellInv ER (sched m) (K ck) (kcell ck)
    from bigSep_elim (Finset.mem_univ ck))
  iexact HI
theorem reached_at (ck : Dev nD × CK) : records m K ⊢ reached ER (kcell ck) 0 := by
  unfold records; iintro ⟨-, HR⟩
  iapply (show (bigSep Finset.univ fun ck : Dev nD × CK => (reached ER (kcell ck) 0 : sProp 𝕄)) ⊢ reached ER (kcell ck) 0
    from bigSep_elim (Finset.mem_univ ck))
  iexact HR

theorem credit_dst (j : Fin 7) : (dstM j).view.dmaCredit = N := by revert j; decide
theorem credit_src (j : Fin 7) : (srcM j).view.dmaCredit = N := by revert j; decide

/-- Signal `i`: one unit to the barrier cell of device `c + i + 1`, handing it slot `6 - i` of this device's
    landing buffer (the slot that device's copy `6 - i` will write). -/
theorem wp_signal_i (c : Dev nD) (i : Fin 7) (n : ℕ) (hn : payment c n = Bt c i) {α : Type} {Q : α → sProp 𝕄}
    {k : PUnit → Prog (TpuEff nD τ sig (Elt F) Λ₀ .tc) α} (W : Waits sig Unit)
    (f : Buf (Elt F) ((dstM (rev i)).view.loc (c : Thread nD τ))) :
    iprop(records m K ∗ owes (c : Thread nD τ) (owedAfter c (n + 1)) W ∗ dutyTok ER (barCell (tgt c i)) 0 i ∗ recvPts c (rev i) f)
      ⊢ iprop((owes (c : Thread nD τ) (owedAfter c n) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((tgt c i, Proc.tc) : Thread nD τ) barS (1#32).toNat) k) Q) := by
  iintro ⟨#HR, HO, Ht, Hf⟩
  iapply (Rounds.wp_signal 𝒱₀ ER (sched m) (c : Thread nD τ) none (dst := ((tgt c i, Proc.tc) : Thread nD τ)) (κ := K (tgt c i, .inl ()))
      (d := i) (by rw [duties_bar]; exact Finset.mem_univ _) ((amount_bar m (tgt c i) i).trans (by decide)) () (owedAfter c n)
      ((show owedAfter c (n + 1) = owedAfter c n + payment c n from rfl).trans (by rw [hn]; rfl))) $$ [HO Ht Hf]
  · isplitr; · iapply (inv_at m K (tgt c i, .inl ())); iexact HR
    isplitl [HO]; · iexact HO
    isplitl [Ht]; · iexact Ht
    isplitl [Hf]
    · rw [payload_bar]; unfold barPay; rw [src_tgt]
      isplitl [Hf]; · iexists f; iexact Hf
      iapply (reached_at m K (c, .inr (.inr (rev i)))); iexact HR
    · iapply (reached_at m K (tgt c i, .inl ())); iexact HR

/-- Copy `j`: slot `j` of the send buffer, holding the product made for device `c + j + 1`, into slot `j` of that
    device's landing buffer. -/
theorem wp_send_j (c t : Dev nD) (j : Fin 7) (ht : t = tgt c j) (n : ℕ) (hn : payment c n = Rt c j)
    {hsc : (dstM j : Memref sig (Dev.tc t : Thread nD τ).2.kind .vmem S192x1536 .bf16).view.ref.isScScratch = false}
    {hsrc : (srcM j : Memref sig .tc .vmem S192x1536 .bf16).view.WordExact} {hdst : (dstM j : Memref sig .tc .vmem S192x1536 .bf16).view.WordExact}
    {hsem : DmaTarget.Typed .vmem (.dma (recvS j)) (.remote (Dev.tc t : Thread nD τ) (dstM j : Memref sig .tc .vmem S192x1536 .bf16) (.dma (sendS j)) hsc)}
    {α : Type} {Q : α → sProp 𝕄} {k : PUnit → Prog (TpuEff nD τ sig (Elt F) Λ₀ .tc) α} (W : Waits sig Unit)
    (fs : Buf (Elt F) ((srcM j).view.loc (c : Thread nD τ))) (fd : Buf (Elt F) ((dstM j).view.loc (tgt c j : Thread nD τ)))
    (hfs : (sM : Memref sig .tc .vmem S7x192x1536 .bf16).view.readAt (Elt F) (slotRect j).toLoadRect fs = prodJ m c j) :
    iprop(records m K ∗ sendPts c j fs ∗ recvPts (tgt c j) j fd ∗ owes (c : Thread nD τ) (owedAfter c (n + 1)) W
        ∗ dutyTok ER (sendCell c j) 0 (0 : Fin 7) ∗ dutyTok ER (recvCell (tgt c j) j) 0 (0 : Fin 7))
      ⊢ iprop(((cred (tallyAt (sendCell c j) () N) ∗ owes (c : Thread nD τ) (owedAfter c n) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM j) (.remote (Dev.tc t : Thread nD τ) (dstM j) (.dma (sendS j)) hsc) (.dma (recvS j)) hsrc hdst hsem) k) Q) := by
  subst ht
  iintro ⟨#HR, Hs, Hd, HO, Hts, Htr⟩
  unfold sendPts recvPts
  iapply (Rounds.wp_send_pointsTo 𝒱₀ ER (sched m) (c : Thread nD τ) none (c' := (Dev.tc (tgt c j) : Thread nD τ)) (src := srcM j) (dst := dstM j)
      (q := fullShare) (fs := fs) (fd := fd)
      (κ₁ := K (c, .inr (.inl j))) (κ₂ := K (tgt c j, .inr (.inr j)))
      (r₁ := 0) (r₂ := 0) (d₁ := 0) (d₂ := 0)
      (by rw [duties_send]; exact Finset.mem_singleton_self _) (by rw [duties_recv]; exact Finset.mem_singleton_self _)
      () () N (amount_dst j) (amount_send m c j 0) (amount_recv m (tgt c j) j 0) (owedAfter c n) ((show owedAfter c (n + 1) = owedAfter c n + payment c n from rfl).trans (by rw [hn]; rfl)) (W := W)
      (by rw [payload_send]; unfold sendPay sendPts; iintro H; iexists fs; iexact H)
      (by
        rw [payload_recv]; unfold recvPay recvPts
        iintro H
        iexists _
        isplitl [H]; · iexact H
        ipureintro
        unfold slotRead landed
        rw [src_tgt, ← hfs]
        exact land_read j fd fs)) $$ [Hs Hd HO Hts Htr]
  · isplitr; · iapply (inv_at m K (c, .inr (.inl j))); iexact HR
    isplitr; · iapply (inv_at m K (tgt c j, .inr (.inr j))); iexact HR
    isplitl [Hs]; · iexact Hs
    isplitl [Hd]; · iexact Hd
    isplitl [HO]; · iexact HO
    isplitl [Hts]; · iexact Hts
    isplitr; · iapply (reached_at m K (c, .inr (.inl j))); iexact HR
    isplitl [Htr]; · iexact Htr
    iapply (reached_at m K (tgt c j, .inr (.inr j))); iexact HR

end Cert.Kernel.Hand

end
-- ==== Proof.Kernel.Steps2.lean ====
/-
  The waits of one device's kernel at a symbolic slot, and the local loads and stores read as values.
-/
import proofs.«900369_g7700000000000370_dist_matmul_mk_i_outk_m1536_n1536_k768_v7x_i8_bf16_1_alg».proof.Proof.Kernel.Steps

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The wait on receive cell `j`, nothing owed: slot `j` of the landing buffer comes back reading as the product
    made for this device by the device `c - j - 1`. -/
theorem wp_waitRecv_j (c : Dev nD) (j : Fin 7) {s' : Shape} {e' : EltTy} {sp' : Space} {src : Memref sig .tc sp' s' e'}
    {hsrc : src.view.WordExact} {hdst : (dstM j : Memref sig .tc .vmem S192x1536 .bf16).view.WordExact}
    {α : Type} {Q : α → sProp 𝕄} {k : PUnit → Prog (TpuEff nD τ sig (Elt F) Λ₀ .tc) α} (W : Waits sig Unit) :
    iprop(records m K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) 1 ∅ 0 ∗ recvPay m c j)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src (dstM j) hsrc hdst) k) Q) := by
  iintro ⟨#HR, Hc, HO, Hat⟩ Hk
  iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv, credit_dst])) $$ [Hc HO Hat]
  · isplitr; · iapply (inv_at m K (c, .inr (.inr j))); iexact HR
    isplitl [Hc]; · rw [credit_dst]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c j)); iexact Hpay

/-- The wait on send cell `j`, nothing owed: slot `j` of the send buffer comes back. -/
theorem wp_waitSend_j (c : Dev nD) (j : Fin 7) {s' : Shape} {e' : EltTy} {sp' : Space} {src : Memref sig .tc sp' s' e'}
    {hsrc : src.view.WordExact} {hdst : (srcM j : Memref sig .tc .vmem S192x1536 .bf16).view.WordExact}
    {α : Type} {Q : α → sProp 𝕄} {k : PUnit → Prog (TpuEff nD τ sig (Elt F) Λ₀ .tc) α} (W : Waits sig Unit) :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0 ∗ sendPay (F := F) c j)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src (srcM j) hsrc hdst) k) Q) := by
  iintro ⟨#HR, Hc, HO, Hat⟩ Hk
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send, credit_src])) $$ [Hc HO Hat]
  · isplitr; · iapply (inv_at m K (c, .inr (.inl j))); iexact HR
    isplitl [Hc]; · rw [credit_src]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c j)); iexact Hpay

/-- The wait for seven units on the device's own barrier cell, the seven copies still owed: every other device's
    landing slot for this device's copies comes with it. -/
theorem wp_waitBar (c : Dev nD) {α : Type} {Q : α → sProp 𝕄} {k : PUnit → Prog (TpuEff nD τ sig (Elt F) Λ₀ .tc) α} (W : Waits sig Unit) :
    iprop(records m K ∗ levAts L lv ∗ cred (tallyAt (barCell c) () 7) ∗ owes (c : Thread nD τ) (owedAfter c 7) W ∗ atPos ER (barCell c) 0 ∅ 0)
      ⊢ iprop(((owes (c : Thread nD τ) (owedAfter c 7) (insert (SemLoc.reg barS, ()) W) ∗ atPos ER (barCell c) 1 ∅ 0
                ∗ bigSep Finset.univ (fun i : Fin 7 => barPay (F := F) c i))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toNat) k) Q) := by
  iintro ⟨#HR, #Hlev, Hc, HO, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := owedAfter c 7) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- A cell whose one round is over closes: its counter at zero is the device's again. -/
theorem close_send (c : Dev nD) (j : Fin 7) :
    iprop(records m K ∗ atPos ER (sendCell c j) 1 ∅ 0) ⊢ (|={Set.univ}=> semVal (sendCell c j) 0 : sProp 𝕄) := by
  iintro ⟨#HR, Hat⟩
  iapply (Rounds.cell_close ER (sched m) (Set.mem_univ (K (c, .inr (.inl j)))) (fun h => h) (R := 0 + 1) (duties_later m (sendCell c j)))
  isplitr; · iapply (inv_at m K (c, .inr (.inl j))); iexact HR
  iexact Hat
theorem close_recv (c : Dev nD) (j : Fin 7) :
    iprop(records m K ∗ atPos ER (recvCell c j) 1 ∅ 0) ⊢ (|={Set.univ}=> semVal (recvCell c j) 0 : sProp 𝕄) := by
  iintro ⟨#HR, Hat⟩
  iapply (Rounds.cell_close ER (sched m) (Set.mem_univ (K (c, .inr (.inr j)))) (fun h => h) (R := 0 + 1) (duties_later m (recvCell c j)))
  isplitr; · iapply (inv_at m K (c, .inr (.inr j))); iexact HR
  iexact Hat

end Cert.Kernel.Hand

end
-- ==== Proof.Kernel.Pieces.lean ====
/-
  A seven-slot buffer held whole is held slot by slot, and back; the local loads and stores of a slot.
-/
import proofs.«900369_g7700000000000370_dist_matmul_mk_i_outk_m1536_n1536_k768_v7x_i8_bf16_1_alg».proof.Proof.Kernel.Steps2

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Slot `j` of the send buffer and of the landing buffer, as element sets of the buffers. -/
def sendSet (j : Fin 7) : Finset (cc0_scratch2 : Ref sig .tc).ty.Idx := (srcM j).view.set
def recvSet (j : Fin 7) : Finset (cc0_scratch3 : Ref sig .tc).ty.Idx := (dstM j).view.set
theorem sendSet_eq (j : Fin 7) : sendSet j = (slotRect j).set := srcM_set j
theorem recvSet_eq (j : Fin 7) : recvSet j = (slotRect j).set := dstM_set j

theorem hd_send : ∀ j j' : Fin 7, j ≠ j' → Disjoint (sendSet j) (sendSet j') := by
  intro j j' h; rw [sendSet_eq, sendSet_eq]; exact slot_disjoint j j' h
theorem hd_recv : ∀ j j' : Fin 7, j ≠ j' → Disjoint (recvSet j) (recvSet j') := by
  intro j j' h; rw [recvSet_eq, recvSet_eq]; exact slot_disjoint j j' h
theorem hc_send : Finset.univ.biUnion sendSet = Finset.univ := by
  refine Finset.eq_univ_of_forall fun i => Finset.mem_biUnion.mpr ⟨⟨(i 0).val, (i 0).isLt⟩, Finset.mem_univ _, ?_⟩
  rw [sendSet_eq]; exact (slotRect_mem _ i).mpr rfl
theorem hc_recv : Finset.univ.biUnion recvSet = Finset.univ := by
  refine Finset.eq_univ_of_forall fun i => Finset.mem_biUnion.mpr ⟨⟨(i 0).val, (i 0).isLt⟩, Finset.mem_univ _, ?_⟩
  rw [recvSet_eq]; exact (slotRect_mem _ i).mpr rfl
theorem hc_send' (c : Dev nD) : (Finset.univ.biUnion sendSet : Finset (Idx (nD := nD) (τ := τ) (sig := sig) ((c : Thread nD τ).loc cc0_scratch2))) = Finset.univ := hc_send
theorem hc_recv' (c : Dev nD) : (Finset.univ.biUnion recvSet : Finset (Idx (nD := nD) (τ := τ) (sig := sig) ((c : Thread nD τ).loc cc0_scratch3))) = Finset.univ := hc_recv

theorem split_send (c : Dev nD) (f : Buf (Elt F) ((c : Thread nD τ).loc cc0_scratch2)) :
    ((((c : Thread nD τ).loc cc0_scratch2) ↦{fullShare} f : sProp 𝕄)) = bigSep Finset.univ fun j : Fin 7 => sendPts c j f :=
  Ring.pointsTo_blocks (ℓ := (c : Thread nD τ).loc cc0_scratch2) sendSet hd_send (hc_send' c) f
theorem split_recv (c : Dev nD) (f : Buf (Elt F) ((c : Thread nD τ).loc cc0_scratch3)) :
    ((((c : Thread nD τ).loc cc0_scratch3) ↦{fullShare} f : sProp 𝕄)) = bigSep Finset.univ fun j : Fin 7 => recvPts c j f :=
  Ring.pointsTo_blocks (ℓ := (c : Thread nD τ).loc cc0_scratch3) recvSet hd_recv (hc_recv' c) f
theorem join_send (c : Dev nD) (f₀ : Buf (Elt F) ((c : Thread nD τ).loc cc0_scratch2)) :
    (bigSep Finset.univ fun j : Fin 7 => sendPay (F := F) c j) ⊢ scr c cc0_scratch2 :=
  Ring.pointsTo_blocks_join_exists (ℓ := (c : Thread nD τ).loc cc0_scratch2) sendSet hd_send (hc_send' c) f₀
theorem join_recv (c : Dev nD) (f₀ : Buf (Elt F) ((c : Thread nD τ).loc cc0_scratch3)) :
    (bigSep Finset.univ fun j : Fin 7 => iprop(∃ g, recvPts (F := F) c j g)) ⊢ scr c cc0_scratch3 :=
  Ring.pointsTo_blocks_join_exists (ℓ := (c : Thread nD τ).loc cc0_scratch3) recvSet hd_recv (hc_recv' c) f₀

/-! ## Loads and stores of a slot -/

theorem hz2 : (![0, 0] : Fin 2 → Nat) = fun _ => 0 := funext fun a => by fin_cases a <;> rfl

/-- The elements a load or a store of slot `j` touches are the slot's. -/
theorem slot_load_sub (M : Memref sig .tc .vmem S7x192x1536 .bf16) (j : Fin 7) :
    M.view.setOn (slotRect j).toLoadRect.set ⊆ ((M.slice (slotRect j) (fun _ => rfl)).squeeze S192x1536 squeezes_S1x192x1536_S192x1536).view.set := by
  intro i hi
  show i ∈ ((M.view.slice (slotRect j)).reshape S192x1536 squeezes_S1x192x1536_S192x1536.numel_eq).set
  rw [View.set_reshape, View.set_slice]; exact hi
theorem slot_store_sub (M : Memref sig .tc .vmem S7x192x1536 .bf16) (j : Fin 7) :
    (M.access (slotRect j) : View sig .tc .vmem _ _).setOn Finset.univ ⊆ ((M.slice (slotRect j) (fun _ => rfl)).squeeze S192x1536 squeezes_S1x192x1536_S192x1536).view.set := by
  intro i hi
  show i ∈ ((M.view.slice (slotRect j)).reshape S192x1536 squeezes_S1x192x1536_S192x1536.numel_eq).set
  rw [View.set_reshape]; exact hi

section Local

/-- A store of slot `j` of the send buffer, the slot held by its own elements. -/
theorem wp_store_send {α : Type} {Q : α → sProp 𝕄} (c : Dev nD) (j : Fin 7) {p : (slotRect j).shape.Idx → Elt F .bf16}
    {hx : (sM.access (slotRect j) : View sig .tc .vmem _ _).Stores Finset.univ} {hm : (Finset.univ : Finset (slotRect j).shape.Idx) = Finset.univ ∨ ∀ a, (slotRect j).stride a = 1}
    {k : PUnit → Prog (TpuEff nD τ sig (Elt F) Λ₀ .tc) α} (f : Buf (Elt F) ((srcM j).view.loc (c : Thread nD τ))) :
    sendPts c j f
      ⊢ iprop((sendPts c j ((sM.access (slotRect j) : View sig .tc .vmem _ _).write (Elt F) f p Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store sM (slotRect j) p Finset.univ hx hm) k) Q) := by
  unfold sendPts
  exact wp_store 𝒱₀ (c : Thread nD τ) none Set.univ (m := sM) (r := slotRect j) (Mk := Finset.univ) (slot_store_sub sM j)

/-- A load of slot `j` of the send buffer (its value is not used). -/
theorem wp_load_send {α : Type} {Q : α → sProp 𝕄} (c : Dev nD) (j : Fin 7) {hl : (sM : Memref sig .tc .vmem S7x192x1536 .bf16).view.LoadsAt (slotRect j).toLoadRect}
    {k : ((slotRect j).toLoadRect.shape.Idx → Elt F .bf16) → Prog (TpuEff nD τ sig (Elt F) Λ₀ .tc) α} (f : Buf (Elt F) ((srcM j).view.loc (c : Thread nD τ))) :
    sendPts c j f
      ⊢ iprop((sendPts c j f -∗ wp frame (wpE (defs₀ (F := F)) 𝒱₀ (c : Thread nD τ) none) Set.univ (k (sM.view.readAt (Elt F) (slotRect j).toLoadRect f)) Q)
          -∗ wp frame (wpE (defs₀ (F := F)) 𝒱₀ (c : Thread nD τ) none) Set.univ (.op (.load sM (slotRect j).toLoadRect hl) k) Q) := by
  unfold sendPts
  exact wp_load 𝒱₀ (c : Thread nD τ) none Set.univ (m := sM) (slot_load_sub sM j)

/-- A load of slot `j` of the landing buffer: what the slot reads. -/
theorem wp_load_recv {α : Type} {Q : α → sProp 𝕄} (c : Dev nD) (j : Fin 7) {hl : (rM : Memref sig .tc .vmem S7x192x1536 .bf16).view.LoadsAt (slotRect j).toLoadRect}
    {k : ((slotRect j).toLoadRect.shape.Idx → Elt F .bf16) → Prog (TpuEff nD τ sig (Elt F) Λ₀ .tc) α} (g : Buf (Elt F) ((dstM j).view.loc (c : Thread nD τ))) :
    recvPts c j g
      ⊢ iprop((recvPts c j g -∗ wp frame (wpE (defs₀ (F := F)) 𝒱₀ (c : Thread nD τ) none) Set.univ (k (slotRead j g)) Q)
          -∗ wp frame (wpE (defs₀ (F := F)) 𝒱₀ (c : Thread nD τ) none) Set.univ (.op (.load rM (slotRect j).toLoadRect hl) k) Q) := by
  unfold recvPts slotRead
  exact wp_load 𝒱₀ (c : Thread nD τ) none Set.univ (m := rM) (slot_load_sub rM j)

end Local

end Cert.Kernel.Hand

end
-- ==== Proof.Kernel.Body.lean ====
/-
  One device's kernel, stepped from its starting ghost state to the state after the region's point:
  seven signals, the two blocks rounded to the narrow format, seven products stored and sent (the
  barrier wait before the first copy), the device's own product, seven landed products received and
  added, the result stored, seven send waits, the fourteen own cells closed.
-/
import proofs.«900369_g7700000000000370_dist_matmul_mk_i_outk_m1536_n1536_k768_v7x_i8_bf16_1_alg».proof.Proof.Kernel.Pieces

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The whole-buffer memrefs and what their loads and stores read and write -/

abbrev aM : Memref sig .tc .vmem S1536x768 .f32 := Memref.whole cc0_stg0_0
abbrev bM : Memref sig .tc .vmem S768x1536 .f32 := Memref.whole cc0_stg1_0
abbrev oM : Memref sig .tc .vmem S192x1536 .f32 := Memref.whole cc0_stg2_0
abbrev abM : Memref sig .tc .vmem S1536x768 .bf16 := Memref.whole cc0_scratch0
abbrev bbM : Memref sig .tc .vmem S768x1536 .bf16 := Memref.whole cc0_scratch1

abbrev rA : Rect S1536x768 := Rect.unit (s := S1536x768) ![0, 0] S1536x768.size inb_S1536x768_S1536x768_0_0
abbrev rB : Rect S768x1536 := Rect.unit (s := S768x1536) ![0, 0] S768x1536.size inb_S768x1536_S768x1536_0_0
abbrev rO : Rect S192x1536 := Rect.unit (s := S192x1536) ![0, 0] S192x1536.size inb_S192x1536_S192x1536_0_0

theorem read_a (f : (cc0_stg0_0 : Ref sig .tc).ty.Contents (Elt F)) : (aM : Memref sig .tc .vmem S1536x768 .f32).view.readAt (Elt F) rA.toLoadRect f = f :=
  Memref.readAt_unit_zero (Elt F) cc0_stg0_0 hz2 _ f
theorem read_b (f : (cc0_stg1_0 : Ref sig .tc).ty.Contents (Elt F)) : (bM : Memref sig .tc .vmem S768x1536 .f32).view.readAt (Elt F) rB.toLoadRect f = f :=
  Memref.readAt_unit_zero (Elt F) cc0_stg1_0 hz2 _ f
theorem read_bb (f : (cc0_scratch1 : Ref sig .tc).ty.Contents (Elt F)) : (bbM : Memref sig .tc .vmem S768x1536 .bf16).view.readAt (Elt F) rB.toLoadRect f = f :=
  Memref.readAt_unit_zero (Elt F) cc0_scratch1 hz2 _ f
theorem write_ab (f w : (cc0_scratch0 : Ref sig .tc).ty.Contents (Elt F)) :
    ((abM : Memref sig .tc .vmem S1536x768 .bf16).access rA : View sig .tc _ _ _).write (Elt F) f w Finset.univ = w :=
  Memref.write_access_unit_zero_univ (Elt F) cc0_scratch0 hz2 _ f w
theorem write_bb (f w : (cc0_scratch1 : Ref sig .tc).ty.Contents (Elt F)) :
    ((bbM : Memref sig .tc .vmem S768x1536 .bf16).access rB : View sig .tc _ _ _).write (Elt F) f w Finset.univ = w :=
  Memref.write_access_unit_zero_univ (Elt F) cc0_scratch1 hz2 _ f w
theorem write_o (f w : (cc0_stg2_0 : Ref sig .tc).ty.Contents (Elt F)) :
    ((oM : Memref sig .tc .vmem S192x1536 .f32).access rO : View sig .tc _ _ _).write (Elt F) f w Finset.univ = w :=
  Memref.write_access_unit_zero_univ (Elt F) cc0_stg2_0 hz2 _ f w

/-- What a slot of the send buffer reads right after the product was stored in it. -/
theorem sent_read (c : Dev nD) (j : Fin 7) (f : (cc0_scratch2 : Ref sig .tc).ty.Contents (Elt F)) :
    (sM : Memref sig .tc .vmem S7x192x1536 .bf16).view.readAt (Elt F) (slotRect j).toLoadRect
      ((sM.access (slotRect j) : View sig .tc .vmem _ _).write (Elt F) f (prodJ m c j) Finset.univ) = prodJ m c j :=
  read_store_slot sM j f (prodJ m c j)

/-- The landing slot, on device `c + j + 1`, that copy `j` of device `c` writes, at some contents. -/
def landSlot (c : Dev nD) (j : Fin 7) : sProp 𝕄 := iprop(∃ f, recvPts (F := F) (tgt c j) j f)

theorem barPay_land (c : Dev nD) (j : Fin 7) : barPay (F := F) c (rev j) ⊢ landSlot c j := by
  unfold barPay landSlot
  rw [src_rev, rev_rev]
  iintro ⟨H, -⟩; iexact H

/-- What the barrier wait hands over: for each copy, the slot it writes. -/
theorem barPays_land (c : Dev nD) :
    (bigSep Finset.univ fun i : Fin 7 => barPay (F := F) c i)
      ⊢ iprop(landSlot c 6 ∗ landSlot c 5 ∗ landSlot c 4 ∗ landSlot c 3 ∗ landSlot c 2 ∗ landSlot c 1 ∗ landSlot c 0) := by
  rw [bigSep_fin7]
  iintro ⟨H0, H1, H2, H3, H4, H5, H6⟩
  isplitl [H0]; · iapply (barPay_land c 6); iexact H0
  isplitl [H1]; · iapply (barPay_land c 5); iexact H1
  isplitl [H2]; · iapply (barPay_land c 4); iexact H2
  isplitl [H3]; · iapply (barPay_land c 3); iexact H3
  isplitl [H4]; · iapply (barPay_land c 2); iexact H4
  isplitl [H5]; · iapply (barPay_land c 1); iexact H5
  iapply (barPay_land c 0); iexact H6

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 7) ∗ (bigSep Finset.univ fun j : Fin 7 => cred (tallyAt (recvCell c j) () N)) ∗ levAts L lv
      ∗ scratches c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (aStg m c) ∗ stg c cc0_stg1_0 (bStg m c) ∗ stg c cc0_stg2_0 (outAt m c))

set_option maxHeartbeats 4000000 in
set_option maxRecDepth 65536 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel
    k0_part11_skel k0_part12_skel
  simp only [semSignalWord, semWaitWord, Prog.lift, Prog.bind_op, Prog.bind_ret, Prog.pure_eq_ret, wp_deviceId,
    sig_dev0 c, sig_dev1 c, sig_dev2 c, sig_dev3 c, sig_dev4 c, sig_dev5 c, sig_dev6 c,
    dma_dev0 c, dma_dev1 c, dma_dev2 c, dma_dev3 c, dma_dev4 c, dma_dev5 c, dma_dev6 c]
  unfold bodyPre ghost positions payToks scratches scr
  iintro ⟨⟨⟨⟨#HR, ⟨HaB, HaS, HaV⟩, HtB, HtS, HtV⟩, HcB, HcV, #Hlev, ⟨%f0, H0⟩, ⟨%f1, H1⟩, ⟨%f2, H2⟩, ⟨%f3, H3⟩⟩,
    Ho, ⟨%d0, %g0, %hg0, Hx⟩, ⟨%d1, %g1, %hg1, Hy⟩, ⟨%d2, %g2, %hg2, Hout⟩⟩, Hk⟩
  have hx : g0 = aStg m c := by rw [hg0]; unfold Dat.before; rw [if_pos (fetch0_0 t0_0)]; rfl
  have hy : g1 = bStg m c := by rw [hg1]; unfold Dat.before; rw [if_pos (fetch0_1 t0_0)]; rfl
  subst hx hy
  unfold Dat.owesAt Pipeline.owesWithin
  icases Ho with ⟨%W, %hW, HO⟩
  rw [show (dats m ρ 0 c).owed t0_0.castSucc = owedAfter c 14 from rfl]
  -- the families over the seven slots, one hypothesis per slot
  ihave HaS' := (Entails.of_eq (bigSep_fin7 _)) $$ HaS; icases HaS' with ⟨HaS0, HaS1, HaS2, HaS3, HaS4, HaS5, HaS6⟩
  ihave HaV' := (Entails.of_eq (bigSep_fin7 _)) $$ HaV; icases HaV' with ⟨HaV0, HaV1, HaV2, HaV3, HaV4, HaV5, HaV6⟩
  ihave HtB' := (Entails.of_eq (bigSep_fin7 _)) $$ HtB; icases HtB' with ⟨HtB0, HtB1, HtB2, HtB3, HtB4, HtB5, HtB6⟩
  ihave HtS' := (Entails.of_eq (bigSep_fin7 _)) $$ HtS; icases HtS' with ⟨HtS0, HtS1, HtS2, HtS3, HtS4, HtS5, HtS6⟩
  ihave HtV' := (Entails.of_eq (bigSep_fin7 _)) $$ HtV; icases HtV' with ⟨HtV0, HtV1, HtV2, HtV3, HtV4, HtV5, HtV6⟩
  ihave HcV' := (Entails.of_eq (bigSep_fin7 _)) $$ HcV; icases HcV' with ⟨HcV0, HcV1, HcV2, HcV3, HcV4, HcV5, HcV6⟩
  ihave Hs := (Entails.of_eq (split_send c f2)) $$ H2
  ihave Hs' := (Entails.of_eq (bigSep_fin7 _)) $$ Hs; icases Hs' with ⟨Hs0, Hs1, Hs2, Hs3, Hs4, Hs5, Hs6⟩
  ihave Hv := (Entails.of_eq (split_recv c f3)) $$ H3
  ihave Hv' := (Entails.of_eq (bigSep_fin7 _)) $$ Hv; icases Hv' with ⟨Hv0, Hv1, Hv2, Hv3, Hv4, Hv5, Hv6⟩
  -- the seven signals: signal i hands device c + i + 1 the landing slot 6 - i
  iapply (wp_signal_i m K c 0 13 rfl W f3) $$ [HO HtB0 Hv6]
  · isplitr; · iexact HR
    iframe
    iexact Hv6
  iintro HO
  iapply (wp_signal_i m K c 1 12 rfl W f3) $$ [HO HtB1 Hv5]
  · isplitr; · iexact HR
    iframe
    iexact Hv5
  iintro HO
  iapply (wp_signal_i m K c 2 11 rfl W f3) $$ [HO HtB2 Hv4]
  · isplitr; · iexact HR
    iframe
    iexact Hv4
  iintro HO
  iapply (wp_signal_i m K c 3 10 rfl W f3) $$ [HO HtB3 Hv3]
  · isplitr; · iexact HR
    iframe
    iexact Hv3
  iintro HO
  iapply (wp_signal_i m K c 4 9 rfl W f3) $$ [HO HtB4 Hv2]
  · isplitr; · iexact HR
    iframe
    iexact Hv2
  iintro HO
  iapply (wp_signal_i m K c 5 8 rfl W f3) $$ [HO HtB5 Hv1]
  · isplitr; · iexact HR
    iframe
    iexact Hv1
  iintro HO
  iapply (wp_signal_i m K c 6 7 rfl W f3) $$ [HO HtB6 Hv0]
  · isplitr; · iexact HR
    iframe
    iexact Hv0
  iintro HO
  -- the two blocks rounded to the narrow format into the scratch buffers
  iapply (wp_load 𝒱₀ (c : Thread nD τ) none Set.univ (m := aM) (Finset.subset_univ _)) $$ Hx; iintro Hx
  rw [read_a]
  iapply (wp_load 𝒱₀ (c : Thread nD τ) none Set.univ (m := abM) (Finset.subset_univ _)) $$ H0; iintro H0
  iapply (wp_store 𝒱₀ (c : Thread nD τ) none Set.univ (m := abM) (r := rA) (Mk := Finset.univ) (Finset.subset_univ _)) $$ H0; iintro H0
  rw [write_ab]
  iapply (wp_load 𝒱₀ (c : Thread nD τ) none Set.univ (m := bM) (Finset.subset_univ _)) $$ Hy; iintro Hy
  rw [read_b]
  iapply (wp_load 𝒱₀ (c : Thread nD τ) none Set.univ (m := bbM) (Finset.subset_univ _)) $$ H1; iintro H1
  iapply (wp_store 𝒱₀ (c : Thread nD τ) none Set.univ (m := bbM) (r := rB) (Mk := Finset.univ) (Finset.subset_univ _)) $$ H1; iintro H1
  rw [write_bb]
  -- slot 6: the product for device c + 7, stored; the barrier wait; the copy
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 6 f2) $$ Hs6; iintro Hs6
  iapply (wp_store_send c 6 f2) $$ Hs6; iintro Hs6
  iapply (wp_waitBar m K c W) $$ [HcB HO HaB]
  · isplitr; · iexact HR
    isplitr; · iexact Hlev
    iframe
  iintro ⟨HO, HaB, Hpay⟩
  ihave Hl := (barPays_land c) $$ Hpay
  unfold landSlot
  icases Hl with ⟨⟨%fd6, Hd6⟩, ⟨%fd5, Hd5⟩, ⟨%fd4, Hd4⟩, ⟨%fd3, Hd3⟩, ⟨%fd2, Hd2⟩, ⟨%fd1, Hd1⟩, ⟨%fd0, Hd0⟩⟩
  iapply (wp_send_j m K c _ 6 (dma_dev6 c) 6 rfl (insert (SemLoc.reg barS, ()) W) _ fd6 (sent_read m c 6 f2)) $$ [Hs6 Hd6 HO HtS6 HtV6]
  · isplitr; · iexact HR
    isplitl [Hs6]; · iexact Hs6
    iframe
  iintro ⟨HcS6, HO⟩
  -- slot 5
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 5 f2) $$ Hs5; iintro Hs5
  iapply (wp_store_send c 5 f2) $$ Hs5; iintro Hs5
  iapply (wp_send_j m K c _ 5 (dma_dev5 c) 5 rfl (insert (SemLoc.reg barS, ()) W) _ fd5 (sent_read m c 5 f2)) $$ [Hs5 Hd5 HO HtS5 HtV5]
  · isplitr; · iexact HR
    isplitl [Hs5]; · iexact Hs5
    iframe
  iintro ⟨HcS5, HO⟩
  -- slot 4
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 4 f2) $$ Hs4; iintro Hs4
  iapply (wp_store_send c 4 f2) $$ Hs4; iintro Hs4
  iapply (wp_send_j m K c _ 4 (dma_dev4 c) 4 rfl (insert (SemLoc.reg barS, ()) W) _ fd4 (sent_read m c 4 f2)) $$ [Hs4 Hd4 HO HtS4 HtV4]
  · isplitr; · iexact HR
    isplitl [Hs4]; · iexact Hs4
    iframe
  iintro ⟨HcS4, HO⟩
  -- slot 3
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 3 f2) $$ Hs3; iintro Hs3
  iapply (wp_store_send c 3 f2) $$ Hs3; iintro Hs3
  iapply (wp_send_j m K c _ 3 (dma_dev3 c) 3 rfl (insert (SemLoc.reg barS, ()) W) _ fd3 (sent_read m c 3 f2)) $$ [Hs3 Hd3 HO HtS3 HtV3]
  · isplitr; · iexact HR
    isplitl [Hs3]; · iexact Hs3
    iframe
  iintro ⟨HcS3, HO⟩
  -- slot 2
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 2 f2) $$ Hs2; iintro Hs2
  iapply (wp_store_send c 2 f2) $$ Hs2; iintro Hs2
  iapply (wp_send_j m K c _ 2 (dma_dev2 c) 2 rfl (insert (SemLoc.reg barS, ()) W) _ fd2 (sent_read m c 2 f2)) $$ [Hs2 Hd2 HO HtS2 HtV2]
  · isplitr; · iexact HR
    isplitl [Hs2]; · iexact Hs2
    iframe
  iintro ⟨HcS2, HO⟩
  -- slot 1
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 1 f2) $$ Hs1; iintro Hs1
  iapply (wp_store_send c 1 f2) $$ Hs1; iintro Hs1
  iapply (wp_send_j m K c _ 1 (dma_dev1 c) 1 rfl (insert (SemLoc.reg barS, ()) W) _ fd1 (sent_read m c 1 f2)) $$ [Hs1 Hd1 HO HtS1 HtV1]
  · isplitr; · iexact HR
    isplitl [Hs1]; · iexact Hs1
    iframe
  iintro ⟨HcS1, HO⟩
  -- slot 0
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 0 f2) $$ Hs0; iintro Hs0
  iapply (wp_store_send c 0 f2) $$ Hs0; iintro Hs0
  iapply (wp_send_j m K c _ 0 (dma_dev0 c) 0 rfl (insert (SemLoc.reg barS, ()) W) _ fd0 (sent_read m c 0 f2)) $$ [Hs0 Hd0 HO HtS0 HtV0]
  · isplitr; · iexact HR
    isplitl [Hs0]; · iexact Hs0
    iframe
  iintro ⟨HcS0, HO⟩
  -- the device's own product
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  -- the seven landed products, received and read
  iapply (wp_waitRecv_j m K c 6 _) $$ [HcV6 HO HaV6]
  · isplitr; · iexact HR
    isplitl [HcV6]; · iexact HcV6
    isplitl [HO]; · iexact HO
    iexact HaV6
  iintro ⟨HO, HaV6, Hp6⟩
  unfold recvPay
  icases Hp6 with ⟨%r6, Hg6, %hr6⟩
  iapply (wp_load_recv c 6 r6) $$ Hg6; iintro Hg6
  rw [hr6]
  iapply (wp_waitRecv_j m K c 5 _) $$ [HcV5 HO HaV5]
  · isplitr; · iexact HR
    isplitl [HcV5]; · iexact HcV5
    isplitl [HO]; · iexact HO
    iexact HaV5
  iintro ⟨HO, HaV5, Hp5⟩
  unfold recvPay
  icases Hp5 with ⟨%r5, Hg5, %hr5⟩
  iapply (wp_load_recv c 5 r5) $$ Hg5; iintro Hg5
  rw [hr5]
  iapply (wp_waitRecv_j m K c 4 _) $$ [HcV4 HO HaV4]
  · isplitr; · iexact HR
    isplitl [HcV4]; · iexact HcV4
    isplitl [HO]; · iexact HO
    iexact HaV4
  iintro ⟨HO, HaV4, Hp4⟩
  unfold recvPay
  icases Hp4 with ⟨%r4, Hg4, %hr4⟩
  iapply (wp_load_recv c 4 r4) $$ Hg4; iintro Hg4
  rw [hr4]
  iapply (wp_waitRecv_j m K c 3 _) $$ [HcV3 HO HaV3]
  · isplitr; · iexact HR
    isplitl [HcV3]; · iexact HcV3
    isplitl [HO]; · iexact HO
    iexact HaV3
  iintro ⟨HO, HaV3, Hp3⟩
  unfold recvPay
  icases Hp3 with ⟨%r3, Hg3, %hr3⟩
  iapply (wp_load_recv c 3 r3) $$ Hg3; iintro Hg3
  rw [hr3]
  iapply (wp_waitRecv_j m K c 2 _) $$ [HcV2 HO HaV2]
  · isplitr; · iexact HR
    isplitl [HcV2]; · iexact HcV2
    isplitl [HO]; · iexact HO
    iexact HaV2
  iintro ⟨HO, HaV2, Hp2⟩
  unfold recvPay
  icases Hp2 with ⟨%r2, Hg2, %hr2⟩
  iapply (wp_load_recv c 2 r2) $$ Hg2; iintro Hg2
  rw [hr2]
  iapply (wp_waitRecv_j m K c 1 _) $$ [HcV1 HO HaV1]
  · isplitr; · iexact HR
    isplitl [HcV1]; · iexact HcV1
    isplitl [HO]; · iexact HO
    iexact HaV1
  iintro ⟨HO, HaV1, Hp1⟩
  unfold recvPay
  icases Hp1 with ⟨%r1, Hg1, %hr1⟩
  iapply (wp_load_recv c 1 r1) $$ Hg1; iintro Hg1
  rw [hr1]
  iapply (wp_waitRecv_j m K c 0 _) $$ [HcV0 HO HaV0]
  · isplitr; · iexact HR
    isplitl [HcV0]; · iexact HcV0
    isplitl [HO]; · iexact HO
    iexact HaV0
  iintro ⟨HO, HaV0, Hp0⟩
  unfold recvPay
  icases Hp0 with ⟨%r0, Hg0, %hr0⟩
  iapply (wp_load_recv c 0 r0) $$ Hg0; iintro Hg0
  rw [hr0]
  -- the result block stored
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o]
  -- the seven send waits: the send slots come back
  iapply (wp_waitSend_j m K c 6 _) $$ [HcS6 HO HaS6]
  · isplitr; · iexact HR
    isplitl [HcS6]; · iexact HcS6
    isplitl [HO]; · iexact HO
    iexact HaS6
  iintro ⟨HO, HaS6, Hq6⟩
  iapply (wp_waitSend_j m K c 5 _) $$ [HcS5 HO HaS5]
  · isplitr; · iexact HR
    isplitl [HcS5]; · iexact HcS5
    isplitl [HO]; · iexact HO
    iexact HaS5
  iintro ⟨HO, HaS5, Hq5⟩
  iapply (wp_waitSend_j m K c 4 _) $$ [HcS4 HO HaS4]
  · isplitr; · iexact HR
    isplitl [HcS4]; · iexact HcS4
    isplitl [HO]; · iexact HO
    iexact HaS4
  iintro ⟨HO, HaS4, Hq4⟩
  iapply (wp_waitSend_j m K c 3 _) $$ [HcS3 HO HaS3]
  · isplitr; · iexact HR
    isplitl [HcS3]; · iexact HcS3
    isplitl [HO]; · iexact HO
    iexact HaS3
  iintro ⟨HO, HaS3, Hq3⟩
  iapply (wp_waitSend_j m K c 2 _) $$ [HcS2 HO HaS2]
  · isplitr; · iexact HR
    isplitl [HcS2]; · iexact HcS2
    isplitl [HO]; · iexact HO
    iexact HaS2
  iintro ⟨HO, HaS2, Hq2⟩
  iapply (wp_waitSend_j m K c 1 _) $$ [HcS1 HO HaS1]
  · isplitr; · iexact HR
    isplitl [HcS1]; · iexact HcS1
    isplitl [HO]; · iexact HO
    iexact HaS1
  iintro ⟨HO, HaS1, Hq1⟩
  iapply (wp_waitSend_j m K c 0 _) $$ [HcS0 HO HaS0]
  · isplitr; · iexact HR
    isplitl [HcS0]; · iexact HcS0
    isplitl [HO]; · iexact HO
    iexact HaS0
  iintro ⟨HO, HaS0, Hq0⟩
  -- the fourteen own cells close: their counters at zero are the device's again
  imod (close_send m K c 0) $$ [HaS0] with HzS0
  · isplitr; · iexact HR
    iexact HaS0
  imod (close_send m K c 1) $$ [HaS1] with HzS1
  · isplitr; · iexact HR
    iexact HaS1
  imod (close_send m K c 2) $$ [HaS2] with HzS2
  · isplitr; · iexact HR
    iexact HaS2
  imod (close_send m K c 3) $$ [HaS3] with HzS3
  · isplitr; · iexact HR
    iexact HaS3
  imod (close_send m K c 4) $$ [HaS4] with HzS4
  · isplitr; · iexact HR
    iexact HaS4
  imod (close_send m K c 5) $$ [HaS5] with HzS5
  · isplitr; · iexact HR
    iexact HaS5
  imod (close_send m K c 6) $$ [HaS6] with HzS6
  · isplitr; · iexact HR
    iexact HaS6
  imod (close_recv m K c 0) $$ [HaV0] with HzV0
  · isplitr; · iexact HR
    iexact HaV0
  imod (close_recv m K c 1) $$ [HaV1] with HzV1
  · isplitr; · iexact HR
    iexact HaV1
  imod (close_recv m K c 2) $$ [HaV2] with HzV2
  · isplitr; · iexact HR
    iexact HaV2
  imod (close_recv m K c 3) $$ [HaV3] with HzV3
  · isplitr; · iexact HR
    iexact HaV3
  imod (close_recv m K c 4) $$ [HaV4] with HzV4
  · isplitr; · iexact HR
    iexact HaV4
  imod (close_recv m K c 5) $$ [HaV5] with HzV5
  · isplitr; · iexact HR
    iexact HaV5
  imod (close_recv m K c 6) $$ [HaV6] with HzV6
  · isplitr; · iexact HR
    iexact HaV6
  rw [wp_ret]; imodintro
  iapply Hk
  unfold bodyPost Φ₁ scratches Dat.owesAt Pipeline.owesWithin
  rw [show (dats m ρ 0 c).owed t0_0.succ = 0 from rfl]
  isplitl [H0 H1 Hq0 Hq1 Hq2 Hq3 Hq4 Hq5 Hq6 Hg0 Hg1 Hg2 Hg3 Hg4 Hg5 Hg6 HzS0 HzS1 HzS2 HzS3 HzS4 HzS5 HzS6 HzV0 HzV1 HzV2 HzV3 HzV4 HzV5 HzV6]
  · isplitl [H0 H1 Hq0 Hq1 Hq2 Hq3 Hq4 Hq5 Hq6 Hg0 Hg1 Hg2 Hg3 Hg4 Hg5 Hg6]
    · isplitl [H0]; · unfold scr; iexists _; iexact H0
      isplitl [H1]; · unfold scr; iexists _; iexact H1
      isplitl [Hq0 Hq1 Hq2 Hq3 Hq4 Hq5 Hq6]
      · iapply (join_send c f2)
        iapply (Entails.of_eq (bigSep_fin7 _).symm)
        iframe
      · iapply (join_recv c f3)
        iapply (Entails.of_eq (bigSep_fin7 _).symm)
        isplitl [Hg0]; · iexists r0; iexact Hg0
        isplitl [Hg1]; · iexists r1; iexact Hg1
        isplitl [Hg2]; · iexists r2; iexact Hg2
        isplitl [Hg3]; · iexists r3; iexact Hg3
        isplitl [Hg4]; · iexists r4; iexact Hg4
        isplitl [Hg5]; · iexists r5; iexact Hg5
        iexists r6; iexact Hg6
    isplitl [HzS0 HzS1 HzS2 HzS3 HzS4 HzS5 HzS6]
    · iapply (Entails.of_eq (bigSep_fin7 _).symm); iframe
    · iapply (Entails.of_eq (bigSep_fin7 _).symm); iframe
  isplitl [HO]
  · iexists _
    isplitr
    rotate_left
    · iexact HO
    · ipureintro; exact fun _ _ => Or.inl trivial
  isplitl [Hx]
  · iexists _; isplitr; · (ipureintro; rfl)
    iexact Hx
  isplitl [Hy]
  · iexists _; isplitr; · (ipureintro; rfl)
    iexact Hy
  iexists _; isplitr; · (ipureintro; rfl)
  iexact Hout

end Body

end Cert.Kernel.Hand

end
-- ==== Proof.Kernel.Obligation.lean ====
/-
  The launch: the body obligation in the library's form, the ghost state dealt to the eight devices
  (every cell's invariant allocated for all devices at once; each payment's token handed to the
  device that makes it), the launch credit, and the run of @main.
-/
import proofs.«900369_g7700000000000370_dist_matmul_mk_i_outk_m1536_n1536_k768_v7x_i8_bf16_1_alg».proof.Proof.Kernel.Body

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5) (fun _ => bodyPost m ρ c)
  unfold bodyPre' Φ₀ start
  iintro ⟨⟨⟨⟨%K, Hg⟩, Hrest⟩, Hscr⟩, Ho, Hx, Hy, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hy]; · iexact Hy
    iexact Hout
  · iintro H; iexact H

end Cert.Kernel.Hand

end
-- ==== Proof.Kernel.Fund.lean ====
/-
  The ghost state dealt to the eight devices at launch: every cell's round state and invariant, the
  positions, and the duty tokens, each handed to the device that pays the duty.
-/
import proofs.«900369_g7700000000000370_dist_matmul_mk_i_outk_m1536_n1536_k768_v7x_i8_bf16_1_alg».proof.Proof.Kernel.Obligation

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem csem_injective : Function.Injective (csem : CK → SemLoc sig) := by decide

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted: the seven duties of its barrier cell, the one duty of each send
    cell and of each receive cell. -/
abbrev TK : Type := Fin 7 ⊕ (Fin 7 ⊕ Fin 7)
abbrev tokOf (cj : Dev nD × TK) : GSem nD τ sig × ℕ × Fin 7 := match cj.2 with
  | .inl i => (barCell cj.1, 0, i)
  | .inr (.inl j) => (sendCell cj.1 j, 0, 0)
  | .inr (.inr j) => (recvCell cj.1 j, 0, 0)

/-- Which cell and duty a token kind names, apart from the device. -/
abbrev tokKey : TK → SemLoc sig × Fin 7
  | .inl i => (.reg barS, i)
  | .inr (.inl j) => (.dma (sendS j), 0)
  | .inr (.inr j) => (.dma (recvS j), 0)
theorem tokKey_injective : Function.Injective tokKey := by decide

theorem tokOf_injective : Function.Injective (tokOf : Dev nD × TK → GSem nD τ sig × ℕ × Fin 7) := by
  rintro ⟨c, j⟩ ⟨c', j'⟩ h
  have h1 : c = c' := by
    have := congrArg (fun x : GSem nD τ sig × ℕ × Fin 7 => x.1.1.1) h
    rcases j with i | j | j <;> rcases j' with i' | j' | j' <;> exact this
  subst h1
  have h2 : tokKey j = tokKey j' := by
    have := congrArg (fun x : GSem nD τ sig × ℕ × Fin 7 => (x.1.2, x.2.2)) h
    rcases j with i | j | j <;> rcases j' with i' | j' | j' <;> exact this
  have : j = j' := tokKey_injective h2
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 7 => dutyTok ER (barCell c) 0 i)
    ∗ (bigSep Finset.univ fun j : Fin 7 => dutyTok ER (sendCell c j) 0 (0 : Fin 7))
    ∗ bigSep Finset.univ fun j : Fin 7 => dutyTok ER (recvCell c j) 0 (0 : Fin 7))

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

theorem toks_eq (c : Dev nD) :
    (bigSep Finset.univ fun t : TK => (dutyTok ER (tokOf (c, t)).1 (tokOf (c, t)).2.1 (tokOf (c, t)).2.2 : sProp 𝕄)) = toks c := by
  unfold toks
  rw [bigSep_univ_sum, bigSep_univ_sum]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end Cert.Kernel.Hand

end
-- ==== Proof.Kernel.Credit.lean ====
/-
  The launch credit: summed over the eight devices, the barrier cell of a device is owed seven units
  (one by each other device) and its receive cell of slot j the credit of one copy (by the device
  c - j - 1).
-/
import proofs.«900369_g7700000000000370_dist_matmul_mk_i_outk_m1536_n1536_k768_v7x_i8_bf16_1_alg».proof.Proof.Kernel.Owed

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Which cell is which -/

theorem bar_eq_iff {a b : Dev nD} : Iff (barCell a = barCell b) (a = b) :=
  ⟨fun h => Fin.ext (congrArg (fun g : GSem nD τ sig => g.1.1.val) h), fun h => h ▸ rfl⟩
theorem recvS_injective : Function.Injective (recvS : Fin 7 → DmaSem sig) := by decide
theorem recv_eq_iff {a b : Dev nD} {j k : Fin 7} : Iff (recvCell a j = recvCell b k) (a = b ∧ j = k) :=
  ⟨fun h => ⟨Fin.ext (congrArg (fun g : GSem nD τ sig => g.1.1.val) h),
      recvS_injective (SemLoc.dma.inj (congrArg Prod.snd h))⟩, fun h => h.1 ▸ h.2 ▸ rfl⟩
theorem recv_ne_bar (a b : Dev nD) (j : Fin 7) : recvCell a j ≠ barCell b := fun h => by
  have := congrArg Prod.snd h; cases this
theorem bar_ne_recv (a b : Dev nD) (j : Fin 7) : barCell a ≠ recvCell b j := fun h => recv_ne_bar b a j h.symm

theorem tgt_eq_iff (d c : Dev nD) (i : Fin 7) : Iff (tgt d i = c) (d = src c i) :=
  ⟨fun h => by rw [← h, src_tgt], fun h => by rw [h, tgt_src]⟩

/-! ## One payment at one cell -/

theorem Rt_recv (d c : Dev nD) (k j : Fin 7) : Rt d k (recvCell c j) () = if k = j ∧ d = src c j then N else 0 := by
  unfold Rt; rw [tallyAt_apply]
  by_cases h : k = j ∧ d = src c j
  · obtain ⟨rfl, rfl⟩ := h
    rw [if_pos ⟨by rw [tgt_src], rfl⟩, if_pos ⟨rfl, rfl⟩]
  · rw [if_neg h, if_neg]
    rintro ⟨h1, -⟩
    obtain ⟨h2, h3⟩ := recv_eq_iff.mp h1
    exact h ⟨h3.symm, by rw [h2, ← h3, src_tgt]⟩
theorem Rt_bar (d c : Dev nD) (k : Fin 7) : Rt d k (barCell c) () = 0 := by
  unfold Rt; rw [tallyAt_ne_cell (bar_ne_recv c (tgt d k) k) () N]; rfl
theorem Bt_bar (d c : Dev nD) (i : Fin 7) : Bt d i (barCell c) () = if d = src c i then 1 else 0 := by
  unfold Bt; rw [tallyAt_apply]
  by_cases h : d = src c i
  · subst h; rw [if_pos ⟨by rw [tgt_src], rfl⟩, if_pos rfl]
  · rw [if_neg h, if_neg]
    rintro ⟨h1, -⟩
    exact h ((tgt_eq_iff d c i).mp (bar_eq_iff.mp h1).symm)
theorem Bt_recv (d c : Dev nD) (i j : Fin 7) : Bt d i (recvCell c j) () = 0 := by
  unfold Bt; rw [tallyAt_ne_cell (recv_ne_bar c (tgt d i) j) () 1]; rfl

/-! ## What a device owes one cell -/

theorem O₀_apply (d : Dev nD) (g : GSem nD τ sig) (u : Unit) :
    O₀ d g u = (∑ k : Fin 7, Rt d k g u) + ∑ i : Fin 7, Bt d i g u := by
  have e : O₀ d = 0 + Rt d 0 + Rt d 1 + Rt d 2 + Rt d 3 + Rt d 4 + Rt d 5 + Rt d 6
      + Bt d 6 + Bt d 5 + Bt d 4 + Bt d 3 + Bt d 2 + Bt d 1 + Bt d 0 := rfl
  rw [e]
  simp only [Pi.add_apply, Finsupp.add_apply, Pi.zero_apply, Finsupp.zero_apply, Fin.sum_univ_seven]
  omega

/-- Over the eight devices, the barrier cell of device `c` is owed seven units; -/
theorem owed_bar_sum (c : Dev nD) : ∑ d : Dev nD, O₀ d (barCell c) () = 7 := by
  simp only [O₀_apply, Rt_bar, Bt_bar, Finset.sum_const_zero, Nat.zero_add]
  rw [Finset.sum_comm]
  simp only [Finset.sum_ite_eq', Finset.mem_univ, if_true, Finset.sum_const, Finset.card_univ, Fintype.card_fin, smul_eq_mul]

/-- its receive cell of slot `j` the credit of one copy. -/
theorem owed_recv_sum (c : Dev nD) (j : Fin 7) : ∑ d : Dev nD, O₀ d (recvCell c j) () = N := by
  simp only [O₀_apply, Rt_recv, Bt_recv, Finset.sum_const_zero, Nat.add_zero]
  rw [Finset.sum_comm]
  rw [Finset.sum_eq_single j (fun k _ hk => Finset.sum_eq_zero fun d _ => if_neg fun h => hk h.1) (fun h => absurd (Finset.mem_univ j) h)]
  simp only [true_and, Finset.sum_ite_eq', Finset.mem_univ, if_true]

end Cert.Kernel.Hand

end
-- ==== Proof.Kernel.Glob.lean ====
/-
  The global step of the launch: from every device's semaphores at zero and the round states, every
  cell's invariant under some name, and each device's ghost state; then the launch credit, the
  side conditions of the launch theorem, and the run of @main.
-/
import proofs.«900369_g7700000000000370_dist_matmul_mk_i_outk_m1536_n1536_k768_v7x_i8_bf16_1_alg».proof.Proof.Kernel.Fund
import proofs.«900369_g7700000000000370_dist_matmul_mk_i_outk_m1536_n1536_k768_v7x_i8_bf16_1_alg».proof.Proof.Kernel.Credit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over a device's fifteen cells, by kind. -/
theorem bigSep_CK (Φ : CK → sProp 𝕄) :
    bigSep Finset.univ Φ = iprop(Φ (.inl ()) ∗ (bigSep Finset.univ fun j : Fin 7 => Φ (.inr (.inl j))) ∗ bigSep Finset.univ fun j : Fin 7 => Φ (.inr (.inr j))) := by
  rw [bigSep_univ_sum, bigSep_univ_sum, bigSep_univ_of_subsingleton ()]; rfl

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0; rw [bigSep_univ_sum]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H; iexists K; iexact H

/-- A family over (device, slot) may be read at the device each slot's payment comes from. -/
theorem around (Ψ : Dev nD → Fin 7 → sProp 𝕄) :
    (bigSep Finset.univ fun c : Dev nD => bigSep Finset.univ fun i : Fin 7 => Ψ c i)
      = bigSep Finset.univ fun c : Dev nD => bigSep Finset.univ fun i : Fin 7 => Ψ (tgt c i) i :=
  (bigSep_univ_comm (fun (c : Dev nD) (i : Fin 7) => Ψ c i)).trans
    ((bigSep_congr fun i _ => bigSep_univ_equiv (ring i) (fun c : Dev nD => Ψ c i)).trans
      (bigSep_univ_comm (fun (i : Fin 7) (c : Dev nD) => Ψ (tgt c i) i)))

/-- The tokens dealt to the payers: duty `i` of a barrier cell and the duty of receive cell `j` go to the device
    that many (plus one) places before the cell's. -/
theorem toks_around : (bigSep Finset.univ fun c : Dev nD => (toks c : sProp 𝕄)) ⊢ bigSep Finset.univ fun c : Dev nD => payToks c := by
  unfold toks payToks
  refine Entails.of_eq ?_
  rw [bigSep_sep', bigSep_sep', bigSep_sep', bigSep_sep',
    around (fun c i => (dutyTok ER (barCell c) 0 i : sProp 𝕄)), around (fun c j => (dutyTok ER (recvCell c j) 0 (0 : Fin 7) : sProp 𝕄))]

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(positions c ∗ payToks c) from Entails.of_eq (by unfold positions; rw [bigSep_CK])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Hand

end
-- ==== Proof.Kernel.Run.lean ====
/-
  The launch credit dealt to a device, the side conditions of the launch theorem, and the run of @main:
  every weakly fair execution of the eight kernels terminates, the argument arrays unchanged and each
  device's result array at the sum of the eight partial products of its rows.
-/
import proofs.«900369_g7700000000000370_dist_matmul_mk_i_outk_m1536_n1536_k768_v7x_i8_bf16_1_alg».proof.Proof.Kernel.Glob

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The launch credit -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_bar_sum]

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, owed_recv_sum]

/-- The receive semaphores among a device's cells. -/
def recvEmb : Fin 7 ↪ SemLoc sig := ⟨fun j => .dma (recvS j), fun a b h => recvS_injective (SemLoc.dma.inj h)⟩

theorem creds (c : Dev nD) :
    (Pipeline.launchCred O₀ c : sProp 𝕄)
      ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  refine (bigSep_subset (t := Finset.univ.map recvEmb) (fun sm h => ?_)).trans
    (Entails.of_eq ((bigSep_map recvEmb).trans (bigSep_congr fun j _ => by rw [← launch_recv]; rfl)))
  obtain ⟨j, -, rfl⟩ := Finset.mem_map.mp h
  exact Finset.mem_erase.mpr ⟨fun h' => (by change SemLoc.dma (recvS j) = SemLoc.reg barS at h'; cases h'), Finset.mem_univ _⟩

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratches scr
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    have hq : ¬ 10 ≤ (((cfgs 0).win w).sem s).val := by fin_cases w <;> fin_cases s <;> decide
    rcases t with ⟨_ | _, ht⟩
    · exact mayWait_stage c _ hq 14
    · exact mayWait_stage c _ hq 0

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The two argument arrays after the run hold what they held; -/
theorem finalA_a (c : Dev nD) : finalA m ρ c (0 : Fin 3) = m ((c : Thread nD τ).loc main_arg0) :=
  (dats (F := F) m ρ 0 c).arrAt_in (0 : Fin 3) rfl _
theorem finalA_b (c : Dev nD) : finalA m ρ c (1 : Fin 3) = m ((c : Thread nD τ).loc main_arg1) :=
  (dats (F := F) m ρ 0 c).arrAt_in (1 : Fin 3) rfl _

/-- and the result array holds the device's result block: the region's one write-back writes the whole array. -/
theorem finalA_out (c : Dev nD) : finalA m ρ c (2 : Fin 3) = outAt m c := by
  unfold finalA
  have h := (dats (F := F) m ρ 0 c).arrAt_succ (2 : Fin 3) t0_0
  rw [if_pos (flush0_2 t0_0)] at h
  refine (show (dats m ρ 0 c).arrAt 2 cfg0.N = (dats m ρ 0 c).arrAt 2 (t0_0.val + 1) from rfl).trans (h.trans ?_)
  have hr := View.read_write_univ (v := ((cfg0.win 2).blk t0_0).view) (Val := Elt F) ((dats m ρ 0 c).arrAt 2 t0_0.val) ((dats m ρ 0 c).flushed 2 t0_0)
  have hoff : (fun a => (cfg0.win 2).index t0_0 a * (cfg0.win 2).size a) = fun _ => 0 := funext fun a => Nat.zero_mul _
  exact ((Memref.read_access_unit_zero (Elt F) main_v1 hoff _ _).symm.trans hr)

/-- The run with every array named: the arguments unchanged, the result the device's result block. -/
theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c (2 : Fin 3)).trans (finalA_out m ρ c), (h c (0 : Fin 3)).trans (finalA_a m ρ c), (h c (1 : Fin 3)).trans (finalA_b m ρ c)⟩)
    (run_main m ρ)

end Cert.Kernel.Hand

end
-- ==== Proof.KernelIdeal.Mesh.lean ====
/-
  The mesh of eight devices and the cells of the reduce-scatter matmul.

  Device c computes, for every other device t, the product of rows [192 t, 192 t + 192) of its
  block of A with its block of B, and copies it into slot j of t's landing buffer, where
  t = c + j + 1 (mod 8); slot j of c's own landing buffer is therefore written by the device
  c - j - 1 (mod 8). Before its first copy a device signals the seven others once and waits
  for their seven signals, so that every landing buffer exists when it is written.
-/
import proofs.«900369_g7700000000000370_dist_matmul_mk_i_outk_m1536_n1536_k768_v7x_i8_bf16_1_alg».proof.Proof.Gen.KernelIdeal.Frame
import proofs.«900369_g7700000000000370_dist_matmul_mk_i_outk_m1536_n1536_k768_v7x_i8_bf16_1_alg».proof.Proof.Gen.KernelIdeal.Skeleton
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own cells beside the kernel's, whose duties are named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: who writes to whom -/

/-- The device that copy (and signal) `j` of device `c` addresses: `c + j + 1` modulo 8. -/
def tgt (c : Dev nD) (j : Fin 7) : Dev nD := ⟨(c.val + j.val + 1) % 8, Nat.mod_lt _ (by decide)⟩
/-- The device whose copy `j` lands on `c`: `c - j - 1` modulo 8. -/
def src (c : Dev nD) (j : Fin 7) : Dev nD := ⟨(c.val + 7 - j.val) % 8, Nat.mod_lt _ (by decide)⟩
/-- Signal `j` of a device reaches the device whose copy `6 - j` it will receive. -/
def rev (j : Fin 7) : Fin 7 := ⟨6 - j.val, by omega⟩

theorem src_tgt (c : Dev nD) (j : Fin 7) : src (tgt c j) j = c := by revert c j; decide
theorem tgt_src (c : Dev nD) (j : Fin 7) : tgt (src c j) j = c := by revert c j; decide
theorem tgt_rev (c : Dev nD) (j : Fin 7) : tgt c (rev j) = src c j := by revert c j; decide
theorem src_rev (c : Dev nD) (j : Fin 7) : src c (rev j) = tgt c j := by revert c j; decide
theorem rev_rev (j : Fin 7) : rev (rev j) = j := by revert j; decide
theorem tgt_ne (c : Dev nD) (j : Fin 7) : tgt c j ≠ c := by revert c j; decide
theorem tgt_inj (c : Dev nD) {i j : Fin 7} (h : tgt c i = tgt c j) : i = j := by revert c i j; decide

/-- For each `j`, `c ↦ c + j + 1` is a permutation of the mesh. -/
def ring (j : Fin 7) : Dev nD ≃ Dev nD := ⟨fun c => tgt c j, fun c => src c j, fun c => src_tgt c j, fun c => tgt_src c j⟩

/-- The kernel's device chains: signal `j + 1` and copy `j` both name `c + j + 1`. -/
theorem sig_dev0 (c : Dev nD) : (⟨k0_dev1 c, k0_dev1_lt c⟩ : Dev nD) = tgt c 0 := Fin.ext ((k0_dev1_eq c).trans (by revert c; decide))
theorem sig_dev1 (c : Dev nD) : (⟨k0_dev2 c, k0_dev2_lt c⟩ : Dev nD) = tgt c 1 := Fin.ext ((k0_dev2_eq c).trans (by revert c; decide))
theorem sig_dev2 (c : Dev nD) : (⟨k0_dev3 c, k0_dev3_lt c⟩ : Dev nD) = tgt c 2 := Fin.ext ((k0_dev3_eq c).trans (by revert c; decide))
theorem sig_dev3 (c : Dev nD) : (⟨k0_dev4 c, k0_dev4_lt c⟩ : Dev nD) = tgt c 3 := Fin.ext ((k0_dev4_eq c).trans (by revert c; decide))
theorem sig_dev4 (c : Dev nD) : (⟨k0_dev5 c, k0_dev5_lt c⟩ : Dev nD) = tgt c 4 := Fin.ext ((k0_dev5_eq c).trans (by revert c; decide))
theorem sig_dev5 (c : Dev nD) : (⟨k0_dev6 c, k0_dev6_lt c⟩ : Dev nD) = tgt c 5 := Fin.ext ((k0_dev6_eq c).trans (by revert c; decide))
theorem sig_dev6 (c : Dev nD) : (⟨k0_dev7 c, k0_dev7_lt c⟩ : Dev nD) = tgt c 6 := Fin.ext ((k0_dev7_eq c).trans (by revert c; decide))
theorem dma_dev6 (c : Dev nD) : (⟨k0_dev8 c, k0_dev8_lt c⟩ : Dev nD) = tgt c 6 := Fin.ext ((k0_dev8_eq c).trans (by revert c; decide))
theorem dma_dev5 (c : Dev nD) : (⟨k0_dev9 c, k0_dev9_lt c⟩ : Dev nD) = tgt c 5 := Fin.ext ((k0_dev9_eq c).trans (by revert c; decide))
theorem dma_dev4 (c : Dev nD) : (⟨k0_dev10 c, k0_dev10_lt c⟩ : Dev nD) = tgt c 4 := Fin.ext ((k0_dev10_eq c).trans (by revert c; decide))
theorem dma_dev3 (c : Dev nD) : (⟨k0_dev11 c, k0_dev11_lt c⟩ : Dev nD) = tgt c 3 := Fin.ext ((k0_dev11_eq c).trans (by revert c; decide))
theorem dma_dev2 (c : Dev nD) : (⟨k0_dev12 c, k0_dev12_lt c⟩ : Dev nD) = tgt c 2 := Fin.ext ((k0_dev12_eq c).trans (by revert c; decide))
theorem dma_dev1 (c : Dev nD) : (⟨k0_dev13 c, k0_dev13_lt c⟩ : Dev nD) = tgt c 1 := Fin.ext ((k0_dev13_eq c).trans (by revert c; decide))
theorem dma_dev0 (c : Dev nD) : (⟨k0_dev14 c, k0_dev14_lt c⟩ : Dev nD) = tgt c 0 := Fin.ext ((k0_dev14_eq c).trans (by revert c; decide))

/-! ## The memrefs and the cells -/

/-- The two buffers of seven slots: the products to send, and the landing buffer. -/
abbrev sM : Memref sig .tc .vmem S7x192x1536 .bf16 := Memref.whole cc0_scratch2
abbrev rM : Memref sig .tc .vmem S7x192x1536 .bf16 := Memref.whole cc0_scratch3

theorem slot_inb (j : Fin 7) : ∀ a, (![j.val, 0, 0] : Fin 3 → Nat) a + S1x192x1536.size a ≤ S7x192x1536.size a := by revert j; decide
theorem sem_inb (j : Fin 7) : ∀ a, (![j.val] : Fin 1 → Nat) a + S1.size a ≤ S7.size a := by revert j; decide

/-- Slot `j` of a seven-slot buffer as a rectangle, -/
abbrev slotRect (j : Fin 7) : Rect S7x192x1536 := Rect.unit (s := S7x192x1536) ![j.val, 0, 0] S1x192x1536.size (slot_inb j)
/-- and as the copy's source and destination memrefs. -/
abbrev srcM (j : Fin 7) : Memref sig .tc .vmem S192x1536 .bf16 :=
  (sM.slice (slotRect j) (fun _ => rfl)).squeeze S192x1536 squeezes_S1x192x1536_S192x1536
abbrev dstM (j : Fin 7) : Memref sig .tc .vmem S192x1536 .bf16 :=
  (rM.slice (slotRect j) (fun _ => rfl)).squeeze S192x1536 squeezes_S1x192x1536_S192x1536

/-- The barrier semaphore of collective id 0, and the send and receive semaphores of slot `j`. -/
abbrev barS : Sem sig := (SemArray.scalar (sig.barrier 0 rfl) : Sems sig S_).sem
abbrev sendS (j : Fin 7) : DmaSem sig := ((cc0_scratch4.slice (Rect.unit (s := S7) ![j.val] S1.size (sem_inb j))).squeeze S_ squeezes_S1_S_).sem
abbrev recvS (j : Fin 7) : DmaSem sig := ((cc0_scratch5.slice (Rect.unit (s := S7) ![j.val] S1.size (sem_inb j))).squeeze S_ squeezes_S1_S_).sem

theorem sendS_val (j : Fin 7) : (sendS j).val = 3 + j.val := by revert j; decide
theorem recvS_val (j : Fin 7) : (recvS j).val = 10 + j.val := by revert j; decide

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The credit of one slot's copy. -/
abbrev N : ℕ := (dstM 0).view.dmaCredit
theorem N_pos : 0 < N := View.dmaCredit_pos _ (by decide)
theorem amount_dst (j : Fin 7) : (dstM j).view.amount (.dma (recvS j)) = N := by revert j; decide

end Cert.KernelIdeal.Hand

end
-- ==== Proof.KernelIdeal.Contents.lean ====
/-
  What the buffers hold, as pure terms of the arrays the devices were launched with.

  Device c rounds its blocks of A and B to the narrow format (abf, bbf), multiplies rows
  [192 t, 192 t + 192) of abf by bbf for each other device t = c + j + 1 (prodJ c j: slot j of
  its send buffer), and keeps the product of its own rows. Slot j of its landing buffer ends
  holding the product made for it by the device c - j - 1 (landed c j); the result block is its own
  product plus the seven landed ones, added in the order 6, 5, …, 0.
-/
import proofs.«900369_g7700000000000370_dist_matmul_mk_i_outk_m1536_n1536_k768_v7x_i8_bf16_1_alg».proof.Proof.KernelIdeal.Mesh

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Device `c`'s blocks of the two arguments, as its staging buffers hold them. -/
def aStg (c : Dev nD) : (cc0_stg0_0 : Ref sig .tc).ty.Contents (Elt F) :=
  (win0_0.blk t0_0).view.read (Elt F) (m ((c : Thread nD τ).loc main_arg0))
def bStg (c : Dev nD) : (cc0_stg1_0 : Ref sig .tc).ty.Contents (Elt F) :=
  (win0_1.blk t0_0).view.read (Elt F) (m ((c : Thread nD τ).loc main_arg1))

/-- The two blocks in the narrow format. -/
def abf (c : Dev nD) : (cc0_scratch0 : Ref sig .tc).ty.Contents (Elt F) := k0_pay1 (aStg m c)
def bbf (c : Dev nD) : (cc0_scratch1 : Ref sig .tc).ty.Contents (Elt F) := k0_pay2 (bStg m c)

/-- Rows [192 t, 192 t + 192) of the narrow A block, `t = c + j + 1` modulo 8: the rows device `t` needs. -/
def rowsFor (c : Dev nD) (j : Fin 7) : Vec F S192x768 .bf16 :=
  (Memref.whole cc0_scratch0 : Memref sig .tc .vmem S1536x768 .bf16).view.readAt (Elt F)
    (Rect.unit (s := S1536x768) (k0_off1 c (BitVec.ofNat 32 j.val)) S192x768.size (k0_off1_inb c j)).toLoadRect (abf m c)
/-- The device's own rows [192 c, 192 c + 192). -/
def rowsOwn (c : Dev nD) : Vec F S192x768 .bf16 :=
  (Memref.whole cc0_scratch0 : Memref sig .tc .vmem S1536x768 .bf16).view.readAt (Elt F)
    (Rect.unit (s := S1536x768) (k0_off2 c) S192x768.size (k0_off2_inb c)).toLoadRect (abf m c)

/-- The partial product device `c` makes for device `c + j + 1`, as slot `j` of its send buffer holds it. -/
def prodJ (c : Dev nD) (j : Fin 7) : FVec F S1x192x1536 .bf16 := k0_pay5 (rowsFor m c j) (bbf m c)

/-- What slot `j` of device `c`'s landing buffer reads once the copy has landed. -/
def landed (c : Dev nD) (j : Fin 7) : FVec F S1x192x1536 .bf16 := prodJ m (src c j) j

/-- The result block of device `c`: its own product and the seven landed ones. -/
def outAt (c : Dev nD) : (cc0_stg2_0 : Ref sig .tc).ty.Contents (Elt F) :=
  k0_pay15 (k0_pay14 (k0_pay13 (k0_pay12 (rowsOwn m c) (bbf m c) (landed m c 6) (landed m c 5)) (landed m c 4) (landed m c 3))
    (landed m c 2) (landed m c 1)) (landed m c 0)

/-- Every store into a send slot writes the same function of its two operands. -/
theorem pay6_eq (x : Vec F S192x768 .bf16) (y : Vec F S768x1536 .bf16) : k0_pay4 (k0_pay3 x y) = k0_pay5 x y := rfl
theorem pay4_eq (x : Vec F S192x768 .bf16) (y : Vec F S768x1536 .bf16) : k0_pay6 x y = k0_pay5 x y := rfl
theorem pay3_eq (x : Vec F S192x768 .bf16) (y : Vec F S768x1536 .bf16) : k0_pay7 x y = k0_pay5 x y := rfl
theorem pay2_eq (x : Vec F S192x768 .bf16) (y : Vec F S768x1536 .bf16) : k0_pay9 (k0_pay8 x y) = k0_pay5 x y := rfl
theorem pay1_eq (x : Vec F S192x768 .bf16) (y : Vec F S768x1536 .bf16) : k0_pay10 x y = k0_pay5 x y := rfl
theorem pay0_eq (x : Vec F S192x768 .bf16) (y : Vec F S768x1536 .bf16) : k0_pay11 x y = k0_pay5 x y := rfl

end Cert.KernelIdeal.Hand

end
-- ==== Proof.KernelIdeal.Sched.lean ====
/-
  The protocol of the reduce-scatter, as a schedule of one round per cell.

  Barrier cell of device c: seven duties of one unit, duty i paid by the device c - i - 1, which hands
  over slot 6 - i of ITS landing buffer (the slot device c's copy 6 - i writes) and the fact that the
  receive cell of that slot is at its round. Receive cell j of device c: one duty, the copy of the
  device c - j - 1, handing over slot j of c's landing buffer at contents that read as the product
  made for c. Send cell j of device c: one duty, its own copy, handing slot j of the send buffer back.
-/
import proofs.«900369_g7700000000000370_dist_matmul_mk_i_outk_m1536_n1536_k768_v7x_i8_bf16_1_alg».proof.Proof.KernelIdeal.Contents

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots as separation-logic assertions -/

def sendPts (c : Dev nD) (j : Fin 7) (f : Buf (Elt F) ((srcM j).view.loc (c : Thread nD τ))) : sProp 𝕄 :=
  (srcM j).view.loc (c : Thread nD τ) ↦[(srcM j).view.set]{fullShare} f
def recvPts (c : Dev nD) (j : Fin 7) (f : Buf (Elt F) ((dstM j).view.loc (c : Thread nD τ))) : sProp 𝕄 :=
  (dstM j).view.loc (c : Thread nD τ) ↦[(dstM j).view.set]{fullShare} f

/-- What slot `j` of a landing buffer at contents `g` reads. -/
def slotRead (j : Fin 7) (g : (cc0_scratch3 : Ref sig .tc).ty.Contents (Elt F)) : Vec F S1x192x1536 .bf16 :=
  (rM : Memref sig .tc .vmem S7x192x1536 .bf16).view.readAt (Elt F) (slotRect j).toLoadRect g

def barPay (c : Dev nD) (i : Fin 7) : sProp 𝕄 :=
  iprop((∃ f, recvPts (src c i) (rev i) f) ∗ reached ER (recvCell (src c i) (rev i)) 0)
def recvPay (c : Dev nD) (j : Fin 7) : sProp 𝕄 :=
  iprop(∃ g, recvPts c j g ∗ ⌜slotRead j g = landed m c j⌝)
def sendPay (c : Dev nD) (j : Fin 7) : sProp 𝕄 := iprop(∃ f, sendPts c j f)

/-- The slot a transfer semaphore belongs to (send semaphores are numbered 3 + j, receive ones 10 + j). -/
def slotOf (q : DmaSem sig) : Fin 7 := ⟨(q.val + 4) % 7, Nat.mod_lt _ (by decide)⟩
theorem slotOf_send (j : Fin 7) : slotOf (sendS j) = j := by revert j; decide
theorem slotOf_recv (j : Fin 7) : slotOf (recvS j) = j := by revert j; decide

def sched : Rounds.Schedule (GSem nD τ sig) (Fin 7) 𝕄 where
  duties g r := if r = 0 ∧ g.1.2 = .tc then
      (match g.2 with
        | .reg s => if s = barS then Finset.univ else ∅
        | .dma q => if 3 ≤ q.val then {0} else ∅)
    else ∅
  unitless _ := False
  amount g _ _ := match g.2 with
    | .reg _ => 1
    | .dma _ => N
  payload g _ d := match g.2 with
    | .reg s => if s = barS then barPay g.1.1 d else iprop(emp)
    | .dma q => if 10 ≤ q.val then recvPay m g.1.1 (slotOf q) else if 3 ≤ q.val then sendPay g.1.1 (slotOf q) else iprop(emp)
  amount_pos g _ _ _ := by
    cases g.2 with
    | reg s => exact Nat.one_pos
    | dma q => exact N_pos

instance sched_payload_storable (g : GSem nD τ sig) (r : ℕ) (d : Fin 7) :
    BI.Storable (upEmb : UEmb _ 𝕄) ((sched (F := F) m).payload g r d) := by
  obtain ⟨t, s⟩ := g
  cases s with
  | reg s =>
    show BI.Storable upEmb (if s = barS then barPay t.1 d else iprop(emp))
    unfold barPay recvPts; split <;> infer_instance
  | dma q =>
    show BI.Storable upEmb (if 10 ≤ q.val then recvPay m t.1 (slotOf q) else if 3 ≤ q.val then sendPay t.1 (slotOf q) else iprop(emp))
    unfold recvPay sendPay recvPts sendPts; (repeat' split) <;> infer_instance

section Tables
variable (c : Dev nD) (j : Fin 7)

theorem three_le_send : 3 ≤ (sendS j).val := by rw [sendS_val]; omega
theorem three_le_recv : 3 ≤ (recvS j).val := by rw [recvS_val]; omega
theorem ten_le_recv : 10 ≤ (recvS j).val := by rw [recvS_val]; omega
theorem not_ten_le_send : ¬ 10 ≤ (sendS j).val := by rw [sendS_val]; omega

theorem duties_bar : (sched (F := F) m).duties (barCell c) 0 = Finset.univ := by
  dsimp only [sched]; rw [if_pos ⟨rfl, rfl⟩]; exact if_pos rfl
theorem duties_send : (sched (F := F) m).duties (sendCell c j) 0 = {0} := by
  dsimp only [sched]; rw [if_pos ⟨rfl, rfl⟩]; exact if_pos (three_le_send j)
theorem duties_recv : (sched (F := F) m).duties (recvCell c j) 0 = {0} := by
  dsimp only [sched]; rw [if_pos ⟨rfl, rfl⟩]; exact if_pos (three_le_recv j)
theorem duties_later (g : GSem nD τ sig) : ∀ r, 1 ≤ r → (sched (F := F) m).duties g r = ∅ :=
  fun r hr => by dsimp only [sched]; rw [if_neg fun h => by omega]

theorem amount_bar (d : Fin 7) : (sched (F := F) m).amount (barCell c) 0 d = 1 := rfl
theorem amount_send (d : Fin 7) : (sched (F := F) m).amount (sendCell c j) 0 d = N := rfl
theorem amount_recv (d : Fin 7) : (sched (F := F) m).amount (recvCell c j) 0 d = N := rfl

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (i : Fin 7) : (sched (F := F) m).payload (barCell c) 0 i = barPay c i := by
  dsimp only [sched]; exact if_pos rfl
theorem payload_send (d : Fin 7) : (sched (F := F) m).payload (sendCell c j) 0 d = sendPay c j := by
  dsimp only [sched]; rw [if_neg (not_ten_le_send j), if_pos (three_le_send j), slotOf_send]
theorem payload_recv (d : Fin 7) : (sched (F := F) m).payload (recvCell c j) 0 d = recvPay m c j := by
  dsimp only [sched]; rw [if_pos (ten_le_recv j), slotOf_recv]

/-- The whole round of the barrier cell: every other device's landing slot for this device's copies. -/
theorem rest_bar : bigSep ((sched (F := F) m).duties (barCell c) 0 \ ∅) (fun d => (sched (F := F) m).payload (barCell c) 0 d)
    = bigSep Finset.univ (fun i : Fin 7 => barPay (F := F) c i) := by
  rw [Finset.sdiff_empty, duties_bar]; exact bigSep_congr fun i _ => payload_bar m c i
theorem rest_send : bigSep ((sched (F := F) m).duties (sendCell c j) 0 \ ∅) (fun d => (sched (F := F) m).payload (sendCell c j) 0 d) = sendPay c j := by
  rw [Finset.sdiff_empty, duties_send, bigSep_singleton, payload_send]
theorem rest_recv : bigSep ((sched (F := F) m).duties (recvCell c j) 0 \ ∅) (fun d => (sched (F := F) m).payload (recvCell c j) 0 d) = recvPay m c j := by
  rw [Finset.sdiff_empty, duties_recv, bigSep_singleton, payload_recv]

end Tables

end Cert.KernelIdeal.Hand

end
-- ==== Proof.KernelIdeal.Owed.lean ====
/-
  What each device owes at launch, the levels that order the waits, and the proof data of the region.

  A device owes fourteen payments: one unit to the barrier cell of each of the seven other devices,
  and the credit of one slot's copy to the receive cell of the slot it writes on each of them. It
  pays them in program order: the signals 0 … 6, then the copies 6, 5, …, 0. A wait on the barrier
  cell (level 1) happens while only copies (receive cells, level 2) are owed; every other wait of the
  kernel happens when nothing is owed; the pipeline's own staging cells are at level 0.
-/
import proofs.«900369_g7700000000000370_dist_matmul_mk_i_outk_m1536_n1536_k768_v7x_i8_bf16_1_alg».proof.Proof.KernelIdeal.Sched

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What a device owes -/

/-- The credit of copy `j`, owed to the receive cell of slot `j` on the device it lands on; -/
def Rt (c : Dev nD) (j : Fin 7) : CellTallies nD τ sig Unit := tallyAt (recvCell (tgt c j) j) () N
/-- the unit of signal `i`, owed to the barrier cell of the device it reaches. -/
def Bt (c : Dev nD) (i : Fin 7) : CellTallies nD τ sig Unit := tallyAt (barCell (tgt c i)) () 1

/-- The payments in reverse program order: number 0 is the last copy (slot 0), number 6 the first (slot 6),
    number 7 the last signal (6), number 13 the first (0). -/
def payment (c : Dev nD) (n : ℕ) : CellTallies nD τ sig Unit :=
  if h : n < 7 then Rt c ⟨n, h⟩ else if h : n < 14 then Bt c ⟨13 - n, by omega⟩ else 0
/-- What is still owed when `n` payments remain. -/
def owedAfter (c : Dev nD) : ℕ → CellTallies nD τ sig Unit
  | 0 => 0
  | n + 1 => owedAfter c n + payment c n
def O₀ (c : Dev nD) : CellTallies nD τ sig Unit := owedAfter c 14

theorem owedAfter_pos {c : Dev nD} {g : GSem nD τ sig} {u : Unit} : ∀ {n : ℕ}, 0 < owedAfter c n g u →
    (∃ j, g = recvCell (tgt c j) j) ∨ (∃ i, 7 ≤ n ∧ g = barCell (tgt c i))
  | 0, h => by simp [owedAfter] at h
  | n + 1, h => by
    rw [owedAfter, Pi.add_apply, Finsupp.add_apply] at h
    rcases Nat.add_pos_iff_pos_or_pos.mp h with h | h
    · rcases owedAfter_pos h with h' | ⟨i, hn, hi⟩
      · exact .inl h'
      · exact .inr ⟨i, by omega, hi⟩
    · unfold payment at h
      split at h
      · rename_i hn
        unfold Rt at h; rw [tallyAt_apply] at h
        by_cases hg : g = recvCell (tgt c ⟨n, hn⟩) ⟨n, hn⟩ ∧ u = ()
        · exact .inl ⟨_, hg.1⟩
        · rw [if_neg hg] at h; exact absurd h (Nat.lt_irrefl 0)
      · split at h
        · rename_i hn hn'
          unfold Bt at h; rw [tallyAt_apply] at h
          by_cases hg : g = barCell (tgt c ⟨13 - n, by omega⟩) ∧ u = ()
          · exact .inr ⟨_, by omega, hg.1⟩
          · rw [if_neg hg] at h; exact absurd h (Nat.lt_irrefl 0)
        · exact absurd h (Nat.lt_irrefl 0)

/-! ## The levels -/

def L (g : GSem nD τ sig) : Finset Unit := if g.1.2 = .tc then {()} else ∅
/-- Barrier cells at 1, receive cells at 2, everything else (staging cells, send cells) at 0. -/
def lv (g : GSem nD τ sig) (_ : Unit) : ℕ :=
  match g.2 with
  | .reg s => if s = barS then 1 else 0
  | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_recv (c : Dev nD) (j : Fin 7) (u : Unit) : lv (recvCell c j) u = 2 := by dsimp only [lv]; exact if_pos (ten_le_recv j)

/-- A wait on a cell at level 0 (the pipeline's staging cells) while any of the fourteen payments, or none, is owed. -/
theorem mayWait_stage (c : Dev nD) (q : DmaSem sig) (hq : ¬ 10 ≤ q.val) (n : ℕ) :
    (levAts L lv : sProp 𝕄) ⊢ MayWait (c : Thread nD τ) (.dma q) () (owedAfter c n) :=
  MayOwe.of_cut (L := L) (lev := lv) 0 (fun p hp => by rw [Finset.mem_singleton.mp hp, L_tc]; exact Finset.mem_singleton_self _)
    (fun g u hg => by rcases owedAfter_pos hg with ⟨j, rfl⟩ | ⟨i, -, rfl⟩ <;> exact Finset.mem_singleton_self _)
    (fun p hp => by rw [Finset.mem_singleton.mp hp]; dsimp only [lv]; rw [if_neg hq])
    (fun g u hg => by
      rcases owedAfter_pos hg with ⟨j, rfl⟩ | ⟨i, -, rfl⟩
      · rw [lv_recv]; decide
      · rw [lv_bar]; decide)

/-- At its barrier wait a device owes the seven copies only: receive cells, above its barrier cell. -/
theorem mayWait_bar (c : Dev nD) :
    (levAts L lv : sProp 𝕄) ⊢ MayWait (c : Thread nD τ) (.reg barS) () (owedAfter c 7) :=
  MayOwe.of_cut (L := L) (lev := lv) 1 (fun p hp => by rw [Finset.mem_singleton.mp hp, L_tc]; exact Finset.mem_singleton_self _)
    (fun g u hg => by rcases owedAfter_pos hg with ⟨j, rfl⟩ | ⟨i, -, rfl⟩ <;> exact Finset.mem_singleton_self _)
    (fun p hp => by rw [Finset.mem_singleton.mp hp]; exact Nat.le_of_eq (lv_bar c ()))
    (fun g u hg => by
      -- with seven payments left only copies are owed
      have : ∀ {n : ℕ}, n ≤ 7 → 0 < owedAfter c n g u → ∃ j, g = recvCell (tgt c j) j := by
        intro n
        induction n with
        | zero => intro _ h; simp [owedAfter] at h
        | succ n ih =>
          intro hn h
          rw [owedAfter, Pi.add_apply, Finsupp.add_apply] at h
          rcases Nat.add_pos_iff_pos_or_pos.mp h with h | h
          · exact ih (by omega) h
          · unfold payment at h; rw [dif_pos (by omega : n < 7)] at h
            unfold Rt at h; rw [tallyAt_apply] at h
            by_cases hg' : g = recvCell (tgt c ⟨n, by omega⟩) ⟨n, by omega⟩ ∧ u = ()
            · exact ⟨_, hg'.1⟩
            · rw [if_neg hg'] at h; exact absurd h (Nat.lt_irrefl 0)
      obtain ⟨j, rfl⟩ := this (Nat.le_refl 7) hg
      rw [lv_recv]; decide)

end Cert.KernelIdeal.Hand

end
-- ==== Proof.KernelIdeal.Slots.lean ====
/-
  The seven slots of a buffer: they partition it, a slot stored whole reads back as the payload, and
  what a copy lands in a slot reads as what the copy's source slot read.
-/
import proofs.«900369_g7700000000000370_dist_matmul_mk_i_outk_m1536_n1536_k768_v7x_i8_bf16_1_alg».proof.Proof.KernelIdeal.Mesh
import Idealize.ShloMosaic.Lib.Ring

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Val : EltTy → Type}

/-- The elements of slot `j` of a seven-slot buffer `b`. -/
def slotSet (b : Ref sig .tc) (hb : b.ty.shape = S7x192x1536) (j : Fin 7) : Finset b.ty.Idx :=
  (hb ▸ (slotRect j).set : Finset b.ty.shape.Idx)

theorem slotRect_mem (j : Fin 7) (i : S7x192x1536.Idx) : i ∈ (slotRect j).set ↔ (i 0).val = j.val := by
  rw [Rect.mem_set_unit]
  have h1 : (i 1).val < 192 := (i 1).isLt
  have h2 : (i 2).val < 1536 := (i 2).isLt
  constructor
  · intro h
    have h0 : j.val ≤ (i 0).val ∧ (i 0).val < j.val + 1 := h 0
    omega
  · intro h a
    fin_cases a
    · exact (show j.val ≤ (i 0).val ∧ (i 0).val < j.val + 1 from ⟨by omega, by omega⟩)
    · exact (show 0 ≤ (i 1).val ∧ (i 1).val < 0 + 192 from ⟨by omega, by omega⟩)
    · exact (show 0 ≤ (i 2).val ∧ (i 2).val < 0 + 1536 from ⟨by omega, by omega⟩)

theorem slot_disjoint (j j' : Fin 7) (h : j ≠ j') : Disjoint (slotRect j).set (slotRect j').set :=
  Finset.disjoint_left.mpr fun i hi hi' => h (Fin.ext (((slotRect_mem j i).mp hi).symm.trans ((slotRect_mem j' i).mp hi')))

theorem slot_cover : Finset.univ.biUnion (fun j : Fin 7 => (slotRect j).set) = Finset.univ :=
  Finset.eq_univ_of_forall fun i => Finset.mem_biUnion.mpr ⟨⟨(i 0).val, (i 0).isLt⟩, Finset.mem_univ _, (slotRect_mem _ i).mpr rfl⟩

/-- The copy's source and destination views own exactly their slot. -/
theorem srcM_set (j : Fin 7) : (srcM j).view.set = (slotRect j).set := by
  show ((sM.view.slice (slotRect j)).reshape S192x1536 _).set = _
  rw [View.set_reshape]; exact View.set_slice_whole _ _
theorem dstM_set (j : Fin 7) : (dstM j).view.set = (slotRect j).set := by
  show ((rM.view.slice (slotRect j)).reshape S192x1536 _).set = _
  rw [View.set_reshape]; exact View.set_slice_whole _ _

/-- A slot stored whole reads back as what was stored, whatever the buffer held. -/
theorem read_store_slot (M : Memref sig .tc .vmem S7x192x1536 .bf16) (j : Fin 7) (f : M.view.ty.Contents Val) (p : (slotRect j).shape.Idx → Val .bf16) :
    M.view.readAt Val (slotRect j).toLoadRect ((M.access (slotRect j) : View sig .tc .vmem _ _).write Val f p Finset.univ) = p :=
  funext fun x => View.read_slice_write_emb (v := M.view) (slotRect j) f p (Finset.mem_univ x)

/-- What a copy lands in slot `j` of the landing buffer reads as what slot `j` of its source buffer read. -/
theorem land_read (j : Fin 7) (fd : (rM : Memref sig .tc .vmem S7x192x1536 .bf16).view.ty.Contents Val)
    (fs : (sM : Memref sig .tc .vmem S7x192x1536 .bf16).view.ty.Contents Val) :
    (rM : Memref sig .tc .vmem S7x192x1536 .bf16).view.readAt Val (slotRect j).toLoadRect ((dstM j).view.write Val fd ((srcM j).view.read Val fs) Finset.univ)
      = (sM : Memref sig .tc .vmem S7x192x1536 .bf16).view.readAt Val (slotRect j).toLoadRect fs := by
  funext x
  have hn : S192x1536.numel = (slotRect j).shape.numel := squeezes_S1x192x1536_S192x1536.numel_eq
  have h1 : (rM : Memref sig .tc .vmem S7x192x1536 .bf16).view.emb ((slotRect j).emb x) = (dstM j).view.emb ((Shape.reshapeEquiv hn).symm x) := by
    show _ = ((rM.view.slice (slotRect j)).reshape S192x1536 hn).emb _
    rw [View.emb_reshape]; simp
  have h2 : (srcM j).view.emb ((Shape.reshapeEquiv hn).symm x) = (sM : Memref sig .tc .vmem S7x192x1536 .bf16).view.emb ((slotRect j).emb x) := by
    show ((sM.view.slice (slotRect j)).reshape S192x1536 hn).emb _ = _
    rw [View.emb_reshape]; simp
  show rM.view.read Val _ ((slotRect j).emb x) = sM.view.read Val fs ((slotRect j).emb x)
  rw [View.read_apply, View.read_apply, h1, View.write_emb_of_mem _ _ (Finset.mem_univ _), View.read_apply, h2]
  simp

end Cert.KernelIdeal.Hand

end
-- ==== Proof.KernelIdeal.State.lean ====
/-
  The ghost state a device starts its kernel from, the invariant before and after the region's one
  point, and the region's proof data.
-/
import proofs.«900369_g7700000000000370_dist_matmul_mk_i_outk_m1536_n1536_k768_v7x_i8_bf16_1_alg».proof.Proof.KernelIdeal.Owed
import proofs.«900369_g7700000000000370_dist_matmul_mk_i_outk_m1536_n1536_k768_v7x_i8_bf16_1_alg».proof.Proof.KernelIdeal.Slots

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The fifteen cells of a device -/

/-- A device's cells by kind: its barrier cell, its seven send cells, its seven receive cells. -/
abbrev CK : Type := Unit ⊕ (Fin 7 ⊕ Fin 7)
abbrev csem : CK → SemLoc sig
  | .inl _ => .reg barS
  | .inr (.inl j) => .dma (sendS j)
  | .inr (.inr j) => .dma (recvS j)
abbrev kcell (ck : Dev nD × CK) : GSem nD τ sig := ((ck.1 : Thread nD τ), csem ck.2)

/-- The kernel's own (scoped) semaphores: the send and receive semaphores. -/
abbrev osem : Fin 7 ⊕ Fin 7 → SemLoc sig
  | .inl j => .dma (sendS j)
  | .inr j => .dma (recvS j)

/-! ## The ghost state -/

/-- Every cell's invariant, under the names the launch allocated them at, and that its round is reached. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- A device's positions on its own fifteen cells; -/
def positions (c : Dev nD) : sProp 𝕄 :=
  iprop(atPos ER (barCell c) 0 ∅ 0 ∗ (bigSep Finset.univ fun j : Fin 7 => atPos ER (sendCell c j) 0 ∅ 0)
    ∗ bigSep Finset.univ fun j : Fin 7 => atPos ER (recvCell c j) 0 ∅ 0)
/-- the tokens of the twenty-one duties it pays: signal `i` on the barrier cell of device `c + i + 1`, its own
    send cells, and copy `j` on receive cell `j` of device `c + j + 1`. -/
def payToks (c : Dev nD) : sProp 𝕄 :=
  iprop((bigSep Finset.univ fun i : Fin 7 => dutyTok ER (barCell (tgt c i)) 0 i)
    ∗ (bigSep Finset.univ fun j : Fin 7 => dutyTok ER (sendCell c j) 0 (0 : Fin 7))
    ∗ bigSep Finset.univ fun j : Fin 7 => dutyTok ER (recvCell (tgt c j) j) 0 (0 : Fin 7))

def ghost (K : Dev nD × CK → ℕ) (c : Dev nD) : sProp 𝕄 := iprop(records m K ∗ positions c ∗ payToks c)

/-- What a device's body starts from: the ghost state at some names, the credit for the seven units its barrier cell
    will receive and for the seven copies landing on it, and the level facts. -/
def start (c : Dev nD) : sProp 𝕄 :=
  iprop((∃ K, ghost m K c) ∗ cred (tallyAt (barCell c) () 7)
    ∗ (bigSep Finset.univ fun j : Fin 7 => cred (tallyAt (recvCell c j) () N)) ∗ levAts L lv)

/-- A scratch buffer held whole at some contents. -/
def scr (c : Dev nD) (b : Ref sig .tc) : sProp 𝕄 :=
  iprop(∃ f : Buf (Elt F) ((c : Thread nD τ).loc b), ((c : Thread nD τ).loc b) ↦{fullShare} f)
def scratches (c : Dev nD) : sProp 𝕄 :=
  iprop(scr c cc0_scratch0 ∗ scr c cc0_scratch1 ∗ scr c cc0_scratch2 ∗ scr c cc0_scratch3)

def Φ₀ (c : Dev nD) : sProp 𝕄 := iprop(start m c ∗ scratches c)
/-- After the point: the scratch buffers whole again, the fourteen own cells closed at zero. -/
def Φ₁ (c : Dev nD) : sProp 𝕄 :=
  iprop(scratches (F := F) c ∗ (bigSep Finset.univ fun j : Fin 7 => semVal (sendCell c j) 0)
    ∗ bigSep Finset.univ fun j : Fin 7 => semVal (recvCell c j) 0)

/-! ## The proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m c
    | ⟨1, _⟩ => bStg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem share_eq (c : Dev nD) (w : Fin cfg0.W) : (dats m ρ 0 c).share w = fullShare := by unfold Dat.share; split <;> rfl

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.KernelIdeal.Hand

end
-- ==== Proof.KernelIdeal.Steps.lean ====
/-
  The protocol steps of one device's kernel, each as one rule at a symbolic slot: a signal to
  another device's barrier cell, a copy into another device's landing slot, the waits on a
  receive cell and on a send cell.
-/
import proofs.«900369_g7700000000000370_dist_matmul_mk_i_outk_m1536_n1536_k768_v7x_i8_bf16_1_alg».proof.Proof.KernelIdeal.State

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem inv_at (ck : Dev nD × CK) : records m K ⊢ cellInv ER (sched m) (K ck) (kcell ck) := by
  unfold records; iintro ⟨HI, -⟩
  iapply (show (bigSep Finset.univ fun ck : Dev nD × CK => (cellInv ER (sched m) (K ck) (kcell ck) : sProp 𝕄)) ⊢ cellInv ER (sched m) (K ck) (kcell ck)
    from bigSep_elim (Finset.mem_univ ck))
  iexact HI
theorem reached_at (ck : Dev nD × CK) : records m K ⊢ reached ER (kcell ck) 0 := by
  unfold records; iintro ⟨-, HR⟩
  iapply (show (bigSep Finset.univ fun ck : Dev nD × CK => (reached ER (kcell ck) 0 : sProp 𝕄)) ⊢ reached ER (kcell ck) 0
    from bigSep_elim (Finset.mem_univ ck))
  iexact HR

theorem credit_dst (j : Fin 7) : (dstM j).view.dmaCredit = N := by revert j; decide
theorem credit_src (j : Fin 7) : (srcM j).view.dmaCredit = N := by revert j; decide

/-- Signal `i`: one unit to the barrier cell of device `c + i + 1`, handing it slot `6 - i` of this device's
    landing buffer (the slot that device's copy `6 - i` will write). -/
theorem wp_signal_i (c : Dev nD) (i : Fin 7) (n : ℕ) (hn : payment c n = Bt c i) {α : Type} {Q : α → sProp 𝕄}
    {k : PUnit → Prog (TpuEff nD τ sig (Elt F) Λ₀ .tc) α} (W : Waits sig Unit)
    (f : Buf (Elt F) ((dstM (rev i)).view.loc (c : Thread nD τ))) :
    iprop(records m K ∗ owes (c : Thread nD τ) (owedAfter c (n + 1)) W ∗ dutyTok ER (barCell (tgt c i)) 0 i ∗ recvPts c (rev i) f)
      ⊢ iprop((owes (c : Thread nD τ) (owedAfter c n) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((tgt c i, Proc.tc) : Thread nD τ) barS (1#32).toNat) k) Q) := by
  iintro ⟨#HR, HO, Ht, Hf⟩
  iapply (Rounds.wp_signal 𝒱₀ ER (sched m) (c : Thread nD τ) none (dst := ((tgt c i, Proc.tc) : Thread nD τ)) (κ := K (tgt c i, .inl ()))
      (d := i) (by rw [duties_bar]; exact Finset.mem_univ _) ((amount_bar m (tgt c i) i).trans (by decide)) () (owedAfter c n)
      ((show owedAfter c (n + 1) = owedAfter c n + payment c n from rfl).trans (by rw [hn]; rfl))) $$ [HO Ht Hf]
  · isplitr; · iapply (inv_at m K (tgt c i, .inl ())); iexact HR
    isplitl [HO]; · iexact HO
    isplitl [Ht]; · iexact Ht
    isplitl [Hf]
    · rw [payload_bar]; unfold barPay; rw [src_tgt]
      isplitl [Hf]; · iexists f; iexact Hf
      iapply (reached_at m K (c, .inr (.inr (rev i)))); iexact HR
    · iapply (reached_at m K (tgt c i, .inl ())); iexact HR

/-- Copy `j`: slot `j` of the send buffer, holding the product made for device `c + j + 1`, into slot `j` of that
    device's landing buffer. -/
theorem wp_send_j (c t : Dev nD) (j : Fin 7) (ht : t = tgt c j) (n : ℕ) (hn : payment c n = Rt c j)
    {hsc : (dstM j : Memref sig (Dev.tc t : Thread nD τ).2.kind .vmem S192x1536 .bf16).view.ref.isScScratch = false}
    {hsrc : (srcM j : Memref sig .tc .vmem S192x1536 .bf16).view.WordExact} {hdst : (dstM j : Memref sig .tc .vmem S192x1536 .bf16).view.WordExact}
    {hsem : DmaTarget.Typed .vmem (.dma (recvS j)) (.remote (Dev.tc t : Thread nD τ) (dstM j : Memref sig .tc .vmem S192x1536 .bf16) (.dma (sendS j)) hsc)}
    {α : Type} {Q : α → sProp 𝕄} {k : PUnit → Prog (TpuEff nD τ sig (Elt F) Λ₀ .tc) α} (W : Waits sig Unit)
    (fs : Buf (Elt F) ((srcM j).view.loc (c : Thread nD τ))) (fd : Buf (Elt F) ((dstM j).view.loc (tgt c j : Thread nD τ)))
    (hfs : (sM : Memref sig .tc .vmem S7x192x1536 .bf16).view.readAt (Elt F) (slotRect j).toLoadRect fs = prodJ m c j) :
    iprop(records m K ∗ sendPts c j fs ∗ recvPts (tgt c j) j fd ∗ owes (c : Thread nD τ) (owedAfter c (n + 1)) W
        ∗ dutyTok ER (sendCell c j) 0 (0 : Fin 7) ∗ dutyTok ER (recvCell (tgt c j) j) 0 (0 : Fin 7))
      ⊢ iprop(((cred (tallyAt (sendCell c j) () N) ∗ owes (c : Thread nD τ) (owedAfter c n) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM j) (.remote (Dev.tc t : Thread nD τ) (dstM j) (.dma (sendS j)) hsc) (.dma (recvS j)) hsrc hdst hsem) k) Q) := by
  subst ht
  iintro ⟨#HR, Hs, Hd, HO, Hts, Htr⟩
  unfold sendPts recvPts
  iapply (Rounds.wp_send_pointsTo 𝒱₀ ER (sched m) (c : Thread nD τ) none (c' := (Dev.tc (tgt c j) : Thread nD τ)) (src := srcM j) (dst := dstM j)
      (q := fullShare) (fs := fs) (fd := fd)
      (κ₁ := K (c, .inr (.inl j))) (κ₂ := K (tgt c j, .inr (.inr j)))
      (r₁ := 0) (r₂ := 0) (d₁ := 0) (d₂ := 0)
      (by rw [duties_send]; exact Finset.mem_singleton_self _) (by rw [duties_recv]; exact Finset.mem_singleton_self _)
      () () N (amount_dst j) (amount_send m c j 0) (amount_recv m (tgt c j) j 0) (owedAfter c n) ((show owedAfter c (n + 1) = owedAfter c n + payment c n from rfl).trans (by rw [hn]; rfl)) (W := W)
      (by rw [payload_send]; unfold sendPay sendPts; iintro H; iexists fs; iexact H)
      (by
        rw [payload_recv]; unfold recvPay recvPts
        iintro H
        iexists _
        isplitl [H]; · iexact H
        ipureintro
        unfold slotRead landed
        rw [src_tgt, ← hfs]
        exact land_read j fd fs)) $$ [Hs Hd HO Hts Htr]
  · isplitr; · iapply (inv_at m K (c, .inr (.inl j))); iexact HR
    isplitr; · iapply (inv_at m K (tgt c j, .inr (.inr j))); iexact HR
    isplitl [Hs]; · iexact Hs
    isplitl [Hd]; · iexact Hd
    isplitl [HO]; · iexact HO
    isplitl [Hts]; · iexact Hts
    isplitr; · iapply (reached_at m K (c, .inr (.inl j))); iexact HR
    isplitl [Htr]; · iexact Htr
    iapply (reached_at m K (tgt c j, .inr (.inr j))); iexact HR

end Cert.KernelIdeal.Hand

end
-- ==== Proof.KernelIdeal.Steps2.lean ====
/-
  The waits of one device's kernel at a symbolic slot, and the local loads and stores read as values.
-/
import proofs.«900369_g7700000000000370_dist_matmul_mk_i_outk_m1536_n1536_k768_v7x_i8_bf16_1_alg».proof.Proof.KernelIdeal.Steps

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The wait on receive cell `j`, nothing owed: slot `j` of the landing buffer comes back reading as the product
    made for this device by the device `c - j - 1`. -/
theorem wp_waitRecv_j (c : Dev nD) (j : Fin 7) {s' : Shape} {e' : EltTy} {sp' : Space} {src : Memref sig .tc sp' s' e'}
    {hsrc : src.view.WordExact} {hdst : (dstM j : Memref sig .tc .vmem S192x1536 .bf16).view.WordExact}
    {α : Type} {Q : α → sProp 𝕄} {k : PUnit → Prog (TpuEff nD τ sig (Elt F) Λ₀ .tc) α} (W : Waits sig Unit) :
    iprop(records m K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) 1 ∅ 0 ∗ recvPay m c j)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src (dstM j) hsrc hdst) k) Q) := by
  iintro ⟨#HR, Hc, HO, Hat⟩ Hk
  iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv, credit_dst])) $$ [Hc HO Hat]
  · isplitr; · iapply (inv_at m K (c, .inr (.inr j))); iexact HR
    isplitl [Hc]; · rw [credit_dst]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c j)); iexact Hpay

/-- The wait on send cell `j`, nothing owed: slot `j` of the send buffer comes back. -/
theorem wp_waitSend_j (c : Dev nD) (j : Fin 7) {s' : Shape} {e' : EltTy} {sp' : Space} {src : Memref sig .tc sp' s' e'}
    {hsrc : src.view.WordExact} {hdst : (srcM j : Memref sig .tc .vmem S192x1536 .bf16).view.WordExact}
    {α : Type} {Q : α → sProp 𝕄} {k : PUnit → Prog (TpuEff nD τ sig (Elt F) Λ₀ .tc) α} (W : Waits sig Unit) :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0 ∗ sendPay (F := F) c j)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src (srcM j) hsrc hdst) k) Q) := by
  iintro ⟨#HR, Hc, HO, Hat⟩ Hk
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send, credit_src])) $$ [Hc HO Hat]
  · isplitr; · iapply (inv_at m K (c, .inr (.inl j))); iexact HR
    isplitl [Hc]; · rw [credit_src]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c j)); iexact Hpay

/-- The wait for seven units on the device's own barrier cell, the seven copies still owed: every other device's
    landing slot for this device's copies comes with it. -/
theorem wp_waitBar (c : Dev nD) {α : Type} {Q : α → sProp 𝕄} {k : PUnit → Prog (TpuEff nD τ sig (Elt F) Λ₀ .tc) α} (W : Waits sig Unit) :
    iprop(records m K ∗ levAts L lv ∗ cred (tallyAt (barCell c) () 7) ∗ owes (c : Thread nD τ) (owedAfter c 7) W ∗ atPos ER (barCell c) 0 ∅ 0)
      ⊢ iprop(((owes (c : Thread nD τ) (owedAfter c 7) (insert (SemLoc.reg barS, ()) W) ∗ atPos ER (barCell c) 1 ∅ 0
                ∗ bigSep Finset.univ (fun i : Fin 7 => barPay (F := F) c i))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toNat) k) Q) := by
  iintro ⟨#HR, #Hlev, Hc, HO, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := owedAfter c 7) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- A cell whose one round is over closes: its counter at zero is the device's again. -/
theorem close_send (c : Dev nD) (j : Fin 7) :
    iprop(records m K ∗ atPos ER (sendCell c j) 1 ∅ 0) ⊢ (|={Set.univ}=> semVal (sendCell c j) 0 : sProp 𝕄) := by
  iintro ⟨#HR, Hat⟩
  iapply (Rounds.cell_close ER (sched m) (Set.mem_univ (K (c, .inr (.inl j)))) (fun h => h) (R := 0 + 1) (duties_later m (sendCell c j)))
  isplitr; · iapply (inv_at m K (c, .inr (.inl j))); iexact HR
  iexact Hat
theorem close_recv (c : Dev nD) (j : Fin 7) :
    iprop(records m K ∗ atPos ER (recvCell c j) 1 ∅ 0) ⊢ (|={Set.univ}=> semVal (recvCell c j) 0 : sProp 𝕄) := by
  iintro ⟨#HR, Hat⟩
  iapply (Rounds.cell_close ER (sched m) (Set.mem_univ (K (c, .inr (.inr j)))) (fun h => h) (R := 0 + 1) (duties_later m (recvCell c j)))
  isplitr; · iapply (inv_at m K (c, .inr (.inr j))); iexact HR
  iexact Hat

end Cert.KernelIdeal.Hand

end
-- ==== Proof.KernelIdeal.Pieces.lean ====
/-
  A seven-slot buffer held whole is held slot by slot, and back; the local loads and stores of a slot.
-/
import proofs.«900369_g7700000000000370_dist_matmul_mk_i_outk_m1536_n1536_k768_v7x_i8_bf16_1_alg».proof.Proof.KernelIdeal.Steps2

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Slot `j` of the send buffer and of the landing buffer, as element sets of the buffers. -/
def sendSet (j : Fin 7) : Finset (cc0_scratch2 : Ref sig .tc).ty.Idx := (srcM j).view.set
def recvSet (j : Fin 7) : Finset (cc0_scratch3 : Ref sig .tc).ty.Idx := (dstM j).view.set
theorem sendSet_eq (j : Fin 7) : sendSet j = (slotRect j).set := srcM_set j
theorem recvSet_eq (j : Fin 7) : recvSet j = (slotRect j).set := dstM_set j

theorem hd_send : ∀ j j' : Fin 7, j ≠ j' → Disjoint (sendSet j) (sendSet j') := by
  intro j j' h; rw [sendSet_eq, sendSet_eq]; exact slot_disjoint j j' h
theorem hd_recv : ∀ j j' : Fin 7, j ≠ j' → Disjoint (recvSet j) (recvSet j') := by
  intro j j' h; rw [recvSet_eq, recvSet_eq]; exact slot_disjoint j j' h
theorem hc_send : Finset.univ.biUnion sendSet = Finset.univ := by
  refine Finset.eq_univ_of_forall fun i => Finset.mem_biUnion.mpr ⟨⟨(i 0).val, (i 0).isLt⟩, Finset.mem_univ _, ?_⟩
  rw [sendSet_eq]; exact (slotRect_mem _ i).mpr rfl
theorem hc_recv : Finset.univ.biUnion recvSet = Finset.univ := by
  refine Finset.eq_univ_of_forall fun i => Finset.mem_biUnion.mpr ⟨⟨(i 0).val, (i 0).isLt⟩, Finset.mem_univ _, ?_⟩
  rw [recvSet_eq]; exact (slotRect_mem _ i).mpr rfl
theorem hc_send' (c : Dev nD) : (Finset.univ.biUnion sendSet : Finset (Idx (nD := nD) (τ := τ) (sig := sig) ((c : Thread nD τ).loc cc0_scratch2))) = Finset.univ := hc_send
theorem hc_recv' (c : Dev nD) : (Finset.univ.biUnion recvSet : Finset (Idx (nD := nD) (τ := τ) (sig := sig) ((c : Thread nD τ).loc cc0_scratch3))) = Finset.univ := hc_recv

theorem split_send (c : Dev nD) (f : Buf (Elt F) ((c : Thread nD τ).loc cc0_scratch2)) :
    ((((c : Thread nD τ).loc cc0_scratch2) ↦{fullShare} f : sProp 𝕄)) = bigSep Finset.univ fun j : Fin 7 => sendPts c j f :=
  Ring.pointsTo_blocks (ℓ := (c : Thread nD τ).loc cc0_scratch2) sendSet hd_send (hc_send' c) f
theorem split_recv (c : Dev nD) (f : Buf (Elt F) ((c : Thread nD τ).loc cc0_scratch3)) :
    ((((c : Thread nD τ).loc cc0_scratch3) ↦{fullShare} f : sProp 𝕄)) = bigSep Finset.univ fun j : Fin 7 => recvPts c j f :=
  Ring.pointsTo_blocks (ℓ := (c : Thread nD τ).loc cc0_scratch3) recvSet hd_recv (hc_recv' c) f
theorem join_send (c : Dev nD) (f₀ : Buf (Elt F) ((c : Thread nD τ).loc cc0_scratch2)) :
    (bigSep Finset.univ fun j : Fin 7 => sendPay (F := F) c j) ⊢ scr c cc0_scratch2 :=
  Ring.pointsTo_blocks_join_exists (ℓ := (c : Thread nD τ).loc cc0_scratch2) sendSet hd_send (hc_send' c) f₀
theorem join_recv (c : Dev nD) (f₀ : Buf (Elt F) ((c : Thread nD τ).loc cc0_scratch3)) :
    (bigSep Finset.univ fun j : Fin 7 => iprop(∃ g, recvPts (F := F) c j g)) ⊢ scr c cc0_scratch3 :=
  Ring.pointsTo_blocks_join_exists (ℓ := (c : Thread nD τ).loc cc0_scratch3) recvSet hd_recv (hc_recv' c) f₀

/-! ## Loads and stores of a slot -/

theorem hz2 : (![0, 0] : Fin 2 → Nat) = fun _ => 0 := funext fun a => by fin_cases a <;> rfl

/-- The elements a load or a store of slot `j` touches are the slot's. -/
theorem slot_load_sub (M : Memref sig .tc .vmem S7x192x1536 .bf16) (j : Fin 7) :
    M.view.setOn (slotRect j).toLoadRect.set ⊆ ((M.slice (slotRect j) (fun _ => rfl)).squeeze S192x1536 squeezes_S1x192x1536_S192x1536).view.set := by
  intro i hi
  show i ∈ ((M.view.slice (slotRect j)).reshape S192x1536 squeezes_S1x192x1536_S192x1536.numel_eq).set
  rw [View.set_reshape, View.set_slice]; exact hi
theorem slot_store_sub (M : Memref sig .tc .vmem S7x192x1536 .bf16) (j : Fin 7) :
    (M.access (slotRect j) : View sig .tc .vmem _ _).setOn Finset.univ ⊆ ((M.slice (slotRect j) (fun _ => rfl)).squeeze S192x1536 squeezes_S1x192x1536_S192x1536).view.set := by
  intro i hi
  show i ∈ ((M.view.slice (slotRect j)).reshape S192x1536 squeezes_S1x192x1536_S192x1536.numel_eq).set
  rw [View.set_reshape]; exact hi

section Local

/-- A store of slot `j` of the send buffer, the slot held by its own elements. -/
theorem wp_store_send {α : Type} {Q : α → sProp 𝕄} (c : Dev nD) (j : Fin 7) {p : (slotRect j).shape.Idx → Elt F .bf16}
    {hx : (sM.access (slotRect j) : View sig .tc .vmem _ _).Stores Finset.univ} {hm : (Finset.univ : Finset (slotRect j).shape.Idx) = Finset.univ ∨ ∀ a, (slotRect j).stride a = 1}
    {k : PUnit → Prog (TpuEff nD τ sig (Elt F) Λ₀ .tc) α} (f : Buf (Elt F) ((srcM j).view.loc (c : Thread nD τ))) :
    sendPts c j f
      ⊢ iprop((sendPts c j ((sM.access (slotRect j) : View sig .tc .vmem _ _).write (Elt F) f p Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store sM (slotRect j) p Finset.univ hx hm) k) Q) := by
  unfold sendPts
  exact wp_store 𝒱₀ (c : Thread nD τ) none Set.univ (m := sM) (r := slotRect j) (Mk := Finset.univ) (slot_store_sub sM j)

/-- A load of slot `j` of the send buffer (its value is not used). -/
theorem wp_load_send {α : Type} {Q : α → sProp 𝕄} (c : Dev nD) (j : Fin 7) {hl : (sM : Memref sig .tc .vmem S7x192x1536 .bf16).view.LoadsAt (slotRect j).toLoadRect}
    {k : ((slotRect j).toLoadRect.shape.Idx → Elt F .bf16) → Prog (TpuEff nD τ sig (Elt F) Λ₀ .tc) α} (f : Buf (Elt F) ((srcM j).view.loc (c : Thread nD τ))) :
    sendPts c j f
      ⊢ iprop((sendPts c j f -∗ wp frame (wpE (defs₀ (F := F)) 𝒱₀ (c : Thread nD τ) none) Set.univ (k (sM.view.readAt (Elt F) (slotRect j).toLoadRect f)) Q)
          -∗ wp frame (wpE (defs₀ (F := F)) 𝒱₀ (c : Thread nD τ) none) Set.univ (.op (.load sM (slotRect j).toLoadRect hl) k) Q) := by
  unfold sendPts
  exact wp_load 𝒱₀ (c : Thread nD τ) none Set.univ (m := sM) (slot_load_sub sM j)

/-- A load of slot `j` of the landing buffer: what the slot reads. -/
theorem wp_load_recv {α : Type} {Q : α → sProp 𝕄} (c : Dev nD) (j : Fin 7) {hl : (rM : Memref sig .tc .vmem S7x192x1536 .bf16).view.LoadsAt (slotRect j).toLoadRect}
    {k : ((slotRect j).toLoadRect.shape.Idx → Elt F .bf16) → Prog (TpuEff nD τ sig (Elt F) Λ₀ .tc) α} (g : Buf (Elt F) ((dstM j).view.loc (c : Thread nD τ))) :
    recvPts c j g
      ⊢ iprop((recvPts c j g -∗ wp frame (wpE (defs₀ (F := F)) 𝒱₀ (c : Thread nD τ) none) Set.univ (k (slotRead j g)) Q)
          -∗ wp frame (wpE (defs₀ (F := F)) 𝒱₀ (c : Thread nD τ) none) Set.univ (.op (.load rM (slotRect j).toLoadRect hl) k) Q) := by
  unfold recvPts slotRead
  exact wp_load 𝒱₀ (c : Thread nD τ) none Set.univ (m := rM) (slot_load_sub rM j)

end Local

end Cert.KernelIdeal.Hand

end
-- ==== Proof.KernelIdeal.Body.lean ====
/-
  One device's kernel, stepped from its starting ghost state to the state after the region's point:
  seven signals, the two blocks rounded to the narrow format, seven products stored and sent (the
  barrier wait before the first copy), the device's own product, seven landed products received and
  added, the result stored, seven send waits, the fourteen own cells closed.
-/
import proofs.«900369_g7700000000000370_dist_matmul_mk_i_outk_m1536_n1536_k768_v7x_i8_bf16_1_alg».proof.Proof.KernelIdeal.Pieces

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The whole-buffer memrefs and what their loads and stores read and write -/

abbrev aM : Memref sig .tc .vmem S1536x768 .f32 := Memref.whole cc0_stg0_0
abbrev bM : Memref sig .tc .vmem S768x1536 .f32 := Memref.whole cc0_stg1_0
abbrev oM : Memref sig .tc .vmem S192x1536 .f32 := Memref.whole cc0_stg2_0
abbrev abM : Memref sig .tc .vmem S1536x768 .bf16 := Memref.whole cc0_scratch0
abbrev bbM : Memref sig .tc .vmem S768x1536 .bf16 := Memref.whole cc0_scratch1

abbrev rA : Rect S1536x768 := Rect.unit (s := S1536x768) ![0, 0] S1536x768.size inb_S1536x768_S1536x768_0_0
abbrev rB : Rect S768x1536 := Rect.unit (s := S768x1536) ![0, 0] S768x1536.size inb_S768x1536_S768x1536_0_0
abbrev rO : Rect S192x1536 := Rect.unit (s := S192x1536) ![0, 0] S192x1536.size inb_S192x1536_S192x1536_0_0

theorem read_a (f : (cc0_stg0_0 : Ref sig .tc).ty.Contents (Elt F)) : (aM : Memref sig .tc .vmem S1536x768 .f32).view.readAt (Elt F) rA.toLoadRect f = f :=
  Memref.readAt_unit_zero (Elt F) cc0_stg0_0 hz2 _ f
theorem read_b (f : (cc0_stg1_0 : Ref sig .tc).ty.Contents (Elt F)) : (bM : Memref sig .tc .vmem S768x1536 .f32).view.readAt (Elt F) rB.toLoadRect f = f :=
  Memref.readAt_unit_zero (Elt F) cc0_stg1_0 hz2 _ f
theorem read_bb (f : (cc0_scratch1 : Ref sig .tc).ty.Contents (Elt F)) : (bbM : Memref sig .tc .vmem S768x1536 .bf16).view.readAt (Elt F) rB.toLoadRect f = f :=
  Memref.readAt_unit_zero (Elt F) cc0_scratch1 hz2 _ f
theorem write_ab (f w : (cc0_scratch0 : Ref sig .tc).ty.Contents (Elt F)) :
    ((abM : Memref sig .tc .vmem S1536x768 .bf16).access rA : View sig .tc _ _ _).write (Elt F) f w Finset.univ = w :=
  Memref.write_access_unit_zero_univ (Elt F) cc0_scratch0 hz2 _ f w
theorem write_bb (f w : (cc0_scratch1 : Ref sig .tc).ty.Contents (Elt F)) :
    ((bbM : Memref sig .tc .vmem S768x1536 .bf16).access rB : View sig .tc _ _ _).write (Elt F) f w Finset.univ = w :=
  Memref.write_access_unit_zero_univ (Elt F) cc0_scratch1 hz2 _ f w
theorem write_o (f w : (cc0_stg2_0 : Ref sig .tc).ty.Contents (Elt F)) :
    ((oM : Memref sig .tc .vmem S192x1536 .f32).access rO : View sig .tc _ _ _).write (Elt F) f w Finset.univ = w :=
  Memref.write_access_unit_zero_univ (Elt F) cc0_stg2_0 hz2 _ f w

/-- What a slot of the send buffer reads right after the product was stored in it. -/
theorem sent_read (c : Dev nD) (j : Fin 7) (f : (cc0_scratch2 : Ref sig .tc).ty.Contents (Elt F)) :
    (sM : Memref sig .tc .vmem S7x192x1536 .bf16).view.readAt (Elt F) (slotRect j).toLoadRect
      ((sM.access (slotRect j) : View sig .tc .vmem _ _).write (Elt F) f (prodJ m c j) Finset.univ) = prodJ m c j :=
  read_store_slot sM j f (prodJ m c j)

/-- The landing slot, on device `c + j + 1`, that copy `j` of device `c` writes, at some contents. -/
def landSlot (c : Dev nD) (j : Fin 7) : sProp 𝕄 := iprop(∃ f, recvPts (F := F) (tgt c j) j f)

theorem barPay_land (c : Dev nD) (j : Fin 7) : barPay (F := F) c (rev j) ⊢ landSlot c j := by
  unfold barPay landSlot
  rw [src_rev, rev_rev]
  iintro ⟨H, -⟩; iexact H

/-- What the barrier wait hands over: for each copy, the slot it writes. -/
theorem barPays_land (c : Dev nD) :
    (bigSep Finset.univ fun i : Fin 7 => barPay (F := F) c i)
      ⊢ iprop(landSlot c 6 ∗ landSlot c 5 ∗ landSlot c 4 ∗ landSlot c 3 ∗ landSlot c 2 ∗ landSlot c 1 ∗ landSlot c 0) := by
  rw [bigSep_fin7]
  iintro ⟨H0, H1, H2, H3, H4, H5, H6⟩
  isplitl [H0]; · iapply (barPay_land c 6); iexact H0
  isplitl [H1]; · iapply (barPay_land c 5); iexact H1
  isplitl [H2]; · iapply (barPay_land c 4); iexact H2
  isplitl [H3]; · iapply (barPay_land c 3); iexact H3
  isplitl [H4]; · iapply (barPay_land c 2); iexact H4
  isplitl [H5]; · iapply (barPay_land c 1); iexact H5
  iapply (barPay_land c 0); iexact H6

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 7) ∗ (bigSep Finset.univ fun j : Fin 7 => cred (tallyAt (recvCell c j) () N)) ∗ levAts L lv
      ∗ scratches c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (aStg m c) ∗ stg c cc0_stg1_0 (bStg m c) ∗ stg c cc0_stg2_0 (outAt m c))

set_option maxHeartbeats 4000000 in
set_option maxRecDepth 65536 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel
    k0_part11_skel k0_part12_skel
  simp only [semSignalWord, semWaitWord, Prog.lift, Prog.bind_op, Prog.bind_ret, Prog.pure_eq_ret, wp_deviceId,
    sig_dev0 c, sig_dev1 c, sig_dev2 c, sig_dev3 c, sig_dev4 c, sig_dev5 c, sig_dev6 c,
    dma_dev0 c, dma_dev1 c, dma_dev2 c, dma_dev3 c, dma_dev4 c, dma_dev5 c, dma_dev6 c]
  unfold bodyPre ghost positions payToks scratches scr
  iintro ⟨⟨⟨⟨#HR, ⟨HaB, HaS, HaV⟩, HtB, HtS, HtV⟩, HcB, HcV, #Hlev, ⟨%f0, H0⟩, ⟨%f1, H1⟩, ⟨%f2, H2⟩, ⟨%f3, H3⟩⟩,
    Ho, ⟨%d0, %g0, %hg0, Hx⟩, ⟨%d1, %g1, %hg1, Hy⟩, ⟨%d2, %g2, %hg2, Hout⟩⟩, Hk⟩
  have hx : g0 = aStg m c := by rw [hg0]; unfold Dat.before; rw [if_pos (fetch0_0 t0_0)]; rfl
  have hy : g1 = bStg m c := by rw [hg1]; unfold Dat.before; rw [if_pos (fetch0_1 t0_0)]; rfl
  subst hx hy
  unfold Dat.owesAt Pipeline.owesWithin
  icases Ho with ⟨%W, %hW, HO⟩
  rw [show (dats m ρ 0 c).owed t0_0.castSucc = owedAfter c 14 from rfl]
  -- the families over the seven slots, one hypothesis per slot
  ihave HaS' := (Entails.of_eq (bigSep_fin7 _)) $$ HaS; icases HaS' with ⟨HaS0, HaS1, HaS2, HaS3, HaS4, HaS5, HaS6⟩
  ihave HaV' := (Entails.of_eq (bigSep_fin7 _)) $$ HaV; icases HaV' with ⟨HaV0, HaV1, HaV2, HaV3, HaV4, HaV5, HaV6⟩
  ihave HtB' := (Entails.of_eq (bigSep_fin7 _)) $$ HtB; icases HtB' with ⟨HtB0, HtB1, HtB2, HtB3, HtB4, HtB5, HtB6⟩
  ihave HtS' := (Entails.of_eq (bigSep_fin7 _)) $$ HtS; icases HtS' with ⟨HtS0, HtS1, HtS2, HtS3, HtS4, HtS5, HtS6⟩
  ihave HtV' := (Entails.of_eq (bigSep_fin7 _)) $$ HtV; icases HtV' with ⟨HtV0, HtV1, HtV2, HtV3, HtV4, HtV5, HtV6⟩
  ihave HcV' := (Entails.of_eq (bigSep_fin7 _)) $$ HcV; icases HcV' with ⟨HcV0, HcV1, HcV2, HcV3, HcV4, HcV5, HcV6⟩
  ihave Hs := (Entails.of_eq (split_send c f2)) $$ H2
  ihave Hs' := (Entails.of_eq (bigSep_fin7 _)) $$ Hs; icases Hs' with ⟨Hs0, Hs1, Hs2, Hs3, Hs4, Hs5, Hs6⟩
  ihave Hv := (Entails.of_eq (split_recv c f3)) $$ H3
  ihave Hv' := (Entails.of_eq (bigSep_fin7 _)) $$ Hv; icases Hv' with ⟨Hv0, Hv1, Hv2, Hv3, Hv4, Hv5, Hv6⟩
  -- the seven signals: signal i hands device c + i + 1 the landing slot 6 - i
  iapply (wp_signal_i m K c 0 13 rfl W f3) $$ [HO HtB0 Hv6]
  · isplitr; · iexact HR
    iframe
    iexact Hv6
  iintro HO
  iapply (wp_signal_i m K c 1 12 rfl W f3) $$ [HO HtB1 Hv5]
  · isplitr; · iexact HR
    iframe
    iexact Hv5
  iintro HO
  iapply (wp_signal_i m K c 2 11 rfl W f3) $$ [HO HtB2 Hv4]
  · isplitr; · iexact HR
    iframe
    iexact Hv4
  iintro HO
  iapply (wp_signal_i m K c 3 10 rfl W f3) $$ [HO HtB3 Hv3]
  · isplitr; · iexact HR
    iframe
    iexact Hv3
  iintro HO
  iapply (wp_signal_i m K c 4 9 rfl W f3) $$ [HO HtB4 Hv2]
  · isplitr; · iexact HR
    iframe
    iexact Hv2
  iintro HO
  iapply (wp_signal_i m K c 5 8 rfl W f3) $$ [HO HtB5 Hv1]
  · isplitr; · iexact HR
    iframe
    iexact Hv1
  iintro HO
  iapply (wp_signal_i m K c 6 7 rfl W f3) $$ [HO HtB6 Hv0]
  · isplitr; · iexact HR
    iframe
    iexact Hv0
  iintro HO
  -- the two blocks rounded to the narrow format into the scratch buffers
  iapply (wp_load 𝒱₀ (c : Thread nD τ) none Set.univ (m := aM) (Finset.subset_univ _)) $$ Hx; iintro Hx
  rw [read_a]
  iapply (wp_load 𝒱₀ (c : Thread nD τ) none Set.univ (m := abM) (Finset.subset_univ _)) $$ H0; iintro H0
  iapply (wp_store 𝒱₀ (c : Thread nD τ) none Set.univ (m := abM) (r := rA) (Mk := Finset.univ) (Finset.subset_univ _)) $$ H0; iintro H0
  rw [write_ab]
  iapply (wp_load 𝒱₀ (c : Thread nD τ) none Set.univ (m := bM) (Finset.subset_univ _)) $$ Hy; iintro Hy
  rw [read_b]
  iapply (wp_load 𝒱₀ (c : Thread nD τ) none Set.univ (m := bbM) (Finset.subset_univ _)) $$ H1; iintro H1
  iapply (wp_store 𝒱₀ (c : Thread nD τ) none Set.univ (m := bbM) (r := rB) (Mk := Finset.univ) (Finset.subset_univ _)) $$ H1; iintro H1
  rw [write_bb]
  -- slot 6: the product for device c + 7, stored; the barrier wait; the copy
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 6 f2) $$ Hs6; iintro Hs6
  iapply (wp_store_send c 6 f2) $$ Hs6; iintro Hs6
  iapply (wp_waitBar m K c W) $$ [HcB HO HaB]
  · isplitr; · iexact HR
    isplitr; · iexact Hlev
    iframe
  iintro ⟨HO, HaB, Hpay⟩
  ihave Hl := (barPays_land c) $$ Hpay
  unfold landSlot
  icases Hl with ⟨⟨%fd6, Hd6⟩, ⟨%fd5, Hd5⟩, ⟨%fd4, Hd4⟩, ⟨%fd3, Hd3⟩, ⟨%fd2, Hd2⟩, ⟨%fd1, Hd1⟩, ⟨%fd0, Hd0⟩⟩
  iapply (wp_send_j m K c _ 6 (dma_dev6 c) 6 rfl (insert (SemLoc.reg barS, ()) W) _ fd6 (sent_read m c 6 f2)) $$ [Hs6 Hd6 HO HtS6 HtV6]
  · isplitr; · iexact HR
    isplitl [Hs6]; · iexact Hs6
    iframe
  iintro ⟨HcS6, HO⟩
  -- slot 5
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 5 f2) $$ Hs5; iintro Hs5
  iapply (wp_store_send c 5 f2) $$ Hs5; iintro Hs5
  iapply (wp_send_j m K c _ 5 (dma_dev5 c) 5 rfl (insert (SemLoc.reg barS, ()) W) _ fd5 (sent_read m c 5 f2)) $$ [Hs5 Hd5 HO HtS5 HtV5]
  · isplitr; · iexact HR
    isplitl [Hs5]; · iexact Hs5
    iframe
  iintro ⟨HcS5, HO⟩
  -- slot 4
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 4 f2) $$ Hs4; iintro Hs4
  iapply (wp_store_send c 4 f2) $$ Hs4; iintro Hs4
  iapply (wp_send_j m K c _ 4 (dma_dev4 c) 4 rfl (insert (SemLoc.reg barS, ()) W) _ fd4 (sent_read m c 4 f2)) $$ [Hs4 Hd4 HO HtS4 HtV4]
  · isplitr; · iexact HR
    isplitl [Hs4]; · iexact Hs4
    iframe
  iintro ⟨HcS4, HO⟩
  -- slot 3
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 3 f2) $$ Hs3; iintro Hs3
  iapply (wp_store_send c 3 f2) $$ Hs3; iintro Hs3
  iapply (wp_send_j m K c _ 3 (dma_dev3 c) 3 rfl (insert (SemLoc.reg barS, ()) W) _ fd3 (sent_read m c 3 f2)) $$ [Hs3 Hd3 HO HtS3 HtV3]
  · isplitr; · iexact HR
    isplitl [Hs3]; · iexact Hs3
    iframe
  iintro ⟨HcS3, HO⟩
  -- slot 2
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 2 f2) $$ Hs2; iintro Hs2
  iapply (wp_store_send c 2 f2) $$ Hs2; iintro Hs2
  iapply (wp_send_j m K c _ 2 (dma_dev2 c) 2 rfl (insert (SemLoc.reg barS, ()) W) _ fd2 (sent_read m c 2 f2)) $$ [Hs2 Hd2 HO HtS2 HtV2]
  · isplitr; · iexact HR
    isplitl [Hs2]; · iexact Hs2
    iframe
  iintro ⟨HcS2, HO⟩
  -- slot 1
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 1 f2) $$ Hs1; iintro Hs1
  iapply (wp_store_send c 1 f2) $$ Hs1; iintro Hs1
  iapply (wp_send_j m K c _ 1 (dma_dev1 c) 1 rfl (insert (SemLoc.reg barS, ()) W) _ fd1 (sent_read m c 1 f2)) $$ [Hs1 Hd1 HO HtS1 HtV1]
  · isplitr; · iexact HR
    isplitl [Hs1]; · iexact Hs1
    iframe
  iintro ⟨HcS1, HO⟩
  -- slot 0
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  iapply (wp_load_send c 0 f2) $$ Hs0; iintro Hs0
  iapply (wp_store_send c 0 f2) $$ Hs0; iintro Hs0
  iapply (wp_send_j m K c _ 0 (dma_dev0 c) 0 rfl (insert (SemLoc.reg barS, ()) W) _ fd0 (sent_read m c 0 f2)) $$ [Hs0 Hd0 HO HtS0 HtV0]
  · isplitr; · iexact HR
    isplitl [Hs0]; · iexact Hs0
    iframe
  iintro ⟨HcS0, HO⟩
  -- the device's own product
  iapply (wp_load 𝒱₀ (c : Thread nD τ) none Set.univ (m := abM) (Finset.subset_univ _)) $$ H0; iintro H0
  iapply (wp_load 𝒱₀ (c : Thread nD τ) none Set.univ (m := bbM) (Finset.subset_univ _)) $$ H1; iintro H1
  rw [read_bb]
  -- the seven landed products, received and read
  iapply (wp_waitRecv_j m K c 6 _) $$ [HcV6 HO HaV6]
  · isplitr; · iexact HR
    isplitl [HcV6]; · iexact HcV6
    isplitl [HO]; · iexact HO
    iexact HaV6
  iintro ⟨HO, HaV6, Hp6⟩
  unfold recvPay
  icases Hp6 with ⟨%r6, Hg6, %hr6⟩
  iapply (wp_load_recv c 6 r6) $$ Hg6; iintro Hg6
  rw [hr6]
  iapply (wp_waitRecv_j m K c 5 _) $$ [HcV5 HO HaV5]
  · isplitr; · iexact HR
    isplitl [HcV5]; · iexact HcV5
    isplitl [HO]; · iexact HO
    iexact HaV5
  iintro ⟨HO, HaV5, Hp5⟩
  unfold recvPay
  icases Hp5 with ⟨%r5, Hg5, %hr5⟩
  iapply (wp_load_recv c 5 r5) $$ Hg5; iintro Hg5
  rw [hr5]
  iapply (wp_waitRecv_j m K c 4 _) $$ [HcV4 HO HaV4]
  · isplitr; · iexact HR
    isplitl [HcV4]; · iexact HcV4
    isplitl [HO]; · iexact HO
    iexact HaV4
  iintro ⟨HO, HaV4, Hp4⟩
  unfold recvPay
  icases Hp4 with ⟨%r4, Hg4, %hr4⟩
  iapply (wp_load_recv c 4 r4) $$ Hg4; iintro Hg4
  rw [hr4]
  iapply (wp_waitRecv_j m K c 3 _) $$ [HcV3 HO HaV3]
  · isplitr; · iexact HR
    isplitl [HcV3]; · iexact HcV3
    isplitl [HO]; · iexact HO
    iexact HaV3
  iintro ⟨HO, HaV3, Hp3⟩
  unfold recvPay
  icases Hp3 with ⟨%r3, Hg3, %hr3⟩
  iapply (wp_load_recv c 3 r3) $$ Hg3; iintro Hg3
  rw [hr3]
  iapply (wp_waitRecv_j m K c 2 _) $$ [HcV2 HO HaV2]
  · isplitr; · iexact HR
    isplitl [HcV2]; · iexact HcV2
    isplitl [HO]; · iexact HO
    iexact HaV2
  iintro ⟨HO, HaV2, Hp2⟩
  unfold recvPay
  icases Hp2 with ⟨%r2, Hg2, %hr2⟩
  iapply (wp_load_recv c 2 r2) $$ Hg2; iintro Hg2
  rw [hr2]
  iapply (wp_waitRecv_j m K c 1 _) $$ [HcV1 HO HaV1]
  · isplitr; · iexact HR
    isplitl [HcV1]; · iexact HcV1
    isplitl [HO]; · iexact HO
    iexact HaV1
  iintro ⟨HO, HaV1, Hp1⟩
  unfold recvPay
  icases Hp1 with ⟨%r1, Hg1, %hr1⟩
  iapply (wp_load_recv c 1 r1) $$ Hg1; iintro Hg1
  rw [hr1]
  iapply (wp_waitRecv_j m K c 0 _) $$ [HcV0 HO HaV0]
  · isplitr; · iexact HR
    isplitl [HcV0]; · iexact HcV0
    isplitl [HO]; · iexact HO
    iexact HaV0
  iintro ⟨HO, HaV0, Hp0⟩
  unfold recvPay
  icases Hp0 with ⟨%r0, Hg0, %hr0⟩
  iapply (wp_load_recv c 0 r0) $$ Hg0; iintro Hg0
  rw [hr0]
  -- the result block stored
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o]
  -- the seven send waits: the send slots come back
  iapply (wp_waitSend_j m K c 6 _) $$ [HcS6 HO HaS6]
  · isplitr; · iexact HR
    isplitl [HcS6]; · iexact HcS6
    isplitl [HO]; · iexact HO
    iexact HaS6
  iintro ⟨HO, HaS6, Hq6⟩
  iapply (wp_waitSend_j m K c 5 _) $$ [HcS5 HO HaS5]
  · isplitr; · iexact HR
    isplitl [HcS5]; · iexact HcS5
    isplitl [HO]; · iexact HO
    iexact HaS5
  iintro ⟨HO, HaS5, Hq5⟩
  iapply (wp_waitSend_j m K c 4 _) $$ [HcS4 HO HaS4]
  · isplitr; · iexact HR
    isplitl [HcS4]; · iexact HcS4
    isplitl [HO]; · iexact HO
    iexact HaS4
  iintro ⟨HO, HaS4, Hq4⟩
  iapply (wp_waitSend_j m K c 3 _) $$ [HcS3 HO HaS3]
  · isplitr; · iexact HR
    isplitl [HcS3]; · iexact HcS3
    isplitl [HO]; · iexact HO
    iexact HaS3
  iintro ⟨HO, HaS3, Hq3⟩
  iapply (wp_waitSend_j m K c 2 _) $$ [HcS2 HO HaS2]
  · isplitr; · iexact HR
    isplitl [HcS2]; · iexact HcS2
    isplitl [HO]; · iexact HO
    iexact HaS2
  iintro ⟨HO, HaS2, Hq2⟩
  iapply (wp_waitSend_j m K c 1 _) $$ [HcS1 HO HaS1]
  · isplitr; · iexact HR
    isplitl [HcS1]; · iexact HcS1
    isplitl [HO]; · iexact HO
    iexact HaS1
  iintro ⟨HO, HaS1, Hq1⟩
  iapply (wp_waitSend_j m K c 0 _) $$ [HcS0 HO HaS0]
  · isplitr; · iexact HR
    isplitl [HcS0]; · iexact HcS0
    isplitl [HO]; · iexact HO
    iexact HaS0
  iintro ⟨HO, HaS0, Hq0⟩
  -- the fourteen own cells close: their counters at zero are the device's again
  imod (close_send m K c 0) $$ [HaS0] with HzS0
  · isplitr; · iexact HR
    iexact HaS0
  imod (close_send m K c 1) $$ [HaS1] with HzS1
  · isplitr; · iexact HR
    iexact HaS1
  imod (close_send m K c 2) $$ [HaS2] with HzS2
  · isplitr; · iexact HR
    iexact HaS2
  imod (close_send m K c 3) $$ [HaS3] with HzS3
  · isplitr; · iexact HR
    iexact HaS3
  imod (close_send m K c 4) $$ [HaS4] with HzS4
  · isplitr; · iexact HR
    iexact HaS4
  imod (close_send m K c 5) $$ [HaS5] with HzS5
  · isplitr; · iexact HR
    iexact HaS5
  imod (close_send m K c 6) $$ [HaS6] with HzS6
  · isplitr; · iexact HR
    iexact HaS6
  imod (close_recv m K c 0) $$ [HaV0] with HzV0
  · isplitr; · iexact HR
    iexact HaV0
  imod (close_recv m K c 1) $$ [HaV1] with HzV1
  · isplitr; · iexact HR
    iexact HaV1
  imod (close_recv m K c 2) $$ [HaV2] with HzV2
  · isplitr; · iexact HR
    iexact HaV2
  imod (close_recv m K c 3) $$ [HaV3] with HzV3
  · isplitr; · iexact HR
    iexact HaV3
  imod (close_recv m K c 4) $$ [HaV4] with HzV4
  · isplitr; · iexact HR
    iexact HaV4
  imod (close_recv m K c 5) $$ [HaV5] with HzV5
  · isplitr; · iexact HR
    iexact HaV5
  imod (close_recv m K c 6) $$ [HaV6] with HzV6
  · isplitr; · iexact HR
    iexact HaV6
  rw [wp_ret]; imodintro
  iapply Hk
  unfold bodyPost Φ₁ scratches Dat.owesAt Pipeline.owesWithin
  rw [show (dats m ρ 0 c).owed t0_0.succ = 0 from rfl]
  isplitl [H0 H1 Hq0 Hq1 Hq2 Hq3 Hq4 Hq5 Hq6 Hg0 Hg1 Hg2 Hg3 Hg4 Hg5 Hg6 HzS0 HzS1 HzS2 HzS3 HzS4 HzS5 HzS6 HzV0 HzV1 HzV2 HzV3 HzV4 HzV5 HzV6]
  · isplitl [H0 H1 Hq0 Hq1 Hq2 Hq3 Hq4 Hq5 Hq6 Hg0 Hg1 Hg2 Hg3 Hg4 Hg5 Hg6]
    · isplitl [H0]; · unfold scr; iexists _; iexact H0
      isplitl [H1]; · unfold scr; iexists _; iexact H1
      isplitl [Hq0 Hq1 Hq2 Hq3 Hq4 Hq5 Hq6]
      · iapply (join_send c f2)
        iapply (Entails.of_eq (bigSep_fin7 _).symm)
        iframe
      · iapply (join_recv c f3)
        iapply (Entails.of_eq (bigSep_fin7 _).symm)
        isplitl [Hg0]; · iexists r0; iexact Hg0
        isplitl [Hg1]; · iexists r1; iexact Hg1
        isplitl [Hg2]; · iexists r2; iexact Hg2
        isplitl [Hg3]; · iexists r3; iexact Hg3
        isplitl [Hg4]; · iexists r4; iexact Hg4
        isplitl [Hg5]; · iexists r5; iexact Hg5
        iexists r6; iexact Hg6
    isplitl [HzS0 HzS1 HzS2 HzS3 HzS4 HzS5 HzS6]
    · iapply (Entails.of_eq (bigSep_fin7 _).symm); iframe
    · iapply (Entails.of_eq (bigSep_fin7 _).symm); iframe
  isplitl [HO]
  · iexists _
    isplitr
    rotate_left
    · iexact HO
    · ipureintro; exact fun _ _ => Or.inl trivial
  isplitl [Hx]
  · iexists _; isplitr; · (ipureintro; rfl)
    iexact Hx
  isplitl [Hy]
  · iexists _; isplitr; · (ipureintro; rfl)
    iexact Hy
  iexists _; isplitr; · (ipureintro; rfl)
  iexact Hout

end Body

end Cert.KernelIdeal.Hand

end
-- ==== Proof.KernelIdeal.Obligation.lean ====
/-
  The launch: the body obligation in the library's form, the ghost state dealt to the eight devices
  (every cell's invariant allocated for all devices at once; each payment's token handed to the
  device that makes it), the launch credit, and the run of @main.
-/
import proofs.«900369_g7700000000000370_dist_matmul_mk_i_outk_m1536_n1536_k768_v7x_i8_bf16_1_alg».proof.Proof.KernelIdeal.Body

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5) (fun _ => bodyPost m ρ c)
  unfold bodyPre' Φ₀ start
  iintro ⟨⟨⟨⟨%K, Hg⟩, Hrest⟩, Hscr⟩, Ho, Hx, Hy, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hy]; · iexact Hy
    iexact Hout
  · iintro H; iexact H

end Cert.KernelIdeal.Hand

end
-- ==== Proof.KernelIdeal.Fund.lean ====
/-
  The ghost state dealt to the eight devices at launch: every cell's round state and invariant, the
  positions, and the duty tokens, each handed to the device that pays the duty.
-/
import proofs.«900369_g7700000000000370_dist_matmul_mk_i_outk_m1536_n1536_k768_v7x_i8_bf16_1_alg».proof.Proof.KernelIdeal.Obligation

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem csem_injective : Function.Injective (csem : CK → SemLoc sig) := by decide

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted: the seven duties of its barrier cell, the one duty of each send
    cell and of each receive cell. -/
abbrev TK : Type := Fin 7 ⊕ (Fin 7 ⊕ Fin 7)
abbrev tokOf (cj : Dev nD × TK) : GSem nD τ sig × ℕ × Fin 7 := match cj.2 with
  | .inl i => (barCell cj.1, 0, i)
  | .inr (.inl j) => (sendCell cj.1 j, 0, 0)
  | .inr (.inr j) => (recvCell cj.1 j, 0, 0)

/-- Which cell and duty a token kind names, apart from the device. -/
abbrev tokKey : TK → SemLoc sig × Fin 7
  | .inl i => (.reg barS, i)
  | .inr (.inl j) => (.dma (sendS j), 0)
  | .inr (.inr j) => (.dma (recvS j), 0)
theorem tokKey_injective : Function.Injective tokKey := by decide

theorem tokOf_injective : Function.Injective (tokOf : Dev nD × TK → GSem nD τ sig × ℕ × Fin 7) := by
  rintro ⟨c, j⟩ ⟨c', j'⟩ h
  have h1 : c = c' := by
    have := congrArg (fun x : GSem nD τ sig × ℕ × Fin 7 => x.1.1.1) h
    rcases j with i | j | j <;> rcases j' with i' | j' | j' <;> exact this
  subst h1
  have h2 : tokKey j = tokKey j' := by
    have := congrArg (fun x : GSem nD τ sig × ℕ × Fin 7 => (x.1.2, x.2.2)) h
    rcases j with i | j | j <;> rcases j' with i' | j' | j' <;> exact this
  have : j = j' := tokKey_injective h2
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 7 => dutyTok ER (barCell c) 0 i)
    ∗ (bigSep Finset.univ fun j : Fin 7 => dutyTok ER (sendCell c j) 0 (0 : Fin 7))
    ∗ bigSep Finset.univ fun j : Fin 7 => dutyTok ER (recvCell c j) 0 (0 : Fin 7))

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

theorem toks_eq (c : Dev nD) :
    (bigSep Finset.univ fun t : TK => (dutyTok ER (tokOf (c, t)).1 (tokOf (c, t)).2.1 (tokOf (c, t)).2.2 : sProp 𝕄)) = toks c := by
  unfold toks
  rw [bigSep_univ_sum, bigSep_univ_sum]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end Cert.KernelIdeal.Hand

end
-- ==== Proof.KernelIdeal.Credit.lean ====
/-
  The launch credit: summed over the eight devices, the barrier cell of a device is owed seven units
  (one by each other device) and its receive cell of slot j the credit of one copy (by the device
  c - j - 1).
-/
import proofs.«900369_g7700000000000370_dist_matmul_mk_i_outk_m1536_n1536_k768_v7x_i8_bf16_1_alg».proof.Proof.KernelIdeal.Owed

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Which cell is which -/

theorem bar_eq_iff {a b : Dev nD} : Iff (barCell a = barCell b) (a = b) :=
  ⟨fun h => Fin.ext (congrArg (fun g : GSem nD τ sig => g.1.1.val) h), fun h => h ▸ rfl⟩
theorem recvS_injective : Function.Injective (recvS : Fin 7 → DmaSem sig) := by decide
theorem recv_eq_iff {a b : Dev nD} {j k : Fin 7} : Iff (recvCell a j = recvCell b k) (a = b ∧ j = k) :=
  ⟨fun h => ⟨Fin.ext (congrArg (fun g : GSem nD τ sig => g.1.1.val) h),
      recvS_injective (SemLoc.dma.inj (congrArg Prod.snd h))⟩, fun h => h.1 ▸ h.2 ▸ rfl⟩
theorem recv_ne_bar (a b : Dev nD) (j : Fin 7) : recvCell a j ≠ barCell b := fun h => by
  have := congrArg Prod.snd h; cases this
theorem bar_ne_recv (a b : Dev nD) (j : Fin 7) : barCell a ≠ recvCell b j := fun h => recv_ne_bar b a j h.symm

theorem tgt_eq_iff (d c : Dev nD) (i : Fin 7) : Iff (tgt d i = c) (d = src c i) :=
  ⟨fun h => by rw [← h, src_tgt], fun h => by rw [h, tgt_src]⟩

/-! ## One payment at one cell -/

theorem Rt_recv (d c : Dev nD) (k j : Fin 7) : Rt d k (recvCell c j) () = if k = j ∧ d = src c j then N else 0 := by
  unfold Rt; rw [tallyAt_apply]
  by_cases h : k = j ∧ d = src c j
  · obtain ⟨rfl, rfl⟩ := h
    rw [if_pos ⟨by rw [tgt_src], rfl⟩, if_pos ⟨rfl, rfl⟩]
  · rw [if_neg h, if_neg]
    rintro ⟨h1, -⟩
    obtain ⟨h2, h3⟩ := recv_eq_iff.mp h1
    exact h ⟨h3.symm, by rw [h2, ← h3, src_tgt]⟩
theorem Rt_bar (d c : Dev nD) (k : Fin 7) : Rt d k (barCell c) () = 0 := by
  unfold Rt; rw [tallyAt_ne_cell (bar_ne_recv c (tgt d k) k) () N]; rfl
theorem Bt_bar (d c : Dev nD) (i : Fin 7) : Bt d i (barCell c) () = if d = src c i then 1 else 0 := by
  unfold Bt; rw [tallyAt_apply]
  by_cases h : d = src c i
  · subst h; rw [if_pos ⟨by rw [tgt_src], rfl⟩, if_pos rfl]
  · rw [if_neg h, if_neg]
    rintro ⟨h1, -⟩
    exact h ((tgt_eq_iff d c i).mp (bar_eq_iff.mp h1).symm)
theorem Bt_recv (d c : Dev nD) (i j : Fin 7) : Bt d i (recvCell c j) () = 0 := by
  unfold Bt; rw [tallyAt_ne_cell (recv_ne_bar c (tgt d i) j) () 1]; rfl

/-! ## What a device owes one cell -/

theorem O₀_apply (d : Dev nD) (g : GSem nD τ sig) (u : Unit) :
    O₀ d g u = (∑ k : Fin 7, Rt d k g u) + ∑ i : Fin 7, Bt d i g u := by
  have e : O₀ d = 0 + Rt d 0 + Rt d 1 + Rt d 2 + Rt d 3 + Rt d 4 + Rt d 5 + Rt d 6
      + Bt d 6 + Bt d 5 + Bt d 4 + Bt d 3 + Bt d 2 + Bt d 1 + Bt d 0 := rfl
  rw [e]
  simp only [Pi.add_apply, Finsupp.add_apply, Pi.zero_apply, Finsupp.zero_apply, Fin.sum_univ_seven]
  omega

/-- Over the eight devices, the barrier cell of device `c` is owed seven units; -/
theorem owed_bar_sum (c : Dev nD) : ∑ d : Dev nD, O₀ d (barCell c) () = 7 := by
  simp only [O₀_apply, Rt_bar, Bt_bar, Finset.sum_const_zero, Nat.zero_add]
  rw [Finset.sum_comm]
  simp only [Finset.sum_ite_eq', Finset.mem_univ, if_true, Finset.sum_const, Finset.card_univ, Fintype.card_fin, smul_eq_mul]

/-- its receive cell of slot `j` the credit of one copy. -/
theorem owed_recv_sum (c : Dev nD) (j : Fin 7) : ∑ d : Dev nD, O₀ d (recvCell c j) () = N := by
  simp only [O₀_apply, Rt_recv, Bt_recv, Finset.sum_const_zero, Nat.add_zero]
  rw [Finset.sum_comm]
  rw [Finset.sum_eq_single j (fun k _ hk => Finset.sum_eq_zero fun d _ => if_neg fun h => hk h.1) (fun h => absurd (Finset.mem_univ j) h)]
  simp only [true_and, Finset.sum_ite_eq', Finset.mem_univ, if_true]

end Cert.KernelIdeal.Hand

end
-- ==== Proof.KernelIdeal.Glob.lean ====
/-
  The global step of the launch: from every device's semaphores at zero and the round states, every
  cell's invariant under some name, and each device's ghost state; then the launch credit, the
  side conditions of the launch theorem, and the run of @main.
-/
import proofs.«900369_g7700000000000370_dist_matmul_mk_i_outk_m1536_n1536_k768_v7x_i8_bf16_1_alg».proof.Proof.KernelIdeal.Fund
import proofs.«900369_g7700000000000370_dist_matmul_mk_i_outk_m1536_n1536_k768_v7x_i8_bf16_1_alg».proof.Proof.KernelIdeal.Credit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over a device's fifteen cells, by kind. -/
theorem bigSep_CK (Φ : CK → sProp 𝕄) :
    bigSep Finset.univ Φ = iprop(Φ (.inl ()) ∗ (bigSep Finset.univ fun j : Fin 7 => Φ (.inr (.inl j))) ∗ bigSep Finset.univ fun j : Fin 7 => Φ (.inr (.inr j))) := by
  rw [bigSep_univ_sum, bigSep_univ_sum, bigSep_univ_of_subsingleton ()]; rfl

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0; rw [bigSep_univ_sum]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H; iexists K; iexact H

/-- A family over (device, slot) may be read at the device each slot's payment comes from. -/
theorem around (Ψ : Dev nD → Fin 7 → sProp 𝕄) :
    (bigSep Finset.univ fun c : Dev nD => bigSep Finset.univ fun i : Fin 7 => Ψ c i)
      = bigSep Finset.univ fun c : Dev nD => bigSep Finset.univ fun i : Fin 7 => Ψ (tgt c i) i :=
  (bigSep_univ_comm (fun (c : Dev nD) (i : Fin 7) => Ψ c i)).trans
    ((bigSep_congr fun i _ => bigSep_univ_equiv (ring i) (fun c : Dev nD => Ψ c i)).trans
      (bigSep_univ_comm (fun (i : Fin 7) (c : Dev nD) => Ψ (tgt c i) i)))

/-- The tokens dealt to the payers: duty `i` of a barrier cell and the duty of receive cell `j` go to the device
    that many (plus one) places before the cell's. -/
theorem toks_around : (bigSep Finset.univ fun c : Dev nD => (toks c : sProp 𝕄)) ⊢ bigSep Finset.univ fun c : Dev nD => payToks c := by
  unfold toks payToks
  refine Entails.of_eq ?_
  rw [bigSep_sep', bigSep_sep', bigSep_sep', bigSep_sep',
    around (fun c i => (dutyTok ER (barCell c) 0 i : sProp 𝕄)), around (fun c j => (dutyTok ER (recvCell c j) 0 (0 : Fin 7) : sProp 𝕄))]

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(positions c ∗ payToks c) from Entails.of_eq (by unfold positions; rw [bigSep_CK])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand

end
-- ==== Proof.KernelIdeal.Run.lean ====
/-
  The launch credit dealt to a device, the side conditions of the launch theorem, and the run of @main:
  every weakly fair execution of the eight kernels terminates, the argument arrays unchanged and each
  device's result array at the sum of the eight partial products of its rows.
-/
import proofs.«900369_g7700000000000370_dist_matmul_mk_i_outk_m1536_n1536_k768_v7x_i8_bf16_1_alg».proof.Proof.KernelIdeal.Glob

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The launch credit -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_bar_sum]

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, owed_recv_sum]

/-- The receive semaphores among a device's cells. -/
def recvEmb : Fin 7 ↪ SemLoc sig := ⟨fun j => .dma (recvS j), fun a b h => recvS_injective (SemLoc.dma.inj h)⟩

theorem creds (c : Dev nD) :
    (Pipeline.launchCred O₀ c : sProp 𝕄)
      ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  refine (bigSep_subset (t := Finset.univ.map recvEmb) (fun sm h => ?_)).trans
    (Entails.of_eq ((bigSep_map recvEmb).trans (bigSep_congr fun j _ => by rw [← launch_recv]; rfl)))
  obtain ⟨j, -, rfl⟩ := Finset.mem_map.mp h
  exact Finset.mem_erase.mpr ⟨fun h' => (by change SemLoc.dma (recvS j) = SemLoc.reg barS at h'; cases h'), Finset.mem_univ _⟩

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratches scr
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    have hq : ¬ 10 ≤ (((cfgs 0).win w).sem s).val := by fin_cases w <;> fin_cases s <;> decide
    rcases t with ⟨_ | _, ht⟩
    · exact mayWait_stage c _ hq 14
    · exact mayWait_stage c _ hq 0

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The two argument arrays after the run hold what they held; -/
theorem finalA_a (c : Dev nD) : finalA m ρ c (0 : Fin 3) = m ((c : Thread nD τ).loc main_arg0) :=
  (dats (F := F) m ρ 0 c).arrAt_in (0 : Fin 3) rfl _
theorem finalA_b (c : Dev nD) : finalA m ρ c (1 : Fin 3) = m ((c : Thread nD τ).loc main_arg1) :=
  (dats (F := F) m ρ 0 c).arrAt_in (1 : Fin 3) rfl _

/-- and the result array holds the device's result block: the region's one write-back writes the whole array. -/
theorem finalA_out (c : Dev nD) : finalA m ρ c (2 : Fin 3) = outAt m c := by
  unfold finalA
  have h := (dats (F := F) m ρ 0 c).arrAt_succ (2 : Fin 3) t0_0
  rw [if_pos (flush0_2 t0_0)] at h
  refine (show (dats m ρ 0 c).arrAt 2 cfg0.N = (dats m ρ 0 c).arrAt 2 (t0_0.val + 1) from rfl).trans (h.trans ?_)
  have hr := View.read_write_univ (v := ((cfg0.win 2).blk t0_0).view) (Val := Elt F) ((dats m ρ 0 c).arrAt 2 t0_0.val) ((dats m ρ 0 c).flushed 2 t0_0)
  have hoff : (fun a => (cfg0.win 2).index t0_0 a * (cfg0.win 2).size a) = fun _ => 0 := funext fun a => Nat.zero_mul _
  exact ((Memref.read_access_unit_zero (Elt F) main_v1 hoff _ _).symm.trans hr)

/-- The run with every array named: the arguments unchanged, the result the device's result block. -/
theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c (2 : Fin 3)).trans (finalA_out m ρ c), (h c (0 : Fin 3)).trans (finalA_a m ρ c), (h c (1 : Fin 3)).trans (finalA_b m ρ c)⟩)
    (run_main m ρ)

end Cert.KernelIdeal.Hand

end
-- ==== Proof.RefBlock.lean ====
/- The reference side of the certificate, as pure mathematics at the ideal instance (floats are extended reals).
   The whole product A · B with A : [1536, 6144], B : [6144, 1536] is cut the way the devices hold it: A along its
   columns into 8 blocks of 768 columns, B along its rows into 8 blocks of 768 rows, the result along its rows into 8
   blocks of 192 rows. Splitting the contraction index k = 768 · d + k' (d < 8, k' < 768) turns the one sum over
   6144 terms into the sum over the 8 blocks of the 768-term block products. -/
import proofs.«900369_g7700000000000370_dist_matmul_mk_i_outk_m1536_n1536_k768_v7x_i8_bf16_1_alg».proof.Proof.Gen.ReferenceIdeal.Read
import Idealize.ShloMosaic.Lib.Layout
import Idealize.ShloMosaic.Lib.ValueIdx

noncomputable section

open scoped BigOperators

namespace Cert.Hand

open Idealize.ShloMosaic Idealize.ShloMosaic.ValueIdx
open Cert.ReferenceIdeal Cert.ReferenceIdeal.Gen Cert.ReferenceIdeal.Read

/-- A device's block of A: all 1536 rows, 768 of the 6144 columns. -/
abbrev SA : Shape := ⟨2, ![1536, 768]⟩
/-- A device's block of B: 768 of the 6144 rows, all 1536 columns. -/
abbrev SB : Shape := ⟨2, ![768, 1536]⟩
/-- A device's block of the result: 192 of the 1536 rows, all 1536 columns. -/
abbrev SO : Shape := ⟨2, ![192, 1536]⟩

/-- Row `192 * c + (i 0)`, column `k` of a device's block of A. -/
def rowIx (c : Fin 8) (i : SO.Idx) (k : Fin 768) : SA.Idx :=
  ix2 (⟨192 * c.val + (i 0).val, by have := idx2_lt0 i; have := c.isLt; omega⟩ : Fin 1536)
    (⟨k.val, k.isLt⟩ : Fin 768)

/-- Row `k`, column `(i 1)` of a device's block of B. -/
def colIx (k : Fin 768) (i : SO.Idx) : SB.Idx :=
  ix2 (⟨k.val, k.isLt⟩ : Fin 768) (⟨(i 1).val, idx2_lt1 i⟩ : Fin 1536)

/-- The sum over devices of the block products, rows of device `c`. -/
def blockSum (A : Fin 8 → SA.Idx → EReal) (B : Fin 8 → SB.Idx → EReal) (c : Fin 8) : SO.Idx → EReal :=
  fun i => ∑ d : Fin 8, ∑ k : Fin 768, A d (rowIx c i k) * B d (colIx k i)

/-- The contraction index `k < 6144` is `768 * d + k'` for exactly one block `d < 8` and one offset `k' < 768`. -/
def splitK : Fin 8 × Fin 768 ≃ Fin 6144 where
  toFun p := ⟨768 * p.1.val + p.2.val, by have := p.1.isLt; have := p.2.isLt; omega⟩
  invFun k := (⟨k.val / 768, by have := k.isLt; omega⟩, ⟨k.val % 768, by omega⟩)
  left_inv p := by
    obtain ⟨d, k⟩ := p
    have hd := d.isLt
    have hk := k.isLt
    refine Prod.ext (Fin.ext ?_) (Fin.ext ?_)
    · show (768 * d.val + k.val) / 768 = d.val
      omega
    · show (768 * d.val + k.val) % 768 = k.val
      omega
  right_inv k := by
    refine Fin.ext ?_
    show 768 * (k.val / 768) + k.val % 768 = k.val
    omega

theorem splitK_val (d : Fin 8) (k : Fin 768) : (splitK (d, k)).val = 768 * d.val + k.val := rfl

/-- Row `i 0` of block `c` of the result and contraction index `768 * d + k`: in A, that is block `d`'s entry at
    row `192 * c + i 0`, column `k`. -/
theorem lidx_split (hO : Layout.Tiles SO S1536x1536 0 8) (hA : Layout.Tiles SA S1536x6144 1 8)
    (c d : Fin 8) (i : SO.Idx) (k : Fin 768) :
    lidx_main_v0 (hO.idx c i) (splitK (d, k)) = hA.idx d (rowIx c i k) := by
  funext a
  refine Fin.ext ?_
  match a with
  | ⟨0, _⟩ =>
    show (hO.idx c i 0).val = (hA.idx d (rowIx c i k) 0).val
    have h1 : (hO.idx c i 0).val = c.val * 192 + (i 0).val := (Layout.idx_rows_val hO c i).1
    have h2 : (hA.idx d (rowIx c i k) 0).val = 192 * c.val + (i 0).val :=
      (Layout.idx_cols_val hA d (rowIx c i k)).1
    omega
  | ⟨1, _⟩ =>
    show (splitK (d, k)).val = (hA.idx d (rowIx c i k) 1).val
    have h2 : (hA.idx d (rowIx c i k) 1).val = d.val * 768 + k.val :=
      (Layout.idx_cols_val hA d (rowIx c i k)).2
    rw [splitK_val, h2]
    omega

/-- Column `i 1` of the result and contraction index `768 * d + k`: in B, that is block `d`'s entry at row `k`,
    column `i 1`. -/
theorem ridx_split (hO : Layout.Tiles SO S1536x1536 0 8) (hB : Layout.Tiles SB S6144x1536 0 8)
    (c d : Fin 8) (i : SO.Idx) (k : Fin 768) :
    ridx_main_v0 (hO.idx c i) (splitK (d, k)) = hB.idx d (colIx k i) := by
  funext a
  refine Fin.ext ?_
  match a with
  | ⟨0, _⟩ =>
    show (splitK (d, k)).val = (hB.idx d (colIx k i) 0).val
    have h2 : (hB.idx d (colIx k i) 0).val = d.val * 768 + k.val :=
      (Layout.idx_rows_val hB d (colIx k i)).1
    rw [splitK_val, h2]
    omega
  | ⟨1, _⟩ =>
    show (hO.idx c i 1).val = (hB.idx d (colIx k i) 1).val
    have h1 : (hO.idx c i 1).val = (i 1).val := (Layout.idx_rows_val hO c i).2
    have h2 : (hB.idx d (colIx k i) 1).val = (i 1).val := (Layout.idx_rows_val hB d (colIx k i)).2
    omega

/-- Rows `[192 c, 192 c + 192)` of the whole product are the sum over the 8 blocks of the contraction axis of the
    block products. -/
theorem ref_block (X : (⟨Cert.ReferenceIdeal.S1536x6144, .f32⟩ : BufTy).Contents (Elt Ideal))
    (Y : (⟨Cert.ReferenceIdeal.S6144x1536, .f32⟩ : BufTy).Contents (Elt Ideal)) (c : Fin 8) :
    Layout.block ⟨2, ![192, 1536]⟩ ⟨2, ![1536, 1536]⟩ 0 8 c
        (Host.dotGeneral (F := Ideal) (φ₁ := .f32) (φ₂ := .f32) Cert.ReferenceIdeal.dot_S1536x6144_S6144x1536_S1536x1536_1_0_0_1_n_n none X Y)
      = blockSum (fun d => Layout.block ⟨2, ![1536, 768]⟩ ⟨2, ![1536, 6144]⟩ 1 8 d X)
          (fun d => Layout.block ⟨2, ![768, 1536]⟩ ⟨2, ![6144, 1536]⟩ 0 8 d Y) c := by
  funext i
  rw [val_main_v0_eq, Layout.block_apply, val_main_v0_apply]
  simp only [blockSum, Layout.block_apply]
  rw [← Equiv.sum_comp splitK, Fintype.sum_prod_type]
  refine Finset.sum_congr rfl fun d _ => Finset.sum_congr rfl fun k _ => ?_
  beta_reduce
  rw [lidx_split, ridx_split]

end Cert.Hand

end
-- ==== Proof.KernelValue.lean ====
/-
  The value of the kernel's result block at the ideal instance (floats are extended reals, every operation exact).

  Device c's result block is its own product plus the seven products the other devices made for it. The own
  product is rows [192 c, 192 c + 192) of c's block of A times c's block of B; the product landed in slot j was
  made by device d = c - j - 1 (mod 8) from the same rows of ITS block of A and ITS block of B. The eight
  devices c, c + 1, …, c + 7 (mod 8) are all the devices, so the eight summands are the sum over the devices of
  the block products: blockSum.
-/
import proofs.«900369_g7700000000000370_dist_matmul_mk_i_outk_m1536_n1536_k768_v7x_i8_bf16_1_alg».proof.Proof.KernelIdeal.Contents
import proofs.«900369_g7700000000000370_dist_matmul_mk_i_outk_m1536_n1536_k768_v7x_i8_bf16_1_alg».proof.Proof.RefBlock
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Cert.Hand (SA SB SO rowIx colIx blockSum)

/-! ## The ring of devices: c, c + 1, …, c + 7 modulo 8 are all eight -/

/-- The device whose product lands in slot `j` of device `c`, for j = 6, 5, …, 0, is c + 1, c + 2, …, c + 7 modulo 8. -/
theorem src_eq_add : ∀ c : Fin 8, src c 6 = c + 1 ∧ src c 5 = c + 2 ∧ src c 4 = c + 3 ∧ src c 3 = c + 4 ∧ src c 2 = c + 5
    ∧ src c 1 = c + 6 ∧ src c 0 = c + 7 := by decide

/-- A sum over the eight devices, started at device `c` and taken in the order of the landing slots 6, 5, …, 0:
    translation by `c` permutes the devices. -/
theorem sum_ring {M : Type*} [AddCommMonoid M] (g : Fin 8 → M) (c : Fin 8) :
    g c + g (src c 6) + g (src c 5) + g (src c 4) + g (src c 3) + g (src c 2) + g (src c 1) + g (src c 0)
      = ∑ d : Fin 8, g d := by
  obtain ⟨e6, e5, e4, e3, e2, e1, e0⟩ := src_eq_add c
  rw [e6, e5, e4, e3, e2, e1, e0, ← Equiv.sum_comp (Equiv.addLeft c) g, Fin.sum_univ_eight]
  simp only [Equiv.coe_addLeft, add_zero]

/-! ## The staged blocks and their narrow copies are the argument arrays -/

variable (m : (ℓ : Loc nD τ sig) → Buf (Elt Ideal) ℓ)

/-- Device `d`'s blocks of the two arguments, as arrays of extended reals. -/
abbrev Ablk (d : Dev nD) : SA.Idx → EReal := m ((d.tc : Thread nD τ).loc main_arg0)
abbrev Bblk (d : Dev nD) : SB.Idx → EReal := m ((d.tc : Thread nD τ).loc main_arg1)

/-- The staging buffer of the first argument holds the whole array: the window is the whole array at block index 0. -/
theorem aStg_eq (c : Dev nD) : aStg (F := Ideal) m c = m ((c.tc : Thread nD τ).loc main_arg0) := by
  funext x
  show m ((c.tc : Thread nD τ).loc main_arg0) ((win0_0.blk t0_0).view.emb x) = m ((c.tc : Thread nD τ).loc main_arg0) x
  refine congrArg _ (funext fun a => Fin.ext ?_)
  show 0 * _ + 1 * (x a).val = (x a).val
  omega

/-- The staging buffer of the second argument holds the whole array. -/
theorem bStg_eq (c : Dev nD) : bStg (F := Ideal) m c = m ((c.tc : Thread nD τ).loc main_arg1) := by
  funext x
  show m ((c.tc : Thread nD τ).loc main_arg1) ((win0_1.blk t0_0).view.emb x) = m ((c.tc : Thread nD τ).loc main_arg1) x
  refine congrArg _ (funext fun a => Fin.ext ?_)
  show 0 * _ + 1 * (x a).val = (x a).val
  omega

/-- Rounding to the narrow format changes nothing on the extended reals, and a cast to the same shape is the identity. -/
theorem pay1_id (v : Vec Ideal S1536x768 .f32) : (k0_pay1 (F := Ideal) v : S1536x768.Idx → EReal) = v := by
  show shapeCast S1536x768 (truncf (F := Ideal) .bf16 (shapeCast S1536x768 v shapeCasts_S1536x768_S1536x768) bitsLt_bf16_f32) shapeCasts_S1536x768_S1536x768 = v
  rw [shapeCast_self, shapeCast_self]
  rfl

theorem pay2_id (v : Vec Ideal S768x1536 .f32) : (k0_pay2 (F := Ideal) v : S768x1536.Idx → EReal) = v := by
  show shapeCast S768x1536 (truncf (F := Ideal) .bf16 (shapeCast S768x1536 v shapeCasts_S768x1536_S768x1536) bitsLt_bf16_f32) shapeCasts_S768x1536_S768x1536 = v
  rw [shapeCast_self, shapeCast_self]
  rfl

/-- The narrow copy of the A block is the A block. -/
theorem abf_eq (c : Dev nD) : (abf (F := Ideal) m c : S1536x768.Idx → EReal) = m ((c.tc : Thread nD τ).loc main_arg0) :=
  (pay1_id _).trans (aStg_eq m c)

/-- The narrow copy of the B block is the B block. -/
theorem bbf_eq (c : Dev nD) : (bbf (F := Ideal) m c : S768x1536.Idx → EReal) = m ((c.tc : Thread nD τ).loc main_arg1) :=
  (pay2_id _).trans (bStg_eq m c)

/-! ## A load of 192 rows -/

/-- A load of 192 rows from row `o` of a [1536, 768] buffer reads, at (r, k), the buffer at (o + r, k). -/
theorem rows_apply (f : S1536x768.Idx → EReal) (off : Fin 2 → Nat) (o : Nat) (hoff : off = ![o, 0])
    (inb : ∀ a, off a + S192x768.size a ≤ S1536x768.size a) (r : Fin 192) (k : Fin 768) (h : o + r.val < 1536) :
    (Memref.whole cc0_scratch0 : Memref sig .tc .vmem S1536x768 .bf16).view.readAt (Elt Ideal)
        (Rect.unit (s := S1536x768) off S192x768.size inb).toLoadRect f (ix2 r k)
      = f (ix2 (⟨o + r.val, h⟩ : Fin 1536) k) := by
  subst hoff
  show f _ = f _
  refine congrArg f (funext fun a => Fin.ext ?_)
  match a with
  | ⟨0, _⟩ =>
    show o + 1 * r.val = o + r.val
    omega
  | ⟨1, _⟩ =>
    show 0 + 1 * k.val = k.val
    omega

/-- The rows device `d` loads for slot `j` are rows [192 t, 192 t + 192) of its block of A, `t = d + j + 1` modulo 8;
    read at (r, k) for the device `c = t`, that is the block at row `192 c + r`, column `k`. -/
theorem rowsFor_apply (d : Dev nD) (j : Fin 7) (c : Dev nD) (hc : tgt d j = c) (r : Fin 192) (k : Fin 768) (n : Fin 1536) :
    rowsFor (F := Ideal) m d j (ix2 r k) = Ablk m d (rowIx c (ix2 r n) k) := by
  subst hc
  have h8 : (tgt d j).val < 8 := (tgt d j).isLt
  have hr : r.val < 192 := r.isLt
  unfold rowsFor
  refine (rows_apply (abf (F := Ideal) m d) _ (192 * (tgt d j).val) (k0_off1_eq d j) _ r k (by omega)).trans ?_
  rw [abf_eq]
  rfl

/-- The device's own rows, read at (r, k): its block of A at row `192 c + r`, column `k`. -/
theorem rowsOwn_apply (c : Dev nD) (r : Fin 192) (k : Fin 768) (n : Fin 1536) :
    rowsOwn (F := Ideal) m c (ix2 r k) = Ablk m c (rowIx c (ix2 r n) k) := by
  have h8 : c.val < 8 := c.isLt
  have hr : r.val < 192 := r.isLt
  unfold rowsOwn
  refine (rows_apply (abf (F := Ideal) m c) _ (192 * c.val) (k0_off2_eq c) _ r k (by omega)).trans ?_
  rw [abf_eq]
  rfl

/-- The B block at (k, n). -/
theorem bbf_apply (c : Dev nD) (r : Fin 192) (k : Fin 768) (n : Fin 1536) :
    bbf (F := Ideal) m c (ix2 k n) = Bblk m c (colIx k (ix2 r n)) := by
  rw [bbf_eq]
  rfl

/-! ## The matrix product at an index -/

theorem lhs_0 (i : S192x1536.Idx) (q : dot_S192x768_S768x1536_S192x1536_1_0_0_1_n_n.contr.Idx) :
    (dot_S192x768_S768x1536_S192x1536_1_0_0_1_n_n.lhsIdx i q 0).val = (i 0).val := by
  unfold DotDims.lhsIdx
  rw [dif_neg (show ¬(0 : Fin S192x768.rank) ∈ dot_S192x768_S768x1536_S192x1536_1_0_0_1_n_n.lhsBatch by decide), dif_pos (show (0 : Fin S192x768.rank) ∈ dot_S192x768_S768x1536_S192x1536_1_0_0_1_n_n.lhsNonContracting by decide)]
  rfl
theorem lhs_1 (i : S192x1536.Idx) (q : dot_S192x768_S768x1536_S192x1536_1_0_0_1_n_n.contr.Idx) :
    (dot_S192x768_S768x1536_S192x1536_1_0_0_1_n_n.lhsIdx i q 1).val = (q ⟨0, by decide⟩).val :=
  dot_S192x768_S768x1536_S192x1536_1_0_0_1_n_n.lhsIdx_val_of_single rfl i q
theorem rhs_0 (i : S192x1536.Idx) (q : dot_S192x768_S768x1536_S192x1536_1_0_0_1_n_n.contr.Idx) :
    (dot_S192x768_S768x1536_S192x1536_1_0_0_1_n_n.rhsIdx i q 0).val = (q ⟨0, by decide⟩).val :=
  dot_S192x768_S768x1536_S192x1536_1_0_0_1_n_n.rhsIdx_val_of_single rfl i q
theorem rhs_1 (i : S192x1536.Idx) (q : dot_S192x768_S768x1536_S192x1536_1_0_0_1_n_n.contr.Idx) :
    (dot_S192x768_S768x1536_S192x1536_1_0_0_1_n_n.rhsIdx i q 1).val = (i 1).val := by
  unfold DotDims.rhsIdx
  rw [dif_neg (show ¬(1 : Fin S768x1536.rank) ∈ dot_S192x768_S768x1536_S192x1536_1_0_0_1_n_n.rhsBatch by decide), dif_pos (show (1 : Fin S768x1536.rank) ∈ dot_S192x768_S768x1536_S192x1536_1_0_0_1_n_n.rhsNonContracting by decide)]
  rfl

/-- The matrix product into a zero accumulator, at (r, n): the sum over the 768 contraction coordinates. -/
theorem mm_apply (x : FVec Ideal S192x768 .bf16) (y : FVec Ideal S768x1536 .bf16) (r : Fin 192) (n : Fin 1536) :
    matmul (F := Ideal) dot_S192x768_S768x1536_S192x1536_1_0_0_1_n_n none x y (constant (F := Ideal) S192x1536 .f32 0x00000000#32) (ix2 r n)
      = ∑ k : Fin 768, x (ix2 r k) * y (ix2 k n) := by
  simp only [matmul]
  rw [Ideal.matmul_constant_zero_apply, ← Equiv.sum_comp (ValueIdx.contrEquiv1 dot_S192x768_S768x1536_S192x1536_1_0_0_1_n_n 768 rfl rfl).symm]
  refine Finset.sum_congr rfl fun k _ => ?_
  have hk := ValueIdx.contrEquiv1_symm_val dot_S192x768_S768x1536_S192x1536_1_0_0_1_n_n 768 rfl rfl k
  have el : dot_S192x768_S768x1536_S192x1536_1_0_0_1_n_n.lhsIdx (ix2 r n) ((ValueIdx.contrEquiv1 dot_S192x768_S768x1536_S192x1536_1_0_0_1_n_n 768 rfl rfl).symm k) = ix2 r k := funext fun a => Fin.ext (by
    match a with
    | ⟨0, _⟩ => exact lhs_0 _ _
    | ⟨1, _⟩ => exact (lhs_1 _ _).trans hk)
  have er : dot_S192x768_S768x1536_S192x1536_1_0_0_1_n_n.rhsIdx (ix2 r n) ((ValueIdx.contrEquiv1 dot_S192x768_S768x1536_S192x1536_1_0_0_1_n_n 768 rfl rfl).symm k) = ix2 k n := funext fun a => Fin.ext (by
    match a with
    | ⟨0, _⟩ => exact (rhs_0 _ _).trans hk
    | ⟨1, _⟩ => exact rhs_1 _ _)
  rw [el, er]

/-! ## The payloads at an index -/

/-- A product stored into a send slot, at (0, r, n): the sum over the contraction index. -/
theorem pay5_apply (x : Vec Ideal S192x768 .bf16) (y : Vec Ideal S768x1536 .bf16) (u : Fin 1) (r : Fin 192) (n : Fin 1536) :
    k0_pay5 (F := Ideal) x y (ix3 u r n) = ∑ k : Fin 768, x (ix2 r k) * y (ix2 k n) := by
  show shapeCast S1x192x1536 (truncf (F := Ideal) .bf16 (matmul (F := Ideal) dot_S192x768_S768x1536_S192x1536_1_0_0_1_n_n none x y (constant (F := Ideal) S192x1536 .f32 0x00000000#32)) bitsLt_bf16_f32) shapeCasts_S192x1536_S1x192x1536 (ix3 u r n) = _
  refine (shapeCast_ab_1ab_apply _ _ u r n).trans ?_
  exact mm_apply x y r n

/-- A landed slot widened and viewed as [192, 1536], at (r, n): the slot at (0, r, n). -/
theorem widen_apply (v : Vec Ideal S1x192x1536 .bf16) (r : Fin 192) (n : Fin 1536) :
    extf (F := Ideal) .f32 (shapeCast S192x1536 v shapeCasts_S1x192x1536_S192x1536) bitsLt_bf16_f32 (ix2 r n) = v (ix3 (0 : Fin 1) r n) :=
  shapeCast_1ab_ab_apply v shapeCasts_S1x192x1536_S192x1536 r n

/-- The own product plus the slots 6 and 5. -/
theorem pay12_apply (x : Vec Ideal S192x768 .bf16) (y : Vec Ideal S768x1536 .bf16) (l6 l5 : Vec Ideal S1x192x1536 .bf16)
    (r : Fin 192) (n : Fin 1536) :
    k0_pay12 (F := Ideal) x y l6 l5 (ix2 r n)
      = (∑ k : Fin 768, x (ix2 r k) * y (ix2 k n)) + l6 (ix3 (0 : Fin 1) r n) + l5 (ix3 (0 : Fin 1) r n) := by
  show matmul (F := Ideal) dot_S192x768_S768x1536_S192x1536_1_0_0_1_n_n none x y (constant (F := Ideal) S192x1536 .f32 0x00000000#32) (ix2 r n)
      + extf (F := Ideal) .f32 (shapeCast S192x1536 l6 shapeCasts_S1x192x1536_S192x1536) bitsLt_bf16_f32 (ix2 r n)
      + extf (F := Ideal) .f32 (shapeCast S192x1536 l5 shapeCasts_S1x192x1536_S192x1536) bitsLt_bf16_f32 (ix2 r n) = _
  rw [mm_apply, widen_apply, widen_apply]

/-- Two more slots added. -/
theorem pay13_apply (a : FVec Ideal S192x1536 .f32) (l4 l3 : Vec Ideal S1x192x1536 .bf16) (r : Fin 192) (n : Fin 1536) :
    k0_pay13 (F := Ideal) a l4 l3 (ix2 r n) = a (ix2 r n) + l4 (ix3 (0 : Fin 1) r n) + l3 (ix3 (0 : Fin 1) r n) := by
  show a (ix2 r n)
      + extf (F := Ideal) .f32 (shapeCast S192x1536 l4 shapeCasts_S1x192x1536_S192x1536) bitsLt_bf16_f32 (ix2 r n)
      + extf (F := Ideal) .f32 (shapeCast S192x1536 l3 shapeCasts_S1x192x1536_S192x1536) bitsLt_bf16_f32 (ix2 r n) = _
  rw [widen_apply, widen_apply]

theorem pay14_apply (a : FVec Ideal S192x1536 .f32) (l2 l1 : Vec Ideal S1x192x1536 .bf16) (r : Fin 192) (n : Fin 1536) :
    k0_pay14 (F := Ideal) a l2 l1 (ix2 r n) = a (ix2 r n) + l2 (ix3 (0 : Fin 1) r n) + l1 (ix3 (0 : Fin 1) r n) := by
  show a (ix2 r n)
      + extf (F := Ideal) .f32 (shapeCast S192x1536 l2 shapeCasts_S1x192x1536_S192x1536) bitsLt_bf16_f32 (ix2 r n)
      + extf (F := Ideal) .f32 (shapeCast S192x1536 l1 shapeCasts_S1x192x1536_S192x1536) bitsLt_bf16_f32 (ix2 r n) = _
  rw [widen_apply, widen_apply]

/-- The last slot added. -/
theorem pay15_apply (a : FVec Ideal S192x1536 .f32) (l0 : Vec Ideal S1x192x1536 .bf16) (r : Fin 192) (n : Fin 1536) :
    k0_pay15 (F := Ideal) a l0 (ix2 r n) = a (ix2 r n) + l0 (ix3 (0 : Fin 1) r n) := by
  show a (ix2 r n)
      + extf (F := Ideal) .f32 (shapeCast S192x1536 l0 shapeCasts_S1x192x1536_S192x1536) bitsLt_bf16_f32 (ix2 r n) = _
  rw [widen_apply]

/-! ## The result block -/

/-- The block product of device `d` for the rows of device `c`, at an index of the result block. -/
def prodAt (d c : Dev nD) (i : SO.Idx) : EReal :=
  ∑ k : Fin 768, Ablk m d (rowIx c i k) * Bblk m d (colIx k i)

/-- What slot `j` of device `c`'s landing buffer holds, at (0, r, n): the block product of the device `c - j - 1`
    for the rows of `c`. -/
theorem landed_apply (c : Dev nD) (j : Fin 7) (r : Fin 192) (n : Fin 1536) :
    landed (F := Ideal) m c j (ix3 (0 : Fin 1) r n) = prodAt m (src c j) c (ix2 r n) := by
  unfold landed prodJ prodAt
  refine (pay5_apply _ _ 0 r n).trans (Finset.sum_congr rfl fun k _ => ?_)
  rw [rowsFor_apply m (src c j) j c (tgt_src c j) r k n, bbf_apply m (src c j) r k n]

/-- The own product at (r, n). -/
theorem own_apply (c : Dev nD) (r : Fin 192) (n : Fin 1536) :
    (∑ k : Fin 768, rowsOwn (F := Ideal) m c (ix2 r k) * bbf (F := Ideal) m c (ix2 k n)) = prodAt m c c (ix2 r n) := by
  unfold prodAt
  refine Finset.sum_congr rfl fun k _ => ?_
  rw [rowsOwn_apply m c r k n, bbf_apply m c r k n]

/-- THE KERNEL'S VALUE: device `c`'s result block is the sum over the eight devices of the block products of rows
    [192 c, 192 c + 192) of their blocks of A with their blocks of B. -/
theorem outAt_eq (c : Dev nD) :
    outAt (F := Ideal) m c
      = blockSum (fun d : Dev nD => m ((d.tc : Thread nD τ).loc main_arg0)) (fun d : Dev nD => m ((d.tc : Thread nD τ).loc main_arg1)) c := by
  funext i
  obtain ⟨r, n, rfl⟩ : ∃ (r : Fin 192) (n : Fin 1536), i = ix2 r n := ⟨i 0, i 1, eq_ix2 i⟩
  unfold outAt
  rw [pay15_apply, pay14_apply, pay13_apply, pay12_apply, own_apply,
    landed_apply m c 6, landed_apply m c 5, landed_apply m c 4, landed_apply m c 3, landed_apply m c 2, landed_apply m c 1,
    landed_apply m c 0]
  show _ = ∑ d : Fin 8, prodAt m d c (ix2 r n)
  exact sum_ring (fun d => prodAt m d c (ix2 r n)) c

end Cert.KernelIdeal.HandValue

end
-- ==== Proof.lean ====
/-
  A matrix product A · B, A of 1536 × 6144 and B of 6144 × 1536, on a mesh of eight devices, against one
  dot_general on one device.

  Device d holds columns [768 d, 768 d + 768) of A and rows [768 d, 768 d + 768) of B, and ends with rows
  [192 d, 192 d + 192) of the product. Every device multiplies, for each other device t, rows [192 t, 192 t + 192)
  of its block of A by its block of B and copies the partial product into a slot of t's landing buffer (after a
  handshake: each device signals the seven others and waits for their seven signals, so that the landing buffers
  exist when they are written); it adds its own partial product and the seven that land on it. So device c ends
  with the sum over the devices d of (rows of A_d) · B_d, which is the sum over all 6144 inner indices split into
  eight runs of 768: rows [192 c, 192 c + 192) of A · B. On the extended reals the order of the summands and the
  changes of float format do not matter, and no input need be finite.

  The frames of the two kernel programs are their runs (every weakly fair execution of the eight kernels
  terminates: a wait is only ever made when everything the waiting device still owes lies on a higher level)
  with the values dropped; the reference's frame is its run; nothing was rewritten between the kernel and its
  idealization.
-/
import proofs.«900369_g7700000000000370_dist_matmul_mk_i_outk_m1536_n1536_k768_v7x_i8_bf16_1_alg».proof.Defs
import proofs.«900369_g7700000000000370_dist_matmul_mk_i_outk_m1536_n1536_k768_v7x_i8_bf16_1_alg».proof.Proof.Gen.Kernel
import proofs.«900369_g7700000000000370_dist_matmul_mk_i_outk_m1536_n1536_k768_v7x_i8_bf16_1_alg».proof.Proof.Gen.Kernel.Skeleton
import proofs.«900369_g7700000000000370_dist_matmul_mk_i_outk_m1536_n1536_k768_v7x_i8_bf16_1_alg».proof.Proof.Gen.Kernel.Launch
import proofs.«900369_g7700000000000370_dist_matmul_mk_i_outk_m1536_n1536_k768_v7x_i8_bf16_1_alg».proof.Proof.Gen.Kernel.Points
import proofs.«900369_g7700000000000370_dist_matmul_mk_i_outk_m1536_n1536_k768_v7x_i8_bf16_1_alg».proof.Proof.Gen.Kernel.Frame
import proofs.«900369_g7700000000000370_dist_matmul_mk_i_outk_m1536_n1536_k768_v7x_i8_bf16_1_alg».proof.Proof.Gen.KernelIdeal
import proofs.«900369_g7700000000000370_dist_matmul_mk_i_outk_m1536_n1536_k768_v7x_i8_bf16_1_alg».proof.Proof.Gen.KernelIdeal.Skeleton
import proofs.«900369_g7700000000000370_dist_matmul_mk_i_outk_m1536_n1536_k768_v7x_i8_bf16_1_alg».proof.Proof.Gen.KernelIdeal.Launch
import proofs.«900369_g7700000000000370_dist_matmul_mk_i_outk_m1536_n1536_k768_v7x_i8_bf16_1_alg».proof.Proof.Gen.KernelIdeal.Points
import proofs.«900369_g7700000000000370_dist_matmul_mk_i_outk_m1536_n1536_k768_v7x_i8_bf16_1_alg».proof.Proof.Gen.KernelIdeal.Frame
import proofs.«900369_g7700000000000370_dist_matmul_mk_i_outk_m1536_n1536_k768_v7x_i8_bf16_1_alg».proof.Proof.Gen.ReferenceIdeal
import proofs.«900369_g7700000000000370_dist_matmul_mk_i_outk_m1536_n1536_k768_v7x_i8_bf16_1_alg».proof.Proof.Gen.ReferenceIdeal.Run
import proofs.«900369_g7700000000000370_dist_matmul_mk_i_outk_m1536_n1536_k768_v7x_i8_bf16_1_alg».proof.Proof.Gen.ReferenceIdeal.Read
import proofs.«900369_g7700000000000370_dist_matmul_mk_i_outk_m1536_n1536_k768_v7x_i8_bf16_1_alg».proof.Proof.Gen.Pre_finite_inputs_Kernel
import proofs.«900369_g7700000000000370_dist_matmul_mk_i_outk_m1536_n1536_k768_v7x_i8_bf16_1_alg».proof.Proof.Gen.Pre_finite_inputs_ReferenceIdeal
import proofs.«900369_g7700000000000370_dist_matmul_mk_i_outk_m1536_n1536_k768_v7x_i8_bf16_1_alg».proof.Proof.Kernel.Run
import proofs.«900369_g7700000000000370_dist_matmul_mk_i_outk_m1536_n1536_k768_v7x_i8_bf16_1_alg».proof.Proof.KernelIdeal.Run
import proofs.«900369_g7700000000000370_dist_matmul_mk_i_outk_m1536_n1536_k768_v7x_i8_bf16_1_alg».proof.Proof.RefBlock
import proofs.«900369_g7700000000000370_dist_matmul_mk_i_outk_m1536_n1536_k768_v7x_i8_bf16_1_alg».proof.Proof.KernelValue
import Idealize.ShloMosaic.Adequacy
import Idealize.ShloMosaic.Init

noncomputable section

namespace Cert.Proof

open Idealize.ShloMosaic Idealize.SL.Sem

/-- The word-level kernel's frame: its run, the values dropped. -/
theorem frame_p : Cert.frame_Kernel := fun m ρ _ =>
  (θ_run (Cert.Kernel.defs (F := Bits)) _ _).mono (fun _ h c => ⟨(h c).2.1, (h c).2.2⟩) (Cert.Kernel.Hand.run_named (F := Bits) m ρ)

/-- The idealized kernel's frame likewise. -/
theorem frame_pi : Cert.frame_KernelIdeal := fun m ρ _ =>
  (θ_run (Cert.KernelIdeal.defs (F := Ideal)) _ _).mono (fun _ h c => ⟨(h c).2.1, (h c).2.2⟩) (Cert.KernelIdeal.Hand.run_named (F := Ideal) m ρ)

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- On the extended reals device `c`'s result is the sum over the devices of the block products of its rows, and
    that is block `c` of the whole product: the sum over the 6144 inner indices, run by run. -/
theorem algebraic : Cert.algebraic_KernelIdeal_ReferenceIdeal := by
  intro m ρ m' ρ' _ hagree
  refine ⟨Host.dotGeneral (F := Ideal) (φ₁ := .f32) (φ₂ := .f32) Cert.ReferenceIdeal.dot_S1536x6144_S6144x1536_S1536x1536_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?kernel, ?reference⟩
  case reference =>
    exact (θ_run Cert.ReferenceIdeal.defs _ _).mono (fun _ h => ⟨(h 0).1, (h 0).2.1, (h 0).2.2⟩) (Cert.ReferenceIdeal.Value.run (F := Ideal) m' ρ')
  case kernel =>
    refine (θ_run (Cert.KernelIdeal.defs (F := Ideal)) _ _).mono (fun _ h c => ⟨(h c).1.trans ?_, (h c).2⟩) (Cert.KernelIdeal.Hand.run_named (F := Ideal) m ρ)
    have hA : (fun d : Dev Cert.KernelIdeal.nD => m ((d.tc : Thread Cert.KernelIdeal.nD Cert.KernelIdeal.τ).loc Cert.KernelIdeal.main_arg0))
        = fun d => Layout.block ⟨2, ![1536, 768]⟩ ⟨2, ![1536, 6144]⟩ 1 8 d (m' (((0 : Dev Cert.ReferenceIdeal.nD).tc : Thread Cert.ReferenceIdeal.nD Cert.ReferenceIdeal.τ).loc Cert.ReferenceIdeal.main_arg0)) :=
      funext fun d => (hagree d).1
    have hB : (fun d : Dev Cert.KernelIdeal.nD => m ((d.tc : Thread Cert.KernelIdeal.nD Cert.KernelIdeal.τ).loc Cert.KernelIdeal.main_arg1))
        = fun d => Layout.block ⟨2, ![768, 1536]⟩ ⟨2, ![6144, 1536]⟩ 0 8 d (m' (((0 : Dev Cert.ReferenceIdeal.nD).tc : Thread Cert.ReferenceIdeal.nD Cert.ReferenceIdeal.τ).loc Cert.ReferenceIdeal.main_arg1)) :=
      funext fun d => (hagree d).2
    exact (Cert.KernelIdeal.HandValue.outAt_eq m c).trans
      ((congrArg₂ (fun A B => Cert.Hand.blockSum A B c) hA hB).trans (Cert.Hand.ref_block _ _ c).symm)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, preserves, algebraic⟩

end Cert.Proof

end
